-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)) (v5 : (c : Dev Cert.KernelIdeal.nD) → Buf (Elt Ideal) ((c.tc : Thread Cert.KernelIdeal.nD Cert.KernelIdeal.τ).loc Cert.KernelIdeal.main_v0_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_v0_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_v83) = v1 c
          ∧ r.2.mem ((c.tc : Thread Cert.ReferenceIdeal.nD Cert.ReferenceIdeal.τ).loc Cert.ReferenceIdeal.main_v156) = v2 c
          ∧ r.2.mem ((c.tc : Thread Cert.ReferenceIdeal.nD Cert.ReferenceIdeal.τ).loc Cert.ReferenceIdeal.main_v167) = v3 c
          ∧ r.2.mem ((c.tc : Thread Cert.ReferenceIdeal.nD Cert.ReferenceIdeal.τ).loc Cert.ReferenceIdeal.main_v240) = v4 c
          ∧ r.2.mem ((c.tc : Thread Cert.ReferenceIdeal.nD Cert.ReferenceIdeal.τ).loc Cert.ReferenceIdeal.main_v251) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2000000x7 : Shape := ⟨2, ![2000000, 7]⟩
abbrev S_ : Shape := ⟨0, ![]⟩

class Facts : Prop where
  bcast_S_S2000000x7 : S_.BroadcastsInDim S2000000x7 (![] : Fin 0 → Fin S2000000x7.rank)
  reducesTo_S2000000x7_S_d0_1 : S2000000x7.ReducesTo [0, 1] S_
  h_S_ : 0 < S_.numel

variable [Facts]

def fn {F : FTy → Type} [FloatOps F] (main_arg0 : FVec F S2000000x7 .f32) (main_arg1 : FVec F S2000000x7 .f32) : IVec S_ 1 :=
  let main_v0 : FVec F S2000000x7 .f32 := Host.absf main_arg0
  let main_cst : FVec F S_ .f32 := constant S_ .f32 0x7F800000#32
  let main_v1 : FVec F S2000000x7 .f32 := broadcastInDim S2000000x7 ![] bcast_S_S2000000x7 main_cst
  let main_v2 : IVec S2000000x7 1 := cmpf .olt main_v0 main_v1
  let main_c : IVec S_ 1 := constantI S_ 1 1#1
  let main_v3 : IVec S_ 1 := (fun x v => Host.reduce IntOp.andi x v reducesTo_S2000000x7_S_d0_1 h_S_) main_v2 main_c
  let main_v4 : FVec F S2000000x7 .f32 := Host.absf main_arg1
  let main_cst_0 : FVec F S_ .f32 := constant S_ .f32 0x7F800000#32
  let main_v5 : FVec F S2000000x7 .f32 := broadcastInDim S2000000x7 ![] bcast_S_S2000000x7 main_cst_0
  let main_v6 : IVec S2000000x7 1 := cmpf .olt main_v4 main_v5
  let main_c_1 : IVec S_ 1 := constantI S_ 1 1#1
  let main_v7 : IVec S_ 1 := (fun x v => Host.reduce IntOp.andi x v reducesTo_S2000000x7_S_d0_1 h_S_) main_v6 main_c_1
  let main_v8 : IVec S_ 1 := andi main_v3 main_v7
  main_v8
-- ==== Kernel.lean ====
abbrev S2000000x7 : Shape := ⟨2, ![2000000, 7]⟩
abbrev S2000000 : Shape := ⟨1, ![2000000]⟩
abbrev S16384x7 : Shape := ⟨2, ![16384, 7]⟩
abbrev S16384 : Shape := ⟨1, ![16384]⟩
abbrev S2048x7 : Shape := ⟨2, ![2048, 7]⟩
abbrev S7x2048 : Shape := ⟨2, ![7, 2048]⟩
abbrev S3x2048 : Shape := ⟨2, ![3, 2048]⟩
abbrev S1x2048 : Shape := ⟨2, ![1, 2048]⟩
abbrev S2048 : Shape := ⟨1, ![2048]⟩

abbrev nBuf : Space → Nat
  | .hbm => 8
  | .vmem => 16
  | .smem => 0
  | _ => 0

abbrev bufTy : (tb : Table) → Fin (tcTables nBuf tb) → BufTy
  | .hbm, ⟨0, _⟩ => ⟨S2000000x7, .f32⟩
  | .hbm, ⟨1, _⟩ => ⟨S2000000x7, .f32⟩
  | .hbm, ⟨2, _⟩ => ⟨S2000000, .f32⟩
  | .hbm, ⟨3, _⟩ => ⟨S2000000, .f32⟩
  | .hbm, ⟨4, _⟩ => ⟨S2000000, .f32⟩
  | .hbm, ⟨5, _⟩ => ⟨S2000000, .f32⟩
  | .hbm, ⟨6, _⟩ => ⟨S2000000, .f32⟩
  | .hbm, ⟨7, _⟩ => ⟨S2000000, .f32⟩
  | .local _ .vmem, ⟨0, _⟩ => ⟨S16384x7, .f32⟩
  | .local _ .vmem, ⟨1, _⟩ => ⟨S16384x7, .f32⟩
  | .local _ .vmem, ⟨2, _⟩ => ⟨S16384x7, .f32⟩
  | .local _ .vmem, ⟨3, _⟩ => ⟨S16384x7, .f32⟩
  | .local _ .vmem, ⟨4, _⟩ => ⟨S16384, .f32⟩
  | .local _ .vmem, ⟨5, _⟩ => ⟨S16384, .f32⟩
  | .local _ .vmem, ⟨6, _⟩ => ⟨S16384, .f32⟩
  | .local _ .vmem, ⟨7, _⟩ => ⟨S16384, .f32⟩
  | .local _ .vmem, ⟨8, _⟩ => ⟨S16384, .f32⟩
  | .local _ .vmem, ⟨9, _⟩ => ⟨S16384, .f32⟩
  | .local _ .vmem, ⟨10, _⟩ => ⟨S16384, .f32⟩
  | .local _ .vmem, ⟨11, _⟩ => ⟨S16384, .f32⟩
  | .local _ .vmem, ⟨12, _⟩ => ⟨S16384, .f32⟩
  | .local _ .vmem, ⟨13, _⟩ => ⟨S16384, .f32⟩
  | .local _ .vmem, ⟨14, _⟩ => ⟨S16384, .f32⟩
  | .local _ .vmem, ⟨15, _⟩ => ⟨S16384, .f32⟩
  | _, _ => ⟨S2000000x7, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v0_3 : Ref sig .tc := ⟨.hbm, 5, rfl⟩
abbrev main_v0_4 : Ref sig .tc := ⟨.hbm, 6, rfl⟩
abbrev main_v0_5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![123], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 1 → Nat :=
  let arg0 : BitVec 32 := BitVec.ofNat 32 (i 0).val
  let c0_i32 : BitVec 32 := 0#32
  ![arg0.toNat]

def cc0_transform_3 (i : grid0.Coords) : Fin 1 → Nat :=
  let arg0 : BitVec 32 := BitVec.ofNat 32 (i 0).val
  let c0_i32 : BitVec 32 := 0#32
  ![arg0.toNat]

def cc0_transform_4 (i : grid0.Coords) : Fin 1 → Nat :=
  let arg0 : BitVec 32 := BitVec.ofNat 32 (i 0).val
  let c0_i32 : BitVec 32 := 0#32
  ![arg0.toNat]

def cc0_transform_5 (i : grid0.Coords) : Fin 1 → Nat :=
  let arg0 : BitVec 32 := BitVec.ofNat 32 (i 0).val
  let c0_i32 : BitVec 32 := 0#32
  ![arg0.toNat]

def cc0_transform_6 (i : grid0.Coords) : Fin 1 → Nat :=
  let arg0 : BitVec 32 := BitVec.ofNat 32 (i 0).val
  let c0_i32 : BitVec 32 := 0#32
  ![arg0.toNat]

def cc0_transform_7 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S16384x7 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16384x7 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S16384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  inb_S16384x7_S2048x7_0_0 : ∀ a, (![0, 0] : Fin 2 → Nat) a + S2048x7.size a ≤ S16384x7.size a
  h_S2048x7 : 0 < S2048x7.numel
  transposes_S2048x7_p1_0_S7x2048 : S2048x7.Transposes [1, 0] S7x2048
  slices_S7x2048_o0_0_S3x2048 : S7x2048.Slices ![0, 0] S3x2048
  slices_S7x2048_o3_0_S3x2048 : S7x2048.Slices ![3, 0] S3x2048
  slices_S3x2048_o0_0_S1x2048 : S3x2048.Slices ![0, 0] S1x2048
  slices_S3x2048_o2_0_S1x2048 : S3x2048.Slices ![2, 0] S1x2048
  shapeCasts_S1x2048_S2048 : S1x2048.ShapeCasts S2048
  inb_S16384_S2048_0 : ∀ a, (![0] : Fin 1 → Nat) a + S2048.size a ≤ S16384.size a
  h_S2048 : 0 < S2048.numel
  slices_S3x2048_o1_0_S1x2048 : S3x2048.Slices ![1, 0] S1x2048
  inb_S16384x7_S2048x7_2048_0 : ∀ a, (![2048, 0] : Fin 2 → Nat) a + S2048x7.size a ≤ S16384x7.size a
  inb_S16384_S2048_2048 : ∀ a, (![2048] : Fin 1 → Nat) a + S2048.size a ≤ S16384.size a
  inb_S16384x7_S2048x7_4096_0 : ∀ a, (![4096, 0] : Fin 2 → Nat) a + S2048x7.size a ≤ S16384x7.size a
  inb_S16384_S2048_4096 : ∀ a, (![4096] : Fin 1 → Nat) a + S2048.size a ≤ S16384.size a
  inb_S16384x7_S2048x7_6144_0 : ∀ a, (![6144, 0] : Fin 2 → Nat) a + S2048x7.size a ≤ S16384x7.size a
  inb_S16384_S2048_6144 : ∀ a, (![6144] : Fin 1 → Nat) a + S2048.size a ≤ S16384.size a
  inb_S16384x7_S2048x7_8192_0 : ∀ a, (![8192, 0] : Fin 2 → Nat) a + S2048x7.size a ≤ S16384x7.size a
  inb_S16384_S2048_8192 : ∀ a, (![8192] : Fin 1 → Nat) a + S2048.size a ≤ S16384.size a
  inb_S16384x7_S2048x7_10240_0 : ∀ a, (![10240, 0] : Fin 2 → Nat) a + S2048x7.size a ≤ S16384x7.size a
  inb_S16384_S2048_10240 : ∀ a, (![10240] : Fin 1 → Nat) a + S2048.size a ≤ S16384.size a
  inb_S16384x7_S2048x7_12288_0 : ∀ a, (![12288, 0] : Fin 2 → Nat) a + S2048x7.size a ≤ S16384x7.size a
  inb_S16384_S2048_12288 : ∀ a, (![12288] : Fin 1 → Nat) a + S2048.size a ≤ S16384.size a
  inb_S16384x7_S2048x7_14336_0 : ∀ a, (![14336, 0] : Fin 2 → Nat) a + S2048x7.size a ≤ S16384x7.size a
  inb_S16384_S2048_14336 : ∀ a, (![14336] : Fin 1 → Nat) a + S2048.size a ≤ S16384.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S16384x7.size a < S2000000x7.size a
  hwx0_0 : ∀ i : grid0.Coords, EltTy.bits .f32 = 32 ∨ (Rect.unit (s := S2000000x7) (fun a => cc0_transform_0 i a * S16384x7.size a) (fun a => (Pipeline.Clip.of (cc0_transform_0 i a) (S16384x7.size a) (S2000000x7.size a)).extent (S16384x7.size a)) fun a => Pipeline.Clip.inb (Pipeline.Clip.ok_of (hstart0_0 i a))).WholeWords (EltTy.packing .f32)
  hwxs0_0 : ∀ i : grid0.Coords, EltTy.bits .f32 = 32 ∨ (Rect.unit (s := S16384x7) (fun _ => 0) (fun a => (Pipeline.Clip.of (cc0_transform_0 i a) (S16384x7.size a) (S2000000x7.size a)).extent (S16384x7.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S16384x7.size a < S2000000x7.size a
  hwx0_1 : ∀ i : grid0.Coords, EltTy.bits .f32 = 32 ∨ (Rect.unit (s := S2000000x7) (fun a => cc0_transform_1 i a * S16384x7.size a) (fun a => (Pipeline.Clip.of (cc0_transform_1 i a) (S16384x7.size a) (S2000000x7.size a)).extent (S16384x7.size a)) fun a => Pipeline.Clip.inb (Pipeline.Clip.ok_of (hstart0_1 i a))).WholeWords (EltTy.packing .f32)
  hwxs0_1 : ∀ i : grid0.Coords, EltTy.bits .f32 = 32 ∨ (Rect.unit (s := S16384x7) (fun _ => 0) (fun a => (Pipeline.Clip.of (cc0_transform_1 i a) (S16384x7.size a) (S2000000x7.size a)).extent (S16384x7.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S16384.size a < S2000000.size a
  hwx0_2 : ∀ i : grid0.Coords, EltTy.bits .f32 = 32 ∨ (Rect.unit (s := S2000000) (fun a => cc0_transform_2 i a * S16384.size a) (fun a => (Pipeline.Clip.of (cc0_transform_2 i a) (S16384.size a) (S2000000.size a)).extent (S16384.size a)) fun a => Pipeline.Clip.inb (Pipeline.Clip.ok_of (hstart0_2 i a))).WholeWords (EltTy.packing .f32)
  hwxs0_2 : ∀ i : grid0.Coords, EltTy.bits .f32 = 32 ∨ (Rect.unit (s := S16384) (fun _ => 0) (fun a => (Pipeline.Clip.of (cc0_transform_2 i a) (S16384.size a) (S2000000.size a)).extent (S16384.size a)) fun a => (Nat.zero_add _).trans_le (Pipeline.Clip.extent_le (Pipeline.Clip.ok_of (hstart0_2 i a)))).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S16384.size a < S2000000.size a
  hwx0_3 : ∀ i : grid0.Coords, EltTy.bits .f32 = 32 ∨ (Rect.unit (s := S2000000) (fun a => cc0_transform_3 i a * S16384.size a) (fun a => (Pipeline.Clip.of (cc0_transform_3 i a) (S16384.size a) (S2000000.size a)).extent (S16384.size a)) fun a => Pipeline.Clip.inb (Pipeline.Clip.ok_of (hstart0_3 i a))).WholeWords (EltTy.packing .f32)
  hwxs0_3 : ∀ i : grid0.Coords, EltTy.bits .f32 = 32 ∨ (Rect.unit (s := S16384) (fun _ => 0) (fun a => (Pipeline.Clip.of (cc0_transform_3 i a) (S16384.size a) (S2000000.size a)).extent (S16384.size a)) fun a => (Nat.zero_add _).trans_le (Pipeline.Clip.extent_le (Pipeline.Clip.ok_of (hstart0_3 i a)))).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hstart0_4 : ∀ (i : grid0.Coords) a, cc0_transform_4 i a * S16384.size a < S2000000.size a
  hwx0_4 : ∀ i : grid0.Coords, EltTy.bits .f32 = 32 ∨ (Rect.unit (s := S2000000) (fun a => cc0_transform_4 i a * S16384.size a) (fun a => (Pipeline.Clip.of (cc0_transform_4 i a) (S16384.size a) (S2000000.size a)).extent (S16384.size a)) fun a => Pipeline.Clip.inb (Pipeline.Clip.ok_of (hstart0_4 i a))).WholeWords (EltTy.packing .f32)
  hwxs0_4 : ∀ i : grid0.Coords, EltTy.bits .f32 = 32 ∨ (Rect.unit (s := S16384) (fun _ => 0) (fun a => (Pipeline.Clip.of (cc0_transform_4 i a) (S16384.size a) (S2000000.size a)).extent (S16384.size a)) fun a => (Nat.zero_add _).trans_le (Pipeline.Clip.extent_le (Pipeline.Clip.ok_of (hstart0_4 i a)))).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hstart0_5 : ∀ (i : grid0.Coords) a, cc0_transform_5 i a * S16384.size a < S2000000.size a
  hwx0_5 : ∀ i : grid0.Coords, EltTy.bits .f32 = 32 ∨ (Rect.unit (s := S2000000) (fun a => cc0_transform_5 i a * S16384.size a) (fun a => (Pipeline.Clip.of (cc0_transform_5 i a) (S16384.size a) (S2000000.size a)).extent (S16384.size a)) fun a => Pipeline.Clip.inb (Pipeline.Clip.ok_of (hstart0_5 i a))).WholeWords (EltTy.packing .f32)
  hwxs0_5 : ∀ i : grid0.Coords, EltTy.bits .f32 = 32 ∨ (Rect.unit (s := S16384) (fun _ => 0) (fun a => (Pipeline.Clip.of (cc0_transform_5 i a) (S16384.size a) (S2000000.size a)).extent (S16384.size a)) fun a => (Nat.zero_add _).trans_le (Pipeline.Clip.extent_le (Pipeline.Clip.ok_of (hstart0_5 i a)))).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hstart0_6 : ∀ (i : grid0.Coords) a, cc0_transform_6 i a * S16384.size a < S2000000.size a
  hwx0_6 : ∀ i : grid0.Coords, EltTy.bits .f32 = 32 ∨ (Rect.unit (s := S2000000) (fun a => cc0_transform_6 i a * S16384.size a) (fun a => (Pipeline.Clip.of (cc0_transform_6 i a) (S16384.size a) (S2000000.size a)).extent (S16384.size a)) fun a => Pipeline.Clip.inb (Pipeline.Clip.ok_of (hstart0_6 i a))).WholeWords (EltTy.packing .f32)
  hwxs0_6 : ∀ i : grid0.Coords, EltTy.bits .f32 = 32 ∨ (Rect.unit (s := S16384) (fun _ => 0) (fun a => (Pipeline.Clip.of (cc0_transform_6 i a) (S16384.size a) (S2000000.size a)).extent (S16384.size a)) fun a => (Nat.zero_add _).trans_le (Pipeline.Clip.extent_le (Pipeline.Clip.ok_of (hstart0_6 i a)))).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hstart0_7 : ∀ (i : grid0.Coords) a, cc0_transform_7 i a * S16384.size a < S2000000.size a
  hwx0_7 : ∀ i : grid0.Coords, EltTy.bits .f32 = 32 ∨ (Rect.unit (s := S2000000) (fun a => cc0_transform_7 i a * S16384.size a) (fun a => (Pipeline.Clip.of (cc0_transform_7 i a) (S16384.size a) (S2000000.size a)).extent (S16384.size a)) fun a => Pipeline.Clip.inb (Pipeline.Clip.ok_of (hstart0_7 i a))).WholeWords (EltTy.packing .f32)
  hwxs0_7 : ∀ i : grid0.Coords, EltTy.bits .f32 = 32 ∨ (Rect.unit (s := S16384) (fun _ => 0) (fun a => (Pipeline.Clip.of (cc0_transform_7 i a) (S16384.size a) (S2000000.size a)).extent (S16384.size a)) fun a => (Nat.zero_add _).trans_le (Pipeline.Clip.extent_le (Pipeline.Clip.ok_of (hstart0_7 i a)))).WholeWords (EltTy.packing .f32)

variable [Facts₀]

abbrev win0_0 : Pipeline.Window sig grid0 :=
  Pipeline.Window.ofSpecClip (Memref.whole main_arg0) S16384x7.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_arg1) S16384x7.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_v0_0) S16384.size cc0_transform_2 reads0_2 true false 2 stage0_2 sem0_2
    hrank0 hreads0_2 hstart0_2 nbuf0_2 (Memref.isWhole_whole _) hwx0_2 hwxs0_2 hstage0_2

abbrev win0_3 : Pipeline.Window sig grid0 :=
  Pipeline.Window.ofSpecClip (Memref.whole main_v0_1) S16384.size cc0_transform_3 reads0_3 true false 2 stage0_3 sem0_3
    hrank0 hreads0_3 hstart0_3 nbuf0_3 (Memref.isWhole_whole _) hwx0_3 hwxs0_3 hstage0_3

abbrev win0_4 : Pipeline.Window sig grid0 :=
  Pipeline.Window.ofSpecClip (Memref.whole main_v0_2) S16384.size cc0_transform_4 reads0_4 true false 2 stage0_4 sem0_4
    hrank0 hreads0_4 hstart0_4 nbuf0_4 (Memref.isWhole_whole _) hwx0_4 hwxs0_4 hstage0_4

abbrev win0_5 : Pipeline.Window sig grid0 :=
  Pipeline.Window.ofSpecClip (Memref.whole main_v0_3) S16384.size cc0_transform_5 reads0_5 true false 2 stage0_5 sem0_5
    hrank0 hreads0_5 hstart0_5 nbuf0_5 (Memref.isWhole_whole _) hwx0_5 hwxs0_5 hstage0_5

abbrev win0_6 : Pipeline.Window sig grid0 :=
  Pipeline.Window.ofSpecClip (Memref.whole main_v0_4) S16384.size cc0_transform_6 reads0_6 true false 2 stage0_6 sem0_6
    hrank0 hreads0_6 hstart0_6 nbuf0_6 (Memref.isWhole_whole _) hwx0_6 hwxs0_6 hstage0_6

abbrev win0_7 : Pipeline.Window sig grid0 :=
  Pipeline.Window.ofSpecClip (Memref.whole main_v0_5) S16384.size cc0_transform_7 reads0_7 true false 2 stage0_7 sem0_7
    hrank0 hreads0_7 hstart0_7 nbuf0_7 (Memref.isWhole_whole _) hwx0_7 hwxs0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S2000000x7 : Shape := ⟨2, ![2000000, 7]⟩
abbrev S2000000x1 : Shape := ⟨2, ![2000000, 1]⟩
abbrev S2000000 : Shape := ⟨1, ![2000000]⟩
abbrev S_ : Shape := ⟨0, ![]⟩

abbrev nBuf : Space → Nat
  | .hbm => 305
  | .vmem => 0
  | .smem => 0
  | _ => 0

abbrev hbmTy0_0 (i : Nat) : BufTy := match i % 128 with
  | 0 => ⟨S2000000x7, .f32⟩
  | 1 => ⟨S2000000x7, .f32⟩
  | 2 => ⟨S2000000x1, .f32⟩
  | 3 => ⟨S2000000, .f32⟩
  | 4 => ⟨S2000000x1, .f32⟩
  | 5 => ⟨S2000000, .f32⟩
  | 6 => ⟨S_, .f32⟩
  | 7 => ⟨S2000000, .f32⟩
  | 8 => ⟨S2000000, .f32⟩
  | 9 => ⟨S2000000, .f32⟩
  | 10 => ⟨S2000000x1, .f32⟩
  | 11 => ⟨S2000000, .f32⟩
  | 12 => ⟨S2000000x1, .f32⟩
  | 13 => ⟨S2000000, .f32⟩
  | 14 => ⟨S_, .f32⟩
  | 15 => ⟨S2000000, .f32⟩
  | 16 => ⟨S2000000, .f32⟩
  | 17 => ⟨S2000000, .f32⟩
  | 18 => ⟨S2000000x1, .f32⟩
  | 19 => ⟨S2000000, .f32⟩
  | 20 => ⟨S2000000x1, .f32⟩
  | 21 => ⟨S2000000, .f32⟩
  | 22 => ⟨S_, .f32⟩
  | 23 => ⟨S2000000, .f32⟩
  | 24 => ⟨S2000000, .f32⟩
  | 25 => ⟨S2000000, .f32⟩
  | 26 => ⟨S2000000x1, .f32⟩
  | 27 => ⟨S2000000, .f32⟩
  | 28 => ⟨S2000000x1, .f32⟩
  | 29 => ⟨S2000000, .f32⟩
  | 30 => ⟨S_, .f32⟩
  | 31 => ⟨S2000000, .f32⟩
  | 32 => ⟨S2000000, .f32⟩
  | 33 => ⟨S2000000, .f32⟩
  | 34 => ⟨S2000000x1, .f32⟩
  | 35 => ⟨S2000000, .f32⟩
  | 36 => ⟨S2000000x1, .f32⟩
  | 37 => ⟨S2000000, .f32⟩
  | 38 => ⟨S_, .f32⟩
  | 39 => ⟨S2000000, .f32⟩
  | 40 => ⟨S2000000, .f32⟩
  | 41 => ⟨S2000000, .f32⟩
  | 42 => ⟨S2000000x1, .f32⟩
  | 43 => ⟨S2000000, .f32⟩
  | 44 => ⟨S2000000x1, .f32⟩
  | 45 => ⟨S2000000, .f32⟩
  | 46 => ⟨S_, .f32⟩
  | 47 => ⟨S2000000, .f32⟩
  | 48 => ⟨S2000000, .f32⟩
  | 49 => ⟨S2000000, .f32⟩
  | 50 => ⟨S2000000x1, .f32⟩
  | 51 => ⟨S2000000, .f32⟩
  | 52 => ⟨S2000000x1, .f32⟩
  | 53 => ⟨S2000000, .f32⟩
  | 54 => ⟨S_, .f32⟩
  | 55 => ⟨S2000000, .f32⟩
  | 56 => ⟨S2000000, .f32⟩
  | 57 => ⟨S2000000, .f32⟩
  | 58 => ⟨S2000000x1, .f32⟩
  | 59 => ⟨S2000000, .f32⟩
  | 60 => ⟨S2000000x1, .f32⟩
  | 61 => ⟨S2000000, .f32⟩
  | 62 => ⟨S_, .f32⟩
  | 63 => ⟨S2000000, .f32⟩
  | 64 => ⟨S2000000, .f32⟩
  | 65 => ⟨S2000000, .f32⟩
  | 66 => ⟨S2000000, .f32⟩
  | 67 => ⟨S2000000, .f32⟩
  | 68 => ⟨S2000000, .f32⟩
  | 69 => ⟨S_, .f32⟩
  | 70 => ⟨S2000000, .f32⟩
  | 71 => ⟨S2000000, .f32⟩
  | 72 => ⟨S2000000, .f32⟩
  | 73 => ⟨S2000000, .f32⟩
  | 74 => ⟨S2000000, .f32⟩
  | 75 => ⟨S_, .f32⟩
  | 76 => ⟨S2000000, .f32⟩
  | 77 => ⟨S2000000, .f32⟩
  | 78 => ⟨S_, .f32⟩
  | 79 => ⟨S2000000, .f32⟩
  | 80 => ⟨S2000000, .i1⟩
  | 81 => ⟨S_, .f32⟩
  | 82 => ⟨S2000000, .f32⟩
  | 83 => ⟨S2000000, .i1⟩
  | 84 => ⟨S2000000, .i1⟩
  | 85 => ⟨S2000000, .f32⟩
  | 86 => ⟨S_, .f32⟩
  | 87 => ⟨S_, .f32⟩
  | 88 => ⟨S2000000, .f32⟩
  | 89 => ⟨S2000000, .f32⟩
  | 90 => ⟨S2000000, .f32⟩
  | 91 => ⟨S2000000, .f32⟩
  | 92 => ⟨S2000000, .f32⟩
  | 93 => ⟨S_, .f32⟩
  | 94 => ⟨S2000000, .f32⟩
  | 95 => ⟨S2000000, .f32⟩
  | 96 => ⟨S2000000, .f32⟩
  | 97 => ⟨S2000000, .f32⟩
  | 98 => ⟨S2000000, .f32⟩
  | 99 => ⟨S_, .f32⟩
  | 100 => ⟨S2000000, .f32⟩
  | 101 => ⟨S2000000, .f32⟩
  | 102 => ⟨S2000000, .f32⟩
  | 103 => ⟨S2000000x1, .f32⟩
  | 104 => ⟨S2000000, .f32⟩
  | 105 => ⟨S2000000x1, .f32⟩
  | 106 => ⟨S2000000, .f32⟩
  | 107 => ⟨S_, .f32⟩
  | 108 => ⟨S2000000, .f32⟩
  | 109 => ⟨S2000000, .f32⟩
  | 110 => ⟨S2000000, .f32⟩
  | 111 => ⟨S2000000x1, .f32⟩
  | 112 => ⟨S2000000, .f32⟩
  | 113 => ⟨S2000000x1, .f32⟩
  | 114 => ⟨S2000000, .f32⟩
  | 115 => ⟨S_, .f32⟩
  | 116 => ⟨S2000000, .f32⟩
  | 117 => ⟨S2000000, .f32⟩
  | 118 => ⟨S2000000, .f32⟩
  | 119 => ⟨S2000000x1, .f32⟩
  | 120 => ⟨S2000000, .f32⟩
  | 121 => ⟨S2000000x1, .f32⟩
  | 122 => ⟨S2000000, .f32⟩
  | 123 => ⟨S_, .f32⟩
  | 124 => ⟨S2000000, .f32⟩
  | 125 => ⟨S2000000, .f32⟩
  | 126 => ⟨S2000000, .f32⟩
  | 127 => ⟨S2000000x1, .f32⟩
  | _ => ⟨S2000000x7, .f32⟩

abbrev hbmTy0_1 (i : Nat) : BufTy := match i % 128 with
  | 0 => ⟨S2000000, .f32⟩
  | 1 => ⟨S2000000x1, .f32⟩
  | 2 => ⟨S2000000, .f32⟩
  | 3 => ⟨S_, .f32⟩
  | 4 => ⟨S2000000, .f32⟩
  | 5 => ⟨S2000000, .f32⟩
  | 6 => ⟨S2000000, .f32⟩
  | 7 => ⟨S2000000x1, .f32⟩
  | 8 => ⟨S2000000, .f32⟩
  | 9 => ⟨S2000000x1, .f32⟩
  | 10 => ⟨S2000000, .f32⟩
  | 11 => ⟨S_, .f32⟩
  | 12 => ⟨S2000000, .f32⟩
  | 13 => ⟨S2000000, .f32⟩
  | 14 => ⟨S2000000, .f32⟩
  | 15 => ⟨S2000000x1, .f32⟩
  | 16 => ⟨S2000000, .f32⟩
  | 17 => ⟨S2000000x1, .f32⟩
  | 18 => ⟨S2000000, .f32⟩
  | 19 => ⟨S_, .f32⟩
  | 20 => ⟨S2000000, .f32⟩
  | 21 => ⟨S2000000, .f32⟩
  | 22 => ⟨S2000000, .f32⟩
  | 23 => ⟨S2000000x1, .f32⟩
  | 24 => ⟨S2000000, .f32⟩
  | 25 => ⟨S2000000x1, .f32⟩
  | 26 => ⟨S2000000, .f32⟩
  | 27 => ⟨S_, .f32⟩
  | 28 => ⟨S2000000, .f32⟩
  | 29 => ⟨S2000000, .f32⟩
  | 30 => ⟨S2000000, .f32⟩
  | 31 => ⟨S2000000x1, .f32⟩
  | 32 => ⟨S2000000, .f32⟩
  | 33 => ⟨S2000000x1, .f32⟩
  | 34 => ⟨S2000000, .f32⟩
  | 35 => ⟨S_, .f32⟩
  | 36 => ⟨S2000000, .f32⟩
  | 37 => ⟨S2000000, .f32⟩
  | 38 => ⟨S2000000, .f32⟩
  | 39 => ⟨S2000000, .f32⟩
  | 40 => ⟨S2000000, .f32⟩
  | 41 => ⟨S2000000, .f32⟩
  | 42 => ⟨S_, .f32⟩
  | 43 => ⟨S2000000, .f32⟩
  | 44 => ⟨S2000000, .f32⟩
  | 45 => ⟨S2000000, .f32⟩
  | 46 => ⟨S2000000, .f32⟩
  | 47 => ⟨S2000000, .f32⟩
  | 48 => ⟨S_, .f32⟩
  | 49 => ⟨S2000000, .f32⟩
  | 50 => ⟨S2000000, .f32⟩
  | 51 => ⟨S_, .f32⟩
  | 52 => ⟨S2000000, .f32⟩
  | 53 => ⟨S2000000, .i1⟩
  | 54 => ⟨S_, .f32⟩
  | 55 => ⟨S2000000, .f32⟩
  | 56 => ⟨S2000000, .i1⟩
  | 57 => ⟨S2000000, .i1⟩
  | 58 => ⟨S2000000, .f32⟩
  | 59 => ⟨S_, .f32⟩
  | 60 => ⟨S_, .f32⟩
  | 61 => ⟨S2000000, .f32⟩
  | 62 => ⟨S2000000, .f32⟩
  | 63 => ⟨S2000000, .f32⟩
  | 64 => ⟨S2000000, .f32⟩
  | 65 => ⟨S2000000, .f32⟩
  | 66 => ⟨S_, .f32⟩
  | 67 => ⟨S2000000, .f32⟩
  | 68 => ⟨S2000000, .f32⟩
  | 69 => ⟨S2000000, .f32⟩
  | 70 => ⟨S2000000, .f32⟩
  | 71 => ⟨S2000000, .f32⟩
  | 72 => ⟨S_, .f32⟩
  | 73 => ⟨S2000000, .f32⟩
  | 74 => ⟨S2000000, .f32⟩
  | 75 => ⟨S2000000, .f32⟩
  | 76 => ⟨S2000000x1, .f32⟩
  | 77 => ⟨S2000000, .f32⟩
  | 78 => ⟨S2000000x1, .f32⟩
  | 79 => ⟨S2000000, .f32⟩
  | 80 => ⟨S_, .f32⟩
  | 81 => ⟨S2000000, .f32⟩
  | 82 => ⟨S2000000, .f32⟩
  | 83 => ⟨S2000000, .f32⟩
  | 84 => ⟨S2000000x1, .f32⟩
  | 85 => ⟨S2000000, .f32⟩
  | 86 => ⟨S2000000x1, .f32⟩
  | 87 => ⟨S2000000, .f32⟩
  | 88 => ⟨S_, .f32⟩
  | 89 => ⟨S2000000, .f32⟩
  | 90 => ⟨S2000000, .f32⟩
  | 91 => ⟨S2000000, .f32⟩
  | 92 => ⟨S2000000x1, .f32⟩
  | 93 => ⟨S2000000, .f32⟩
  | 94 => ⟨S2000000x1, .f32⟩
  | 95 => ⟨S2000000, .f32⟩
  | 96 => ⟨S_, .f32⟩
  | 97 => ⟨S2000000, .f32⟩
  | 98 => ⟨S2000000, .f32⟩
  | 99 => ⟨S2000000, .f32⟩
  | 100 => ⟨S2000000x1, .f32⟩
  | 101 => ⟨S2000000, .f32⟩
  | 102 => ⟨S2000000x1, .f32⟩
  | 103 => ⟨S2000000, .f32⟩
  | 104 => ⟨S_, .f32⟩
  | 105 => ⟨S2000000, .f32⟩
  | 106 => ⟨S2000000, .f32⟩
  | 107 => ⟨S2000000, .f32⟩
  | 108 => ⟨S2000000x1, .f32⟩
  | 109 => ⟨S2000000, .f32⟩
  | 110 => ⟨S2000000x1, .f32⟩
  | 111 => ⟨S2000000, .f32⟩
  | 112 => ⟨S_, .f32⟩
  | 113 => ⟨S2000000, .f32⟩
  | 114 => ⟨S2000000, .f32⟩
  | 115 => ⟨S2000000, .f32⟩
  | 116 => ⟨S2000000x1, .f32⟩
  | 117 => ⟨S2000000, .f32⟩
  | 118 => ⟨S2000000x1, .f32⟩
  | 119 => ⟨S2000000, .f32⟩
  | 120 => ⟨S_, .f32⟩
  | 121 => ⟨S2000000, .f32⟩
  | 122 => ⟨S2000000, .f32⟩
  | 123 => ⟨S2000000, .f32⟩
  | 124 => ⟨S2000000x1, .f32⟩
  | 125 => ⟨S2000000, .f32⟩
  | 126 => ⟨S2000000x1, .f32⟩
  | 127 => ⟨S2000000, .f32⟩
  | _ => ⟨S2000000x7, .f32⟩

abbrev hbmTy0_2 (i : Nat) : BufTy := match i % 128 with
  | 0 => ⟨S_, .f32⟩
  | 1 => ⟨S2000000, .f32⟩
  | 2 => ⟨S2000000, .f32⟩
  | 3 => ⟨S2000000, .f32⟩
  | 4 => ⟨S2000000x1, .f32⟩
  | 5 => ⟨S2000000, .f32⟩
  | 6 => ⟨S2000000x1, .f32⟩
  | 7 => ⟨S2000000, .f32⟩
  | 8 => ⟨S_, .f32⟩
  | 9 => ⟨S2000000, .f32⟩
  | 10 => ⟨S2000000, .f32⟩
  | 11 => ⟨S2000000, .f32⟩
  | 12 => ⟨S2000000, .f32⟩
  | 13 => ⟨S2000000, .f32⟩
  | 14 => ⟨S2000000, .f32⟩
  | 15 => ⟨S_, .f32⟩
  | 16 => ⟨S2000000, .f32⟩
  | 17 => ⟨S2000000, .f32⟩
  | 18 => ⟨S2000000, .f32⟩
  | 19 => ⟨S2000000, .f32⟩
  | 20 => ⟨S2000000, .f32⟩
  | 21 => ⟨S_, .f32⟩
  | 22 => ⟨S2000000, .f32⟩
  | 23 => ⟨S2000000, .f32⟩
  | 24 => ⟨S_, .f32⟩
  | 25 => ⟨S2000000, .f32⟩
  | 26 => ⟨S2000000, .i1⟩
  | 27 => ⟨S_, .f32⟩
  | 28 => ⟨S2000000, .f32⟩
  | 29 => ⟨S2000000, .i1⟩
  | 30 => ⟨S2000000, .i1⟩
  | 31 => ⟨S2000000, .f32⟩
  | 32 => ⟨S_, .f32⟩
  | 33 => ⟨S_, .f32⟩
  | 34 => ⟨S2000000, .f32⟩
  | 35 => ⟨S2000000, .f32⟩
  | 36 => ⟨S2000000, .f32⟩
  | 37 => ⟨S2000000, .f32⟩
  | 38 => ⟨S2000000, .f32⟩
  | 39 => ⟨S_, .f32⟩
  | 40 => ⟨S2000000, .f32⟩
  | 41 => ⟨S2000000, .f32⟩
  | 42 => ⟨S2000000, .f32⟩
  | 43 => ⟨S2000000, .f32⟩
  | 44 => ⟨S2000000, .f32⟩
  | 45 => ⟨S_, .f32⟩
  | 46 => ⟨S2000000, .f32⟩
  | 47 => ⟨S2000000, .f32⟩
  | 48 => ⟨S2000000, .f32⟩
  | _ => ⟨S2000000x7, .f32⟩

abbrev hbmTy (i : Nat) : BufTy := match i / 128 with
  | 0 => hbmTy0_0 i
  | 1 => hbmTy0_1 i
  | 2 => hbmTy0_2 i
  | _ => ⟨S2000000x7, .f32⟩

abbrev bufTy : (tb : Table) → Fin (tcTables nBuf tb) → BufTy
  | .hbm, ⟨i, _⟩ => hbmTy i
  | _, _ => ⟨S2000000x7, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_cst_1 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_cst_2 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_cst_3 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_cst_4 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_cst_5 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_cst_6 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_cst_7 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_cst_8 : Ref sig .tc := ⟨.hbm, 75, rfl⟩
abbrev main_v64 : Ref sig .tc := ⟨.hbm, 76, rfl⟩
abbrev main_v65 : Ref sig .tc := ⟨.hbm, 77, rfl⟩
abbrev main_cst_9 : Ref sig .tc := ⟨.hbm, 78, rfl⟩
abbrev main_v66 : Ref sig .tc := ⟨.hbm, 79, rfl⟩
abbrev main_v67 : Ref sig .tc := ⟨.hbm, 80, rfl⟩
abbrev main_cst_10 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_cst_11 : Ref sig .tc := ⟨.hbm, 86, rfl⟩
abbrev main_call0_v0 : Ref sig .tc := ⟨.hbm, 87, rfl⟩
abbrev main_call0_v1 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_cst_12 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_cst_13 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_cst_14 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_cst_15 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_cst_16 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_v108 : Ref sig .tc := ⟨.hbm, 130, rfl⟩
abbrev main_cst_17 : Ref sig .tc := ⟨.hbm, 131, rfl⟩
abbrev main_v109 : Ref sig .tc := ⟨.hbm, 132, rfl⟩
abbrev main_v110 : Ref sig .tc := ⟨.hbm, 133, rfl⟩
abbrev main_v111 : Ref sig .tc := ⟨.hbm, 134, rfl⟩
abbrev main_v112 : Ref sig .tc := ⟨.hbm, 135, rfl⟩
abbrev main_v113 : Ref sig .tc := ⟨.hbm, 136, rfl⟩
abbrev main_v114 : Ref sig .tc := ⟨.hbm, 137, rfl⟩
abbrev main_v115 : Ref sig .tc := ⟨.hbm, 138, rfl⟩
abbrev main_cst_18 : Ref sig .tc := ⟨.hbm, 139, rfl⟩
abbrev main_v116 : Ref sig .tc := ⟨.hbm, 140, rfl⟩
abbrev main_v117 : Ref sig .tc := ⟨.hbm, 141, rfl⟩
abbrev main_v118 : Ref sig .tc := ⟨.hbm, 142, rfl⟩
abbrev main_v119 : Ref sig .tc := ⟨.hbm, 143, rfl⟩
abbrev main_v120 : Ref sig .tc := ⟨.hbm, 144, rfl⟩
abbrev main_v121 : Ref sig .tc := ⟨.hbm, 145, rfl⟩
abbrev main_v122 : Ref sig .tc := ⟨.hbm, 146, rfl⟩
abbrev main_cst_19 : Ref sig .tc := ⟨.hbm, 147, rfl⟩
abbrev main_v123 : Ref sig .tc := ⟨.hbm, 148, rfl⟩
abbrev main_v124 : Ref sig .tc := ⟨.hbm, 149, rfl⟩
abbrev main_v125 : Ref sig .tc := ⟨.hbm, 150, rfl⟩
abbrev main_v126 : Ref sig .tc := ⟨.hbm, 151, rfl⟩
abbrev main_v127 : Ref sig .tc := ⟨.hbm, 152, rfl⟩
abbrev main_v128 : Ref sig .tc := ⟨.hbm, 153, rfl⟩
abbrev main_v129 : Ref sig .tc := ⟨.hbm, 154, rfl⟩
abbrev main_cst_20 : Ref sig .tc := ⟨.hbm, 155, rfl⟩
abbrev main_v130 : Ref sig .tc := ⟨.hbm, 156, rfl⟩
abbrev main_v131 : Ref sig .tc := ⟨.hbm, 157, rfl⟩
abbrev main_v132 : Ref sig .tc := ⟨.hbm, 158, rfl⟩
abbrev main_v133 : Ref sig .tc := ⟨.hbm, 159, rfl⟩
abbrev main_v134 : Ref sig .tc := ⟨.hbm, 160, rfl⟩
abbrev main_v135 : Ref sig .tc := ⟨.hbm, 161, rfl⟩
abbrev main_v136 : Ref sig .tc := ⟨.hbm, 162, rfl⟩
abbrev main_cst_21 : Ref sig .tc := ⟨.hbm, 163, rfl⟩
abbrev main_v137 : Ref sig .tc := ⟨.hbm, 164, rfl⟩
abbrev main_v138 : Ref sig .tc := ⟨.hbm, 165, rfl⟩
abbrev main_v139 : Ref sig .tc := ⟨.hbm, 166, rfl⟩
abbrev main_v140 : Ref sig .tc := ⟨.hbm, 167, rfl⟩
abbrev main_v141 : Ref sig .tc := ⟨.hbm, 168, rfl⟩
abbrev main_v142 : Ref sig .tc := ⟨.hbm, 169, rfl⟩
abbrev main_cst_22 : Ref sig .tc := ⟨.hbm, 170, rfl⟩
abbrev main_v143 : Ref sig .tc := ⟨.hbm, 171, rfl⟩
abbrev main_v144 : Ref sig .tc := ⟨.hbm, 172, rfl⟩
abbrev main_v145 : Ref sig .tc := ⟨.hbm, 173, rfl⟩
abbrev main_v146 : Ref sig .tc := ⟨.hbm, 174, rfl⟩
abbrev main_v147 : Ref sig .tc := ⟨.hbm, 175, rfl⟩
abbrev main_cst_23 : Ref sig .tc := ⟨.hbm, 176, rfl⟩
abbrev main_v148 : Ref sig .tc := ⟨.hbm, 177, rfl⟩
abbrev main_v149 : Ref sig .tc := ⟨.hbm, 178, rfl⟩
abbrev main_cst_24 : Ref sig .tc := ⟨.hbm, 179, rfl⟩
abbrev main_v150 : Ref sig .tc := ⟨.hbm, 180, rfl⟩
abbrev main_v151 : Ref sig .tc := ⟨.hbm, 181, rfl⟩
abbrev main_cst_25 : Ref sig .tc := ⟨.hbm, 182, rfl⟩
abbrev main_v152 : Ref sig .tc := ⟨.hbm, 183, rfl⟩
abbrev main_v153 : Ref sig .tc := ⟨.hbm, 184, rfl⟩
abbrev main_v154 : Ref sig .tc := ⟨.hbm, 185, rfl⟩
abbrev main_v155 : Ref sig .tc := ⟨.hbm, 186, rfl⟩
abbrev main_cst_26 : Ref sig .tc := ⟨.hbm, 187, rfl⟩
abbrev main_call1_v0 : Ref sig .tc := ⟨.hbm, 188, rfl⟩
abbrev main_call1_v1 : Ref sig .tc := ⟨.hbm, 189, rfl⟩
abbrev main_v156 : Ref sig .tc := ⟨.hbm, 190, rfl⟩
abbrev main_v157 : Ref sig .tc := ⟨.hbm, 191, rfl⟩
abbrev main_v158 : Ref sig .tc := ⟨.hbm, 192, rfl⟩
abbrev main_v159 : Ref sig .tc := ⟨.hbm, 193, rfl⟩
abbrev main_cst_27 : Ref sig .tc := ⟨.hbm, 194, rfl⟩
abbrev main_v160 : Ref sig .tc := ⟨.hbm, 195, rfl⟩
abbrev main_v161 : Ref sig .tc := ⟨.hbm, 196, rfl⟩
abbrev main_v162 : Ref sig .tc := ⟨.hbm, 197, rfl⟩
abbrev main_v163 : Ref sig .tc := ⟨.hbm, 198, rfl⟩
abbrev main_v164 : Ref sig .tc := ⟨.hbm, 199, rfl⟩
abbrev main_cst_28 : Ref sig .tc := ⟨.hbm, 200, rfl⟩
abbrev main_v165 : Ref sig .tc := ⟨.hbm, 201, rfl⟩
abbrev main_v166 : Ref sig .tc := ⟨.hbm, 202, rfl⟩
abbrev main_v167 : Ref sig .tc := ⟨.hbm, 203, rfl⟩
abbrev main_v168 : Ref sig .tc := ⟨.hbm, 204, rfl⟩
abbrev main_v169 : Ref sig .tc := ⟨.hbm, 205, rfl⟩
abbrev main_v170 : Ref sig .tc := ⟨.hbm, 206, rfl⟩
abbrev main_v171 : Ref sig .tc := ⟨.hbm, 207, rfl⟩
abbrev main_cst_29 : Ref sig .tc := ⟨.hbm, 208, rfl⟩
abbrev main_v172 : Ref sig .tc := ⟨.hbm, 209, rfl⟩
abbrev main_v173 : Ref sig .tc := ⟨.hbm, 210, rfl⟩
abbrev main_v174 : Ref sig .tc := ⟨.hbm, 211, rfl⟩
abbrev main_v175 : Ref sig .tc := ⟨.hbm, 212, rfl⟩
abbrev main_v176 : Ref sig .tc := ⟨.hbm, 213, rfl⟩
abbrev main_v177 : Ref sig .tc := ⟨.hbm, 214, rfl⟩
abbrev main_v178 : Ref sig .tc := ⟨.hbm, 215, rfl⟩
abbrev main_cst_30 : Ref sig .tc := ⟨.hbm, 216, rfl⟩
abbrev main_v179 : Ref sig .tc := ⟨.hbm, 217, rfl⟩
abbrev main_v180 : Ref sig .tc := ⟨.hbm, 218, rfl⟩
abbrev main_v181 : Ref sig .tc := ⟨.hbm, 219, rfl⟩
abbrev main_v182 : Ref sig .tc := ⟨.hbm, 220, rfl⟩
abbrev main_v183 : Ref sig .tc := ⟨.hbm, 221, rfl⟩
abbrev main_v184 : Ref sig .tc := ⟨.hbm, 222, rfl⟩
abbrev main_v185 : Ref sig .tc := ⟨.hbm, 223, rfl⟩
abbrev main_cst_31 : Ref sig .tc := ⟨.hbm, 224, rfl⟩
abbrev main_v186 : Ref sig .tc := ⟨.hbm, 225, rfl⟩
abbrev main_v187 : Ref sig .tc := ⟨.hbm, 226, rfl⟩
abbrev main_v188 : Ref sig .tc := ⟨.hbm, 227, rfl⟩
abbrev main_v189 : Ref sig .tc := ⟨.hbm, 228, rfl⟩
abbrev main_v190 : Ref sig .tc := ⟨.hbm, 229, rfl⟩
abbrev main_v191 : Ref sig .tc := ⟨.hbm, 230, rfl⟩
abbrev main_v192 : Ref sig .tc := ⟨.hbm, 231, rfl⟩
abbrev main_cst_32 : Ref sig .tc := ⟨.hbm, 232, rfl⟩
abbrev main_v193 : Ref sig .tc := ⟨.hbm, 233, rfl⟩
abbrev main_v194 : Ref sig .tc := ⟨.hbm, 234, rfl⟩
abbrev main_v195 : Ref sig .tc := ⟨.hbm, 235, rfl⟩
abbrev main_v196 : Ref sig .tc := ⟨.hbm, 236, rfl⟩
abbrev main_v197 : Ref sig .tc := ⟨.hbm, 237, rfl⟩
abbrev main_v198 : Ref sig .tc := ⟨.hbm, 238, rfl⟩
abbrev main_v199 : Ref sig .tc := ⟨.hbm, 239, rfl⟩
abbrev main_cst_33 : Ref sig .tc := ⟨.hbm, 240, rfl⟩
abbrev main_v200 : Ref sig .tc := ⟨.hbm, 241, rfl⟩
abbrev main_v201 : Ref sig .tc := ⟨.hbm, 242, rfl⟩
abbrev main_v202 : Ref sig .tc := ⟨.hbm, 243, rfl⟩
abbrev main_v203 : Ref sig .tc := ⟨.hbm, 244, rfl⟩
abbrev main_v204 : Ref sig .tc := ⟨.hbm, 245, rfl⟩
abbrev main_v205 : Ref sig .tc := ⟨.hbm, 246, rfl⟩
abbrev main_v206 : Ref sig .tc := ⟨.hbm, 247, rfl⟩
abbrev main_cst_34 : Ref sig .tc := ⟨.hbm, 248, rfl⟩
abbrev main_v207 : Ref sig .tc := ⟨.hbm, 249, rfl⟩
abbrev main_v208 : Ref sig .tc := ⟨.hbm, 250, rfl⟩
abbrev main_v209 : Ref sig .tc := ⟨.hbm, 251, rfl⟩
abbrev main_v210 : Ref sig .tc := ⟨.hbm, 252, rfl⟩
abbrev main_v211 : Ref sig .tc := ⟨.hbm, 253, rfl⟩
abbrev main_v212 : Ref sig .tc := ⟨.hbm, 254, rfl⟩
abbrev main_v213 : Ref sig .tc := ⟨.hbm, 255, rfl⟩
abbrev main_cst_35 : Ref sig .tc := ⟨.hbm, 256, rfl⟩
abbrev main_v214 : Ref sig .tc := ⟨.hbm, 257, rfl⟩
abbrev main_v215 : Ref sig .tc := ⟨.hbm, 258, rfl⟩
abbrev main_v216 : Ref sig .tc := ⟨.hbm, 259, rfl⟩
abbrev main_v217 : Ref sig .tc := ⟨.hbm, 260, rfl⟩
abbrev main_v218 : Ref sig .tc := ⟨.hbm, 261, rfl⟩
abbrev main_v219 : Ref sig .tc := ⟨.hbm, 262, rfl⟩
abbrev main_v220 : Ref sig .tc := ⟨.hbm, 263, rfl⟩
abbrev main_cst_36 : Ref sig .tc := ⟨.hbm, 264, rfl⟩
abbrev main_v221 : Ref sig .tc := ⟨.hbm, 265, rfl⟩
abbrev main_v222 : Ref sig .tc := ⟨.hbm, 266, rfl⟩
abbrev main_v223 : Ref sig .tc := ⟨.hbm, 267, rfl⟩
abbrev main_v224 : Ref sig .tc := ⟨.hbm, 268, rfl⟩
abbrev main_v225 : Ref sig .tc := ⟨.hbm, 269, rfl⟩
abbrev main_v226 : Ref sig .tc := ⟨.hbm, 270, rfl⟩
abbrev main_cst_37 : Ref sig .tc := ⟨.hbm, 271, rfl⟩
abbrev main_v227 : Ref sig .tc := ⟨.hbm, 272, rfl⟩
abbrev main_v228 : Ref sig .tc := ⟨.hbm, 273, rfl⟩
abbrev main_v229 : Ref sig .tc := ⟨.hbm, 274, rfl⟩
abbrev main_v230 : Ref sig .tc := ⟨.hbm, 275, rfl⟩
abbrev main_v231 : Ref sig .tc := ⟨.hbm, 276, rfl⟩
abbrev main_cst_38 : Ref sig .tc := ⟨.hbm, 277, rfl⟩
abbrev main_v232 : Ref sig .tc := ⟨.hbm, 278, rfl⟩
abbrev main_v233 : Ref sig .tc := ⟨.hbm, 279, rfl⟩
abbrev main_cst_39 : Ref sig .tc := ⟨.hbm, 280, rfl⟩
abbrev main_v234 : Ref sig .tc := ⟨.hbm, 281, rfl⟩
abbrev main_v235 : Ref sig .tc := ⟨.hbm, 282, rfl⟩
abbrev main_cst_40 : Ref sig .tc := ⟨.hbm, 283, rfl⟩
abbrev main_v236 : Ref sig .tc := ⟨.hbm, 284, rfl⟩
abbrev main_v237 : Ref sig .tc := ⟨.hbm, 285, rfl⟩
abbrev main_v238 : Ref sig .tc := ⟨.hbm, 286, rfl⟩
abbrev main_v239 : Ref sig .tc := ⟨.hbm, 287, rfl⟩
abbrev main_cst_41 : Ref sig .tc := ⟨.hbm, 288, rfl⟩
abbrev main_call2_v0 : Ref sig .tc := ⟨.hbm, 289, rfl⟩
abbrev main_call2_v1 : Ref sig .tc := ⟨.hbm, 290, rfl⟩
abbrev main_v240 : Ref sig .tc := ⟨.hbm, 291, rfl⟩
abbrev main_v241 : Ref sig .tc := ⟨.hbm, 292, rfl⟩
abbrev main_v242 : Ref sig .tc := ⟨.hbm, 293, rfl⟩
abbrev main_v243 : Ref sig .tc := ⟨.hbm, 294, rfl⟩
abbrev main_cst_42 : Ref sig .tc := ⟨.hbm, 295, rfl⟩
abbrev main_v244 : Ref sig .tc := ⟨.hbm, 296, rfl⟩
abbrev main_v245 : Ref sig .tc := ⟨.hbm, 297, rfl⟩
abbrev main_v246 : Ref sig .tc := ⟨.hbm, 298, rfl⟩
abbrev main_v247 : Ref sig .tc := ⟨.hbm, 299, rfl⟩
abbrev main_v248 : Ref sig .tc := ⟨.hbm, 300, rfl⟩
abbrev main_cst_43 : Ref sig .tc := ⟨.hbm, 301, rfl⟩
abbrev main_v249 : Ref sig .tc := ⟨.hbm, 302, rfl⟩
abbrev main_v250 : Ref sig .tc := ⟨.hbm, 303, rfl⟩
abbrev main_v251 : Ref sig .tc := ⟨.hbm, 304, rfl⟩

abbrev nD : Nat := 1
abbrev τ : Topo := Topo.v7x

variable {F : FTy → Type} [FloatOps F]

class Facts₀ : Prop where
  slices_S2000000x7_S2000000x1_0_0 : S2000000x7.Slices ![0, 0] S2000000x1
  shapeCasts_S2000000x1_S2000000 : S2000000x1.ShapeCasts S2000000
  slices_S2000000x7_S2000000x1_0_3 : S2000000x7.Slices ![0, 3] S2000000x1
  bcast_S_S2000000 : S_.BroadcastsInDim S2000000 (![] : Fin 0 → Fin S2000000.rank)
  slices_S2000000x7_S2000000x1_0_2 : S2000000x7.Slices ![0, 2] S2000000x1
  slices_S2000000x7_S2000000x1_0_5 : S2000000x7.Slices ![0, 5] S2000000x1
  slices_S2000000x7_S2000000x1_0_1 : S2000000x7.Slices ![0, 1] S2000000x1
  slices_S2000000x7_S2000000x1_0_4 : S2000000x7.Slices ![0, 4] S2000000x1

variable [Facts₀]

class Facts : Prop extends Facts₀ where

variable [Facts]
-- ==== Proof.KernelRun.lean ====
/-
  The kernel body of `Kernel`, run once at symbolic operands. The body walks its (16384, 7) input blocks in eight
  chunks of 2048 rows; for each chunk it loads the two inputs' rows, transposes them so that rows lie along lanes,
  computes the per-axis overlap and bounding widths, and stores six vectors of 2048 areas into rows
  [2048 c, 2048 c + 2048) of the six output blocks. Nothing it stores depends on what an output block held before
  (each store is preceded by a load of the same rows whose value is dropped). So after the body each output block is
  the list of its eight stores written over anything: the lists are the witnesses the run finds, and the two input
  blocks are handed back as they were.
-/
import proofs.«165497_g23639499997224_pilotgen1_349_2_alg».proof.Proof.Gen.Kernel.Launch
import proofs.«165497_g23639499997224_pilotgen1_349_2_alg».proof.Proof.Gen.Kernel.Skeleton
import proofs.«165497_g23639499997224_pilotgen1_349_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A list of stores into a block of 16384 areas. -/
abbrev Pieces (F : FTy → Type) [FloatOps F] : Type := List (View.Piece (Elt F) S16384 .f32)

set_option maxHeartbeats 4000000 in
/-- The six lists of stores the body leaves in the six output blocks (last store first), as functions of the two input
    blocks `x0`, `x1`, WITH the proof that on whole staging buffers — the inputs' holding `x0` and `x1`, the outputs'
    holding anything — the body runs to its return, the inputs' buffers as they were and each output's buffer with its
    list written. -/
noncomputable def kernelRun (c : Dev nD) (i : grid0.Coords) (arg1 : Memref sig .tc .vmem S16384x7 .f32) (harg1 : arg1.IsWhole) (arg2 : Memref sig .tc .vmem S16384x7 .f32) (harg2 : arg2.IsWhole) (arg3 : Memref sig .tc .vmem S16384 .f32) (harg3 : arg3.IsWhole) (arg4 : Memref sig .tc .vmem S16384 .f32) (harg4 : arg4.IsWhole) (arg5 : Memref sig .tc .vmem S16384 .f32) (harg5 : arg5.IsWhole) (arg6 : Memref sig .tc .vmem S16384 .f32) (harg6 : arg6.IsWhole) (arg7 : Memref sig .tc .vmem S16384 .f32) (harg7 : arg7.IsWhole) (arg8 : Memref sig .tc .vmem S16384 .f32) (harg8 : arg8.IsWhole)
    (x0 x1 : Vec F S16384x7 .f32) :
    { L : Pieces F × Pieces F × Pieces F × Pieces F × Pieces F × Pieces F //
      ∀ (E : Set ℕ) (K : PUnit → sProp 𝕄),
        iprop(owns (c : Thread nD τ) arg1 fullShare x0 ∗ owns (c : Thread nD τ) arg2 fullShare x1
            ∗ (∃ d, owns (c : Thread nD τ) arg3 fullShare d) ∗ (∃ d, owns (c : Thread nD τ) arg4 fullShare d)
            ∗ (∃ d, owns (c : Thread nD τ) arg5 fullShare d) ∗ (∃ d, owns (c : Thread nD τ) arg6 fullShare d)
            ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L.1)
                ∗ (∃ f, arg4.view.loc (c : Thread nD τ) ↦[arg4.view.set]{fullShare} arg4.view.writes (Elt F) f L.2.1)
                ∗ (∃ f, arg5.view.loc (c : Thread nD τ) ↦[arg5.view.set]{fullShare} arg5.view.writes (Elt F) f L.2.2.1)
                ∗ (∃ f, arg6.view.loc (c : Thread nD τ) ↦[arg6.view.set]{fullShare} arg6.view.writes (Elt F) f L.2.2.2.1)
                ∗ (∃ f, arg7.view.loc (c : Thread nD τ) ↦[arg7.view.set]{fullShare} arg7.view.writes (Elt F) f L.2.2.2.2.1)
                ∗ (∃ f, arg8.view.loc (c : Thread nD τ) ↦[arg8.view.set]{fullShare} arg8.view.writes (Elt F) f L.2.2.2.2.2)) -∗ K ⟨⟩))
          ⊢ wp frame (wpE (defs₀ (F := F)) Variants.none c none) E (cc0_align_inter_aligned i arg1 harg1 arg2 harg2 arg3 harg3 arg4 harg4 arg5 harg5 arg6 harg6 arg7 harg7 arg8 harg8) K } := by
  refine ⟨⟨?_, ?_, ?_, ?_, ?_, ?_⟩, fun E K => ?run⟩
  case run =>
    simp only [cc0_align_inter_aligned_eq_skeleton]; unfold cc0_align_inter_aligned_skel
    unfold owns
    iintro ⟨⟨%f0, %hf0, H0⟩, ⟨%f1, %hf1, H1⟩, ⟨%d2, %f2, -, H2⟩, ⟨%d3, %f3, -, H3⟩, ⟨%d4, %f4, -, H4⟩, ⟨%d5, %f5, -, H5⟩, ⟨%d6, %f6, -, H6⟩, ⟨%d7, %f7, -, H7⟩, Hk⟩
    obtain rfl := harg1.eq_unread hf0
    obtain rfl := harg2.eq_unread hf1
    sl_exec_parts
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    isplitl [H4]; · iexists _; iexact H4
    isplitl [H5]; · iexists _; iexact H5
    isplitl [H6]; · iexists _; iexact H6
    iexists _; iexact H7

end Cert.Kernel.Body

end
-- ==== Proof.Cell.lean ====
/-
  The arithmetic of one row, as scalar functions over any float instance.

  A box row is seven numbers; columns 0..2 are the centre (x, y, z) and columns 3..5 the extents (dx, dy, dz). On
  axis `a` the box spans [c_a - d_a / 2, c_a + d_a / 2]. For a pair of rows `g`, `q`:
    * the overlap width on axis `a` is   min(g_hi, q_hi) - max(g_lo, q_lo) + eps,
    * the bounding width on axis `a` is  max(g_hi, q_hi) - min(g_lo, q_lo) + eps,
    * the overlap area on the plane of axes `a`, `b` is the product of the two overlap widths when both are
      positive, and zero otherwise,
    * the bounding area on that plane is the product of the two bounding widths.
  The six results are the overlap and bounding areas on the planes (x, z), (x, y) and (y, z), in that order.
  The literals are kept as their words: one half, the f32 nearest 1e-5, zero.
-/
import Idealize.ShloMosaic.PureOps.Vector
import Idealize.ShloMosaic.Lib.ValueIdx

noncomputable section

namespace Cert.AlignCell

open Idealize.ShloMosaic

variable {F : FTy → Type} [FloatOps F]

/-- One half. -/
def half : F .f32 := Scalar.ofBits .f32 0x3F000000#32
/-- The f32 nearest 1e-5. -/
def eps : F .f32 := Scalar.ofBits .f32 0x3727C5AC#32
/-- Zero. -/
def zero : F .f32 := Scalar.ofBits .f32 0x00000000#32

/-- The low end of an interval of centre `c` and extent `d`. -/
def lo (c d : F .f32) : F .f32 := FloatOps.subf c (FloatOps.mulf half d)
/-- Its high end. -/
def hi (c d : F .f32) : F .f32 := FloatOps.addf c (FloatOps.mulf half d)

/-- The overlap width of two intervals (centres `gc`, `qc`; extents `gd`, `qd`), plus eps. -/
def iw (gc gd qc qd : F .f32) : F .f32 :=
  FloatOps.addf (FloatOps.subf (FloatOps.minimumf (hi gc gd) (hi qc qd)) (FloatOps.maximumf (lo gc gd) (lo qc qd))) eps
/-- The width of the smallest interval holding both, plus eps. -/
def mw (gc gd qc qd : F .f32) : F .f32 :=
  FloatOps.addf (FloatOps.subf (FloatOps.maximumf (hi gc gd) (hi qc qd)) (FloatOps.minimumf (lo gc gd) (lo qc qd))) eps

/-- The overlap area from two overlap widths: their product when both are positive, else zero. -/
def inter (wa wb : F .f32) : F .f32 :=
  Scalar.select (IntOp.andi (FloatOps.cmpf .ogt wa zero) (FloatOps.cmpf .ogt wb zero)) (FloatOps.mulf wa wb) zero
/-- The bounding area from two bounding widths. -/
def mbr (wa wb : F .f32) : F .f32 := FloatOps.mulf wa wb

/-- A row of seven numbers of a [n, 7] array. -/
abbrev Row (F : FTy → Type) : Type := Fin 7 → F .f32

/-- Overlap width of rows `g`, `q` on the x, y and z axes. -/
def iwx (g q : Row F) : F .f32 := iw (g 0) (g 3) (q 0) (q 3)
def iwy (g q : Row F) : F .f32 := iw (g 1) (g 4) (q 1) (q 4)
def iwz (g q : Row F) : F .f32 := iw (g 2) (g 5) (q 2) (q 5)
/-- Bounding width on the x, y and z axes. -/
def mwx (g q : Row F) : F .f32 := mw (g 0) (g 3) (q 0) (q 3)
def mwy (g q : Row F) : F .f32 := mw (g 1) (g 4) (q 1) (q 4)
def mwz (g q : Row F) : F .f32 := mw (g 2) (g 5) (q 2) (q 5)

/-- The six results of a pair of rows: overlap and bounding area on the planes (x, z), (x, y) and (y, z). -/
def interXZ (g q : Row F) : F .f32 := inter (iwx g q) (iwz g q)
def mbrXZ (g q : Row F) : F .f32 := mbr (mwx g q) (mwz g q)
def interXY (g q : Row F) : F .f32 := inter (iwx g q) (iwy g q)
def mbrXY (g q : Row F) : F .f32 := mbr (mwx g q) (mwy g q)
def interYZ (g q : Row F) : F .f32 := inter (iwy g q) (iwz g q)
def mbrYZ (g q : Row F) : F .f32 := mbr (mwy g q) (mwz g q)

/-- Row `r` of an [n, 7] array. -/
def row {n : Nat} (X : (⟨2, ![n, 7]⟩ : Shape).Idx → F .f32) (r : Fin n) : Row F := fun k => X (ValueIdx.ix2 r k)

/-- A per-row result `f` over whole arrays: entry `r` is `f` of rows `r` of the two arrays. -/
def areas {n : Nat} (f : Row F → Row F → F .f32) (X0 X1 : (⟨2, ![n, 7]⟩ : Shape).Idx → F .f32) :
    (⟨1, ![n]⟩ : Shape).Idx → F .f32 :=
  fun i => f (row X0 (i 0)) (row X1 (i 0))

end Cert.AlignCell

end
-- ==== Proof.Layout.lean ====
/-
  Reading the chunk's re-laid vectors at an index. A chunk is 2048 rows of seven numbers; the body transposes it to
  seven rows of 2048 lanes, takes rows [0, 3) (the centres) and rows [3, 6) (the extents), later single rows of those
  three-row slabs, and finally drops the unit axis of a [1, 2048] row. Each of these only renames indices:
  entry (k, r) of the transpose is entry (r, k) of the chunk, a slab's row a is row (offset + a), and lane r of a
  [1, 2048] row is entry r of the flat vector.
-/
import Idealize.ShloMosaic.PureOps.Vector
import Idealize.ShloMosaic.Lib.ValueIdx
import Idealize.ShloMosaic.Lib.Pipeline.Value

noncomputable section

namespace Cert.AlignLayout

open Idealize.ShloMosaic Idealize.ShloMosaic.ValueIdx

variable {α : Type}

/-- Entry (k, r) of the transposed chunk is entry (r, k) of the chunk. -/
theorem transpose_ix (v : (⟨2, ![2048, 7]⟩ : Shape).Idx → α)
    (h : (⟨2, ![2048, 7]⟩ : Shape).Transposes [1, 0] ⟨2, ![7, 2048]⟩) (k : Fin 7) (r : Fin 2048) :
    transpose ⟨2, ![7, 2048]⟩ [1, 0] v h (ix2 k r) = v (ix2 r k) :=
  transpose_apply [1, 0] v h (ix2 k r) (ix2 r k) (fun b => match b with
    | ⟨0, _⟩ => rfl
    | ⟨1, _⟩ => rfl)

/-- Row `a` of the three-row slab cut at row offset `o` of a seven-row vector is its row `o + a`. -/
theorem slab_ix (o : Nat) (ho : o + 3 ≤ 7) (x : (⟨2, ![7, 2048]⟩ : Shape).Idx → α)
    (h : (⟨2, ![7, 2048]⟩ : Shape).Slices ![o, 0] ⟨2, ![3, 2048]⟩) (a : Fin 3) (r : Fin 2048) :
    extractStridedSlice ⟨2, ![3, 2048]⟩ ![o, 0] x h (ix2 a r) = x (ix2 ⟨o + a.val, by omega⟩ r) :=
  extractStridedSlice_apply ![o, 0] x h (ix2 a r) (ix2 ⟨o + a.val, by omega⟩ r) (fun b => match b with
    | ⟨0, _⟩ => rfl
    | ⟨1, _⟩ => by show r.val = 0 + r.val; omega)

/-- The single row cut at row offset `o` of a three-row slab is its row `o`. -/
theorem line_ix (o : Nat) (ho : o < 3) (x : (⟨2, ![3, 2048]⟩ : Shape).Idx → α)
    (h : (⟨2, ![3, 2048]⟩ : Shape).Slices ![o, 0] ⟨2, ![1, 2048]⟩) (z : Fin 1) (r : Fin 2048) :
    extractStridedSlice ⟨2, ![1, 2048]⟩ ![o, 0] x h (ix2 z r) = x (ix2 ⟨o, ho⟩ r) :=
  extractStridedSlice_apply ![o, 0] x h (ix2 z r) (ix2 ⟨o, ho⟩ r) (fun b => match b with
    | ⟨0, _⟩ => by show o = o + z.val; omega
    | ⟨1, _⟩ => by show r.val = 0 + r.val; omega)

/-- Entry `r` of a [1, 2048] row flattened is its lane `r`. -/
theorem flat_ix (x : (⟨2, ![1, 2048]⟩ : Shape).Idx → α)
    (h : (⟨2, ![1, 2048]⟩ : Shape).ShapeCasts ⟨1, ![2048]⟩) (r : Fin 2048) :
    shapeCast ⟨1, ![2048]⟩ x h (ix1 r) = x (ix2 0 r) :=
  shapeCast_apply x h (ix1 r) (ix2 0 r)
    (by rewrite [Shape.rowMajor_val_two, Shape.rowMajor_val_one]; show 0 * 2048 + r.val = r.val; omega)

/-- The slab of centres (row offset 0) and the slab of extents (row offset 3), with the offsets as numerals. -/
theorem slab0_ix (x : (⟨2, ![7, 2048]⟩ : Shape).Idx → α)
    (h : (⟨2, ![7, 2048]⟩ : Shape).Slices ![0, 0] ⟨2, ![3, 2048]⟩) (a : Fin 3) (r : Fin 2048) :
    extractStridedSlice ⟨2, ![3, 2048]⟩ ![0, 0] x h (ix2 a r) = x (ix2 ⟨a.val, by omega⟩ r) :=
  (slab_ix 0 (by omega) x h a r).trans (congrArg x (congrArg (fun b : Fin 7 => ix2 b r) (Fin.ext (Nat.zero_add _))))
theorem slab3_ix (x : (⟨2, ![7, 2048]⟩ : Shape).Idx → α)
    (h : (⟨2, ![7, 2048]⟩ : Shape).Slices ![3, 0] ⟨2, ![3, 2048]⟩) (a : Fin 3) (r : Fin 2048) :
    extractStridedSlice ⟨2, ![3, 2048]⟩ ![3, 0] x h (ix2 a r) = x (ix2 ⟨3 + a.val, by omega⟩ r) :=
  slab_ix 3 (by omega) x h a r

/-- The three single rows of a three-row slab, with the offsets as numerals. -/
theorem line0_ix (x : (⟨2, ![3, 2048]⟩ : Shape).Idx → α)
    (h : (⟨2, ![3, 2048]⟩ : Shape).Slices ![0, 0] ⟨2, ![1, 2048]⟩) (z : Fin 1) (r : Fin 2048) :
    extractStridedSlice ⟨2, ![1, 2048]⟩ ![0, 0] x h (ix2 z r) = x (ix2 (0 : Fin 3) r) := line_ix 0 (by omega) x h z r
theorem line1_ix (x : (⟨2, ![3, 2048]⟩ : Shape).Idx → α)
    (h : (⟨2, ![3, 2048]⟩ : Shape).Slices ![1, 0] ⟨2, ![1, 2048]⟩) (z : Fin 1) (r : Fin 2048) :
    extractStridedSlice ⟨2, ![1, 2048]⟩ ![1, 0] x h (ix2 z r) = x (ix2 (1 : Fin 3) r) := line_ix 1 (by omega) x h z r
theorem line2_ix (x : (⟨2, ![3, 2048]⟩ : Shape).Idx → α)
    (h : (⟨2, ![3, 2048]⟩ : Shape).Slices ![2, 0] ⟨2, ![1, 2048]⟩) (z : Fin 1) (r : Fin 2048) :
    extractStridedSlice ⟨2, ![1, 2048]⟩ ![2, 0] x h (ix2 z r) = x (ix2 (2 : Fin 3) r) := line_ix 2 (by omega) x h z r

/-- Entry (r, k) of the chunk of 2048 rows cut at row offset `o` of a [16384, 7] block is entry (o + r, k) of the
    block, and entry r of the chunk cut at offset `o` of a block of 16384 is entry o + r: the same row. -/
theorem chunk_row (o : Nat)
    (inb1 : ∀ a, (![o] : Fin 1 → Nat) a + (⟨1, ![2048]⟩ : Shape).size a ≤ (⟨1, ![16384]⟩ : Shape).size a)
    (inb2 : ∀ a, (![o, 0] : Fin 2 → Nat) a + (⟨2, ![2048, 7]⟩ : Shape).size a ≤ (⟨2, ![16384, 7]⟩ : Shape).size a)
    (r : Fin 2048) (k : Fin 7) :
    (Rect.unit (s := ⟨2, ![16384, 7]⟩) ![o, 0] (⟨2, ![2048, 7]⟩ : Shape).size inb2).toLoadRect.idx (ix2 r k)
      = ix2 ((Rect.unit (s := ⟨1, ![16384]⟩) ![o] (⟨1, ![2048]⟩ : Shape).size inb1).emb (ix1 r) 0) k :=
  funext fun a => match a with
    | ⟨0, _⟩ => Fin.ext rfl
    | ⟨1, _⟩ => Fin.ext (by show 0 + 1 * k.val = k.val; omega)

end Cert.AlignLayout

end
-- ==== Proof.KernelPieces.lean ====
/-
  Every store of the body of `Kernel` writes, at rows [o, o + 2048) of an output block, the per-row areas of the same
  rows of the two input blocks: the value stored at row o + r is the overlap (or bounding) area computed from row
  o + r of the first input block and row o + r of the second. Hence each output block, after the body, holds the
  per-row areas of the whole input blocks, whatever it held before.

  The argument per store: the chunk loaded at row offset o is read at (r, k) as the block's entry (o + r, k); the
  transposition, the slab and single-row cuts and the final flattening only rename indices; everything else acts
  entry by entry. So the stored vector at r is the scalar formula of the row, which is what `AlignCell` names.
-/
import proofs.«165497_g23639499997224_pilotgen1_349_2_alg».proof.Proof.KernelRun
import proofs.«165497_g23639499997224_pilotgen1_349_2_alg».proof.Proof.Cell
import proofs.«165497_g23639499997224_pilotgen1_349_2_alg».proof.Proof.Layout

set_option maxRecDepth 16384

noncomputable section

namespace Cert.Kernel.Body

open Cert.Kernel Cert.Kernel.Gen
open Idealize.ShloMosaic Idealize.ShloMosaic.TcCoe Idealize.ShloMosaic.Tactic Idealize.ShloMosaic.ValueIdx
open Idealize.SL Idealize.SL.Sem
open Cert.AlignCell Cert.AlignLayout

variable {F : FTy → Type} [FloatOps F]

/-- The per-row areas of a block, at a row of the chunk at offset `o`, are the per-row formula of the two loaded
    chunks' rows. -/
theorem areas_chunk (f : Row F → Row F → F .f32) (o : Nat)
    (inb1 : ∀ a, (![o] : Fin 1 → Nat) a + S2048.size a ≤ S16384.size a)
    (inb2 : ∀ a, (![o, 0] : Fin 2 → Nat) a + S2048x7.size a ≤ S16384x7.size a)
    (x0 x1 : Vec F S16384x7 .f32) (r : Fin 2048) :
    areas f x0 x1 ((Rect.unit (s := S16384) ![o] S2048.size inb1).emb (ix1 r))
      = f (fun k => View.ld x0 (Rect.unit (s := S16384x7) ![o, 0] S2048x7.size inb2) (ix2 r k))
          (fun k => View.ld x1 (Rect.unit (s := S16384x7) ![o, 0] S2048x7.size inb2) (ix2 r k)) := by
  have e : ∀ k : Fin 7, (Rect.unit (s := S16384x7) ![o, 0] S2048x7.size inb2).toLoadRect.idx (ix2 r k)
      = ix2 ((Rect.unit (s := S16384) ![o] S2048.size inb1).emb (ix1 r) 0) k := chunk_row o inb1 inb2 r
  unfold areas row View.ld
  exact (congrArg₂ f (funext fun k => congrArg x0 (e k)) (funext fun k => congrArg x1 (e k))).symm

/-- The in-bounds evidence of the chunk at row offset `o` of an output block, -/
theorem inb1_of (o : Nat) (ho : o + 2048 ≤ 16384) :
    ∀ a, (![o] : Fin 1 → Nat) a + S2048.size a ≤ S16384.size a := fun a => match a with
  | ⟨0, _⟩ => ho

/-- and of an input block. -/
theorem inb2_of (o : Nat) (ho : o + 2048 ≤ 16384) :
    ∀ a, (![o, 0] : Fin 2 → Nat) a + S2048x7.size a ≤ S16384x7.size a := fun a => match a with
  | ⟨0, _⟩ => ho
  | ⟨1, _⟩ => Nat.le_refl 7

set_option hygiene false in
/-- One store: its payload at `x` is the per-row formula `f` of the blocks at the row the store's rectangle puts `x`
    on. The loaded chunks are abstracted first, so that only the renaming of indices and the entry-by-entry arithmetic
    are left. -/
macro "piece_ok" f:term "," o:num : tactic => `(tactic| (
  intro x
  obtain ⟨r, rfl⟩ : ∃ r : Fin 2048, x = ix1 r := ⟨x 0, eq_ix1 x⟩
  refine Eq.trans ?_ (areas_chunk $f $o (inb1_of $o (by decide)) (inb2_of $o (by decide)) x0 x1 r).symm
  generalize View.ld x0 (Rect.unit (s := S16384x7) ![$o, 0] S2048x7.size _) = v0
  generalize View.ld x1 (Rect.unit (s := S16384x7) ![$o, 0] S2048x7.size _) = v2
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, mulf, addf, subf, minimumf, maximumf, cmpf, andi, select, broadcast,
    flat_ix, line0_ix, line1_ix, line2_ix, slab0_ix, slab3_ix, transpose_ix,
    interXZ, mbrXZ, interXY, mbrXY, interYZ, mbrYZ, inter, mbr, iwx, iwy, iwz, mwx, mwy, mwz, iw, mw, hi, lo, half, eps, zero]
  repeat rw [transpose_ix]
  try rfl))

set_option hygiene false in
/-- All eight stores of an output's list. -/
macro "pieces_ok" f:term : tactic => `(tactic| (
  unfold kernelRun
  dsimp only
  sl_unfold_words
  simp only [View.readAt_eq_ld, harg1.read_unread, harg2.read_unread]
  intro p hp
  simp only [List.mem_cons, List.not_mem_nil, or_false] at hp
  rcases hp with rfl | rfl | rfl | rfl | rfl | rfl | rfl | rfl
  · piece_ok $f, 14336
  · piece_ok $f, 12288
  · piece_ok $f, 10240
  · piece_ok $f, 8192
  · piece_ok $f, 6144
  · piece_ok $f, 4096
  · piece_ok $f, 2048
  · piece_ok $f, 0))

section
variable (c : Dev nD) (i : grid0.Coords) (arg1 : Memref sig .tc .vmem S16384x7 .f32) (harg1 : arg1.IsWhole) (arg2 : Memref sig .tc .vmem S16384x7 .f32) (harg2 : arg2.IsWhole) (arg3 : Memref sig .tc .vmem S16384 .f32) (harg3 : arg3.IsWhole) (arg4 : Memref sig .tc .vmem S16384 .f32) (harg4 : arg4.IsWhole) (arg5 : Memref sig .tc .vmem S16384 .f32) (harg5 : arg5.IsWhole) (arg6 : Memref sig .tc .vmem S16384 .f32) (harg6 : arg6.IsWhole) (arg7 : Memref sig .tc .vmem S16384 .f32) (harg7 : arg7.IsWhole) (arg8 : Memref sig .tc .vmem S16384 .f32) (harg8 : arg8.IsWhole) (x0 x1 : Vec F S16384x7 .f32)

set_option maxHeartbeats 4000000 in
/-- Every store of output 0's list is the block of `areas interXZ` its rectangle names. -/
theorem pieces0 : ∀ p ∈ (kernelRun c i arg1 harg1 arg2 harg2 arg3 harg3 arg4 harg4 arg5 harg5 arg6 harg6 arg7 harg7 arg8 harg8 x0 x1).1.1,
    ∀ x : p.1.shape.Idx, p.2 x = areas interXZ x0 x1 (p.1.emb x) := by pieces_ok interXZ

set_option maxHeartbeats 4000000 in
/-- Every store of output 1's list is the block of `areas mbrXZ` its rectangle names. -/
theorem pieces1 : ∀ p ∈ (kernelRun c i arg1 harg1 arg2 harg2 arg3 harg3 arg4 harg4 arg5 harg5 arg6 harg6 arg7 harg7 arg8 harg8 x0 x1).1.2.1,
    ∀ x : p.1.shape.Idx, p.2 x = areas mbrXZ x0 x1 (p.1.emb x) := by pieces_ok mbrXZ

set_option maxHeartbeats 4000000 in
/-- Every store of output 2's list is the block of `areas interXY` its rectangle names. -/
theorem pieces2 : ∀ p ∈ (kernelRun c i arg1 harg1 arg2 harg2 arg3 harg3 arg4 harg4 arg5 harg5 arg6 harg6 arg7 harg7 arg8 harg8 x0 x1).1.2.2.1,
    ∀ x : p.1.shape.Idx, p.2 x = areas interXY x0 x1 (p.1.emb x) := by pieces_ok interXY

set_option maxHeartbeats 4000000 in
/-- Every store of output 3's list is the block of `areas mbrXY` its rectangle names. -/
theorem pieces3 : ∀ p ∈ (kernelRun c i arg1 harg1 arg2 harg2 arg3 harg3 arg4 harg4 arg5 harg5 arg6 harg6 arg7 harg7 arg8 harg8 x0 x1).1.2.2.2.1,
    ∀ x : p.1.shape.Idx, p.2 x = areas mbrXY x0 x1 (p.1.emb x) := by pieces_ok mbrXY

set_option maxHeartbeats 4000000 in
/-- Every store of output 4's list is the block of `areas interYZ` its rectangle names. -/
theorem pieces4 : ∀ p ∈ (kernelRun c i arg1 harg1 arg2 harg2 arg3 harg3 arg4 harg4 arg5 harg5 arg6 harg6 arg7 harg7 arg8 harg8 x0 x1).1.2.2.2.2.1,
    ∀ x : p.1.shape.Idx, p.2 x = areas interYZ x0 x1 (p.1.emb x) := by pieces_ok interYZ

set_option maxHeartbeats 4000000 in
/-- Every store of output 5's list is the block of `areas mbrYZ` its rectangle names. -/
theorem pieces5 : ∀ p ∈ (kernelRun c i arg1 harg1 arg2 harg2 arg3 harg3 arg4 harg4 arg5 harg5 arg6 harg6 arg7 harg7 arg8 harg8 x0 x1).1.2.2.2.2.2,
    ∀ x : p.1.shape.Idx, p.2 x = areas mbrYZ x0 x1 (p.1.emb x) := by pieces_ok mbrYZ

end

end Cert.Kernel.Body

end
-- ==== Proof.KernelFrame.lean ====
/-
  The frame of `Kernel`: every weakly fair execution of @main terminates without a fault and leaves the two argument
  arrays unchanged; and, read further, what the six result arrays hold at the end.

  The grid has 123 points; point t stages rows [16384 t, 16384 t + 16384) of the two [2000000, 7] arguments and writes
  back the same rows of the six results. The last block overhangs the arrays (2000000 = 122 * 16384 + 1152): its
  transfers are cut at the arrays' end, and the rows of a staging buffer past the cut hold words nothing names. The
  body's arithmetic is row by row, so on the rows inside the array each output buffer holds the per-row areas of the
  input blocks whatever the rows past the cut hold — which is all the pipeline asks of a window whose blocks may
  overhang. The proof data states each buffer with the unnamed rows filled by zero words.
-/
import proofs.«165497_g23639499997224_pilotgen1_349_2_alg».proof.Proof.KernelPieces
import proofs.«165497_g23639499997224_pilotgen1_349_2_alg».proof.Proof.Gen.Kernel.Frame

set_option maxRecDepth 16384

noncomputable section

namespace Cert.Kernel.Body

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.AlignCell

variable {F : FTy → Type} [FloatOps F]

local notation "𝕄" => MT nD τ sig Unit (Elt F) ℕ (UR sig nD τ) ℕ

/-! ## The body on any staging buffers -/

section Kernel
variable (c : Dev nD) (i : grid0.Coords) (arg1 : Memref sig .tc .vmem S16384x7 .f32) (harg1 : arg1.IsWhole) (arg2 : Memref sig .tc .vmem S16384x7 .f32) (harg2 : arg2.IsWhole) (arg3 : Memref sig .tc .vmem S16384 .f32) (harg3 : arg3.IsWhole) (arg4 : Memref sig .tc .vmem S16384 .f32) (harg4 : arg4.IsWhole) (arg5 : Memref sig .tc .vmem S16384 .f32) (harg5 : arg5.IsWhole) (arg6 : Memref sig .tc .vmem S16384 .f32) (harg6 : arg6.IsWhole) (arg7 : Memref sig .tc .vmem S16384 .f32) (harg7 : arg7.IsWhole) (arg8 : Memref sig .tc .vmem S16384 .f32) (harg8 : arg8.IsWhole) (x0 x1 : Vec F S16384x7 .f32)

/-- Output 0's eight stores tile its block of 16384 (eight runs of 2048). -/
theorem cover0 (y : S16384.Idx) : ∃ pc ∈ (kernelRun c i arg1 harg1 arg2 harg2 arg3 harg3 arg4 harg4 arg5 harg5 arg6 harg6 arg7 harg7 arg8 harg8 x0 x1).1.1, y ∈ pc.1.set :=
  View.cover_of_tiledL (kernelRun c i arg1 harg1 arg2 harg2 arg3 harg3 arg4 harg4 arg5 harg5 arg6 harg6 arg7 harg7 arg8 harg8 x0 x1).1.1 S2048.size (by sl_kernel_rfl) y
/-- So the block, read back after the stores, is the per-row areas of the input blocks, whatever it held before. -/
theorem out0 (e : arg3.view.ty.Contents (Elt F)) :
    arg3.view.read (Elt F) (arg3.view.writes (Elt F) e (kernelRun c i arg1 harg1 arg2 harg2 arg3 harg3 arg4 harg4 arg5 harg5 arg6 harg6 arg7 harg7 arg8 harg8 x0 x1).1.1) = areas interXZ x0 x1 :=
  funext fun y => View.read_writes_apply_of_pieces arg3.view e (areas interXZ x0 x1) _ (pieces0 c i arg1 harg1 arg2 harg2 arg3 harg3 arg4 harg4 arg5 harg5 arg6 harg6 arg7 harg7 arg8 harg8 x0 x1) y (cover0 c i arg1 harg1 arg2 harg2 arg3 harg3 arg4 harg4 arg5 harg5 arg6 harg6 arg7 harg7 arg8 harg8 x0 x1 y)
/-- Output 1's eight stores tile its block of 16384 (eight runs of 2048). -/
theorem cover1 (y : S16384.Idx) : ∃ pc ∈ (kernelRun c i arg1 harg1 arg2 harg2 arg3 harg3 arg4 harg4 arg5 harg5 arg6 harg6 arg7 harg7 arg8 harg8 x0 x1).1.2.1, y ∈ pc.1.set :=
  View.cover_of_tiledL (kernelRun c i arg1 harg1 arg2 harg2 arg3 harg3 arg4 harg4 arg5 harg5 arg6 harg6 arg7 harg7 arg8 harg8 x0 x1).1.2.1 S2048.size (by sl_kernel_rfl) y
/-- So the block, read back after the stores, is the per-row areas of the input blocks, whatever it held before. -/
theorem out1 (e : arg4.view.ty.Contents (Elt F)) :
    arg4.view.read (Elt F) (arg4.view.writes (Elt F) e (kernelRun c i arg1 harg1 arg2 harg2 arg3 harg3 arg4 harg4 arg5 harg5 arg6 harg6 arg7 harg7 arg8 harg8 x0 x1).1.2.1) = areas mbrXZ x0 x1 :=
  funext fun y => View.read_writes_apply_of_pieces arg4.view e (areas mbrXZ x0 x1) _ (pieces1 c i arg1 harg1 arg2 harg2 arg3 harg3 arg4 harg4 arg5 harg5 arg6 harg6 arg7 harg7 arg8 harg8 x0 x1) y (cover1 c i arg1 harg1 arg2 harg2 arg3 harg3 arg4 harg4 arg5 harg5 arg6 harg6 arg7 harg7 arg8 harg8 x0 x1 y)
/-- Output 2's eight stores tile its block of 16384 (eight runs of 2048). -/
theorem cover2 (y : S16384.Idx) : ∃ pc ∈ (kernelRun c i arg1 harg1 arg2 harg2 arg3 harg3 arg4 harg4 arg5 harg5 arg6 harg6 arg7 harg7 arg8 harg8 x0 x1).1.2.2.1, y ∈ pc.1.set :=
  View.cover_of_tiledL (kernelRun c i arg1 harg1 arg2 harg2 arg3 harg3 arg4 harg4 arg5 harg5 arg6 harg6 arg7 harg7 arg8 harg8 x0 x1).1.2.2.1 S2048.size (by sl_kernel_rfl) y
/-- So the block, read back after the stores, is the per-row areas of the input blocks, whatever it held before. -/
theorem out2 (e : arg5.view.ty.Contents (Elt F)) :
    arg5.view.read (Elt F) (arg5.view.writes (Elt F) e (kernelRun c i arg1 harg1 arg2 harg2 arg3 harg3 arg4 harg4 arg5 harg5 arg6 harg6 arg7 harg7 arg8 harg8 x0 x1).1.2.2.1) = areas interXY x0 x1 :=
  funext fun y => View.read_writes_apply_of_pieces arg5.view e (areas interXY x0 x1) _ (pieces2 c i arg1 harg1 arg2 harg2 arg3 harg3 arg4 harg4 arg5 harg5 arg6 harg6 arg7 harg7 arg8 harg8 x0 x1) y (cover2 c i arg1 harg1 arg2 harg2 arg3 harg3 arg4 harg4 arg5 harg5 arg6 harg6 arg7 harg7 arg8 harg8 x0 x1 y)
/-- Output 3's eight stores tile its block of 16384 (eight runs of 2048). -/
theorem cover3 (y : S16384.Idx) : ∃ pc ∈ (kernelRun c i arg1 harg1 arg2 harg2 arg3 harg3 arg4 harg4 arg5 harg5 arg6 harg6 arg7 harg7 arg8 harg8 x0 x1).1.2.2.2.1, y ∈ pc.1.set :=
  View.cover_of_tiledL (kernelRun c i arg1 harg1 arg2 harg2 arg3 harg3 arg4 harg4 arg5 harg5 arg6 harg6 arg7 harg7 arg8 harg8 x0 x1).1.2.2.2.1 S2048.size (by sl_kernel_rfl) y
/-- So the block, read back after the stores, is the per-row areas of the input blocks, whatever it held before. -/
theorem out3 (e : arg6.view.ty.Contents (Elt F)) :
    arg6.view.read (Elt F) (arg6.view.writes (Elt F) e (kernelRun c i arg1 harg1 arg2 harg2 arg3 harg3 arg4 harg4 arg5 harg5 arg6 harg6 arg7 harg7 arg8 harg8 x0 x1).1.2.2.2.1) = areas mbrXY x0 x1 :=
  funext fun y => View.read_writes_apply_of_pieces arg6.view e (areas mbrXY x0 x1) _ (pieces3 c i arg1 harg1 arg2 harg2 arg3 harg3 arg4 harg4 arg5 harg5 arg6 harg6 arg7 harg7 arg8 harg8 x0 x1) y (cover3 c i arg1 harg1 arg2 harg2 arg3 harg3 arg4 harg4 arg5 harg5 arg6 harg6 arg7 harg7 arg8 harg8 x0 x1 y)
/-- Output 4's eight stores tile its block of 16384 (eight runs of 2048). -/
theorem cover4 (y : S16384.Idx) : ∃ pc ∈ (kernelRun c i arg1 harg1 arg2 harg2 arg3 harg3 arg4 harg4 arg5 harg5 arg6 harg6 arg7 harg7 arg8 harg8 x0 x1).1.2.2.2.2.1, y ∈ pc.1.set :=
  View.cover_of_tiledL (kernelRun c i arg1 harg1 arg2 harg2 arg3 harg3 arg4 harg4 arg5 harg5 arg6 harg6 arg7 harg7 arg8 harg8 x0 x1).1.2.2.2.2.1 S2048.size (by sl_kernel_rfl) y
/-- So the block, read back after the stores, is the per-row areas of the input blocks, whatever it held before. -/
theorem out4 (e : arg7.view.ty.Contents (Elt F)) :
    arg7.view.read (Elt F) (arg7.view.writes (Elt F) e (kernelRun c i arg1 harg1 arg2 harg2 arg3 harg3 arg4 harg4 arg5 harg5 arg6 harg6 arg7 harg7 arg8 harg8 x0 x1).1.2.2.2.2.1) = areas interYZ x0 x1 :=
  funext fun y => View.read_writes_apply_of_pieces arg7.view e (areas interYZ x0 x1) _ (pieces4 c i arg1 harg1 arg2 harg2 arg3 harg3 arg4 harg4 arg5 harg5 arg6 harg6 arg7 harg7 arg8 harg8 x0 x1) y (cover4 c i arg1 harg1 arg2 harg2 arg3 harg3 arg4 harg4 arg5 harg5 arg6 harg6 arg7 harg7 arg8 harg8 x0 x1 y)
/-- Output 5's eight stores tile its block of 16384 (eight runs of 2048). -/
theorem cover5 (y : S16384.Idx) : ∃ pc ∈ (kernelRun c i arg1 harg1 arg2 harg2 arg3 harg3 arg4 harg4 arg5 harg5 arg6 harg6 arg7 harg7 arg8 harg8 x0 x1).1.2.2.2.2.2, y ∈ pc.1.set :=
  View.cover_of_tiledL (kernelRun c i arg1 harg1 arg2 harg2 arg3 harg3 arg4 harg4 arg5 harg5 arg6 harg6 arg7 harg7 arg8 harg8 x0 x1).1.2.2.2.2.2 S2048.size (by sl_kernel_rfl) y
/-- So the block, read back after the stores, is the per-row areas of the input blocks, whatever it held before. -/
theorem out5 (e : arg8.view.ty.Contents (Elt F)) :
    arg8.view.read (Elt F) (arg8.view.writes (Elt F) e (kernelRun c i arg1 harg1 arg2 harg2 arg3 harg3 arg4 harg4 arg5 harg5 arg6 harg6 arg7 harg7 arg8 harg8 x0 x1).1.2.2.2.2.2) = areas mbrYZ x0 x1 :=
  funext fun y => View.read_writes_apply_of_pieces arg8.view e (areas mbrYZ x0 x1) _ (pieces5 c i arg1 harg1 arg2 harg2 arg3 harg3 arg4 harg4 arg5 harg5 arg6 harg6 arg7 harg7 arg8 harg8 x0 x1) y (cover5 c i arg1 harg1 arg2 harg2 arg3 harg3 arg4 harg4 arg5 harg5 arg6 harg6 arg7 harg7 arg8 harg8 x0 x1 y)

/-- The body's triple: from the two input buffers at `x0`, `x1` and the six output buffers at anything, the body
    runs to its return with the inputs as they were and output k at the per-row areas of `x0`, `x1`. -/
theorem sound_kernel (E : Set ℕ) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (∃ d, owns (c : Thread nD τ) arg5 fullShare d) ∗ (∃ d, owns (c : Thread nD τ) arg6 fullShare d)
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1
            ∗ owns (c : Thread nD τ) arg3 fullShare (areas interXZ x0 x1)
            ∗ owns (c : Thread nD τ) arg4 fullShare (areas mbrXZ x0 x1)
            ∗ owns (c : Thread nD τ) arg5 fullShare (areas interXY x0 x1)
            ∗ owns (c : Thread nD τ) arg6 fullShare (areas mbrXY x0 x1)
            ∗ owns (c : Thread nD τ) arg7 fullShare (areas interYZ x0 x1)
            ∗ owns (c : Thread nD τ) arg8 fullShare (areas mbrYZ x0 x1)) -∗ K ⟨⟩))
      ⊢ wp frame (wpE (defs₀ (F := F)) Variants.none c none) E (cc0_align_inter_aligned i arg1 harg1 arg2 harg2 arg3 harg3 arg4 harg4 arg5 harg5 arg6 harg6 arg7 harg7 arg8 harg8) K := by
  iintro ⟨H0, H1, H2, H3, H4, H5, H6, H7, Hk⟩
  iapply ((kernelRun c i arg1 harg1 arg2 harg2 arg3 harg3 arg4 harg4 arg5 harg5 arg6 harg6 arg7 harg7 arg8 harg8 x0 x1).2 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iintro ⟨H0, H1, ⟨%e2, H2⟩, ⟨%e3, H3⟩, ⟨%e4, H4⟩, ⟨%e5, H5⟩, ⟨%e6, H6⟩, ⟨%e7, H7⟩⟩
  iapply Hk
  isplitl [H0]; · iexact H0
  isplitl [H1]; · iexact H1
  isplitl [H2]
  · unfold owns; iexists _; isplitr
    swap; · iexact H2
    ipureintro; exact out0 c i arg1 harg1 arg2 harg2 arg3 harg3 arg4 harg4 arg5 harg5 arg6 harg6 arg7 harg7 arg8 harg8 x0 x1 e2
  isplitl [H3]
  · unfold owns; iexists _; isplitr
    swap; · iexact H3
    ipureintro; exact out1 c i arg1 harg1 arg2 harg2 arg3 harg3 arg4 harg4 arg5 harg5 arg6 harg6 arg7 harg7 arg8 harg8 x0 x1 e3
  isplitl [H4]
  · unfold owns; iexists _; isplitr
    swap; · iexact H4
    ipureintro; exact out2 c i arg1 harg1 arg2 harg2 arg3 harg3 arg4 harg4 arg5 harg5 arg6 harg6 arg7 harg7 arg8 harg8 x0 x1 e4
  isplitl [H5]
  · unfold owns; iexists _; isplitr
    swap; · iexact H5
    ipureintro; exact out3 c i arg1 harg1 arg2 harg2 arg3 harg3 arg4 harg4 arg5 harg5 arg6 harg6 arg7 harg7 arg8 harg8 x0 x1 e5
  isplitl [H6]
  · unfold owns; iexists _; isplitr
    swap; · iexact H6
    ipureintro; exact out4 c i arg1 harg1 arg2 harg2 arg3 harg3 arg4 harg4 arg5 harg5 arg6 harg6 arg7 harg7 arg8 harg8 x0 x1 e6
  · unfold owns; iexists _; isplitr
    swap; · iexact H7
    ipureintro; exact out5 c i arg1 harg1 arg2 harg2 arg3 harg3 arg4 harg4 arg5 harg5 arg6 harg6 arg7 harg7 arg8 harg8 x0 x1 e7

end Kernel

/-! ## The pipeline's proof data -/

variable (m : (ℓ : Loc nD τ sig) → Buf (Elt F) ℓ) (ρ : Dev nD → PrngReg)

/-- The filler for the rows of a buffer nothing names: zero words. -/
def zf : S16384x7.Idx → Elt F .f32 := fun _ => Scalar.ofBits .f32 0#32

/-- An input window's staging buffer at point `t` just after its fetch: the block's rows inside the array, the
    other rows at `d`. -/
def inX0 (c : Dev nD) (t : Fin cfg0.N) (d : S16384x7.Idx → Elt F .f32) : S16384x7.Idx → Elt F .f32 :=
  win0_0.fill (grid0.coords t) d (iblk m c 0 t)
def inX1 (c : Dev nD) (t : Fin cfg0.N) (d : S16384x7.Idx → Elt F .f32) : S16384x7.Idx → Elt F .f32 :=
  win0_1.fill (grid0.coords t) d (iblk m c 1 t)

/-- The proof data: the arrays as the region finds them; after the body at point `t` the inputs' buffers at their
    blocks and output k's at the per-row areas of them (rows past the cut: over zero words); the class's invariant;
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => inX0 m c t zf
    | ⟨1, _⟩ => inX1 m c t zf
    | ⟨2, _⟩ => areas interXZ (inX0 m c t zf) (inX1 m c t zf)
    | ⟨3, _⟩ => areas mbrXZ (inX0 m c t zf) (inX1 m c t zf)
    | ⟨4, _⟩ => areas interXY (inX0 m c t zf) (inX1 m c t zf)
    | ⟨5, _⟩ => areas mbrXY (inX0 m c t zf) (inX1 m c t zf)
    | ⟨6, _⟩ => areas interYZ (inX0 m c t zf) (inX1 m c t zf)
    | ⟨7, _⟩ => areas mbrYZ (inX0 m c t zf) (inX1 m c t zf)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = inX0 m c t zf := by dsimp only [dats]
theorem after0_1 (c : Dev nD) (t : Fin cfg0.N) : (dats m 0 c).after 1 t = inX1 m c t zf := by dsimp only [dats]
theorem after0_2 (c : Dev nD) (t : Fin cfg0.N) : (dats m 0 c).after 2 t = areas interXZ (inX0 m c t zf) (inX1 m c t zf) := by dsimp only [dats]
theorem after0_3 (c : Dev nD) (t : Fin cfg0.N) : (dats m 0 c).after 3 t = areas mbrXZ (inX0 m c t zf) (inX1 m c t zf) := by dsimp only [dats]
theorem after0_4 (c : Dev nD) (t : Fin cfg0.N) : (dats m 0 c).after 4 t = areas interXY (inX0 m c t zf) (inX1 m c t zf) := by dsimp only [dats]
theorem after0_5 (c : Dev nD) (t : Fin cfg0.N) : (dats m 0 c).after 5 t = areas mbrXY (inX0 m c t zf) (inX1 m c t zf) := by dsimp only [dats]
theorem after0_6 (c : Dev nD) (t : Fin cfg0.N) : (dats m 0 c).after 6 t = areas interYZ (inX0 m c t zf) (inX1 m c t zf) := by dsimp only [dats]
theorem after0_7 (c : Dev nD) (t : Fin cfg0.N) : (dats m 0 c).after 7 t = areas mbrYZ (inX0 m c t zf) (inX1 m c t zf) := by dsimp only [dats]

/-- An input's buffer when the body runs: just fetched (every point fetches). -/
theorem before0_0 (c : Dev nD) (t : Fin cfg0.N) (d) : (dats m 0 c).before 0 t d = inX0 m c t d := by
  unfold Dat.before; rw [if_pos (fetch0_0 t)]; rfl
theorem before0_1 (c : Dev nD) (t : Fin cfg0.N) (d) : (dats m 0 c).before 1 t d = inX1 m c t d := by
  unfold Dat.before; rw [if_pos (fetch0_1 t)]; rfl
/-- Output window 2's buffer when the body runs: anything (never fetched; written back at every point). -/
theorem before0_2 (c : Dev nD) (t : Fin cfg0.N) (d) : (dats m 0 c).before 2 t d = d := by
  unfold Dat.before
  rw [if_neg (show ¬((cfg0.win 2).fetch t = true) from Bool.false_ne_true)]
  by_cases h0 : t.val = 0
  · rw [if_pos h0]
  · rw [if_neg h0]; exact if_pos (flush0_2 _)
/-- Output window 3's buffer when the body runs: anything (never fetched; written back at every point). -/
theorem before0_3 (c : Dev nD) (t : Fin cfg0.N) (d) : (dats m 0 c).before 3 t d = d := by
  unfold Dat.before
  rw [if_neg (show ¬((cfg0.win 3).fetch t = true) from Bool.false_ne_true)]
  by_cases h0 : t.val = 0
  · rw [if_pos h0]
  · rw [if_neg h0]; exact if_pos (flush0_3 _)
/-- Output window 4's buffer when the body runs: anything (never fetched; written back at every point). -/
theorem before0_4 (c : Dev nD) (t : Fin cfg0.N) (d) : (dats m 0 c).before 4 t d = d := by
  unfold Dat.before
  rw [if_neg (show ¬((cfg0.win 4).fetch t = true) from Bool.false_ne_true)]
  by_cases h0 : t.val = 0
  · rw [if_pos h0]
  · rw [if_neg h0]; exact if_pos (flush0_4 _)
/-- Output window 5's buffer when the body runs: anything (never fetched; written back at every point). -/
theorem before0_5 (c : Dev nD) (t : Fin cfg0.N) (d) : (dats m 0 c).before 5 t d = d := by
  unfold Dat.before
  rw [if_neg (show ¬((cfg0.win 5).fetch t = true) from Bool.false_ne_true)]
  by_cases h0 : t.val = 0
  · rw [if_pos h0]
  · rw [if_neg h0]; exact if_pos (flush0_5 _)
/-- Output window 6's buffer when the body runs: anything (never fetched; written back at every point). -/
theorem before0_6 (c : Dev nD) (t : Fin cfg0.N) (d) : (dats m 0 c).before 6 t d = d := by
  unfold Dat.before
  rw [if_neg (show ¬((cfg0.win 6).fetch t = true) from Bool.false_ne_true)]
  by_cases h0 : t.val = 0
  · rw [if_pos h0]
  · rw [if_neg h0]; exact if_pos (flush0_6 _)
/-- Output window 7's buffer when the body runs: anything (never fetched; written back at every point). -/
theorem before0_7 (c : Dev nD) (t : Fin cfg0.N) (d) : (dats m 0 c).before 7 t d = d := by
  unfold Dat.before
  rw [if_neg (show ¬((cfg0.win 7).fetch t = true) from Bool.false_ne_true)]
  by_cases h0 : t.val = 0
  · rw [if_pos h0]
  · rw [if_neg h0]; exact if_pos (flush0_7 _)

/-! ## Rows inside the array -/

/-- How far the transfers at a point reach: all seven columns, and on the row axis the same cut for all eight
    windows (decided over the grid). -/
theorem xs_facts : ∀ t : Fin cfg0.N,
    win0_0.xsize (grid0.coords t) 1 = 7 ∧ win0_1.xsize (grid0.coords t) 1 = 7
    ∧ win0_1.xsize (grid0.coords t) 0 = win0_0.xsize (grid0.coords t) 0
    ∧ win0_2.xsize (grid0.coords t) 0 = win0_0.xsize (grid0.coords t) 0
    ∧ win0_3.xsize (grid0.coords t) 0 = win0_0.xsize (grid0.coords t) 0
    ∧ win0_4.xsize (grid0.coords t) 0 = win0_0.xsize (grid0.coords t) 0
    ∧ win0_5.xsize (grid0.coords t) 0 = win0_0.xsize (grid0.coords t) 0
    ∧ win0_6.xsize (grid0.coords t) 0 = win0_0.xsize (grid0.coords t) 0
    ∧ win0_7.xsize (grid0.coords t) 0 = win0_0.xsize (grid0.coords t) 0 :=
  (by decide +kernel : ∀ t : Fin grid0.N,
    win0_0.xsize (grid0.coords t) 1 = 7 ∧ win0_1.xsize (grid0.coords t) 1 = 7
    ∧ win0_1.xsize (grid0.coords t) 0 = win0_0.xsize (grid0.coords t) 0
    ∧ win0_2.xsize (grid0.coords t) 0 = win0_0.xsize (grid0.coords t) 0
    ∧ win0_3.xsize (grid0.coords t) 0 = win0_0.xsize (grid0.coords t) 0
    ∧ win0_4.xsize (grid0.coords t) 0 = win0_0.xsize (grid0.coords t) 0
    ∧ win0_5.xsize (grid0.coords t) 0 = win0_0.xsize (grid0.coords t) 0
    ∧ win0_6.xsize (grid0.coords t) 0 = win0_0.xsize (grid0.coords t) 0
    ∧ win0_7.xsize (grid0.coords t) 0 = win0_0.xsize (grid0.coords t) 0)

/-- A row inside the array of an input buffer does not depend on the filler. -/
theorem row_inX0 (c : Dev nD) (t : Fin cfg0.N) (d d' : S16384x7.Idx → Elt F .f32) (r : Fin 16384)
    (hr : r.val < win0_0.xsize (grid0.coords t) 0) : row (inX0 m c t d) r = row (inX0 m c t d') r := by
  funext k
  have hm : win0_0.moved (grid0.coords t) (ix2 r k) = true := (win0_0.moved_iff _ _).mpr fun a => match a with
    | ⟨0, _⟩ => hr
    | ⟨1, _⟩ => by show k.val < win0_0.xsize (grid0.coords t) 1; rw [(xs_facts t).1]; exact k.isLt
  show win0_0.fill (grid0.coords t) d (iblk m c 0 t) (ix2 r k) = win0_0.fill (grid0.coords t) d' (iblk m c 0 t) (ix2 r k)
  unfold Window.fill; rw [dif_pos hm, dif_pos hm]
theorem row_inX1 (c : Dev nD) (t : Fin cfg0.N) (d d' : S16384x7.Idx → Elt F .f32) (r : Fin 16384)
    (hr : r.val < win0_0.xsize (grid0.coords t) 0) : row (inX1 m c t d) r = row (inX1 m c t d') r := by
  funext k
  have hm : win0_1.moved (grid0.coords t) (ix2 r k) = true := (win0_1.moved_iff _ _).mpr fun a => match a with
    | ⟨0, _⟩ => by show r.val < win0_1.xsize (grid0.coords t) 0; rw [(xs_facts t).2.2.1]; exact hr
    | ⟨1, _⟩ => by show k.val < win0_1.xsize (grid0.coords t) 1; rw [(xs_facts t).2.1]; exact k.isLt
  show win0_1.fill (grid0.coords t) d (iblk m c 1 t) (ix2 r k) = win0_1.fill (grid0.coords t) d' (iblk m c 1 t) (ix2 r k)
  unfold Window.fill; rw [dif_pos hm, dif_pos hm]

/-- On the rows window 2's write-back moves, the per-row areas do not depend on the inputs' fillers. -/
theorem cut_areas_2 (f : Row F → Row F → F .f32) (c : Dev nD) (t : Fin cfg0.N) (d0 d0' d1 d1' : S16384x7.Idx → Elt F .f32) :
    win0_2.cut (grid0.coords t) (areas f (inX0 m c t d0) (inX1 m c t d1))
      = win0_2.cut (grid0.coords t) (areas f (inX0 m c t d0') (inX1 m c t d1')) := by
  funext j
  have hj : (win0_2.xinj (grid0.coords t) j 0).val < win0_0.xsize (grid0.coords t) 0 := by
    have h := (j 0).isLt
    rw [← (xs_facts t).2.2.2.1]; exact h
  show f (row (inX0 m c t d0) (win0_2.xinj (grid0.coords t) j 0)) (row (inX1 m c t d1) (win0_2.xinj (grid0.coords t) j 0))
    = f (row (inX0 m c t d0') (win0_2.xinj (grid0.coords t) j 0)) (row (inX1 m c t d1') (win0_2.xinj (grid0.coords t) j 0))
  rw [row_inX0 m c t d0 d0' (win0_2.xinj (grid0.coords t) j 0) hj, row_inX1 m c t d1 d1' (win0_2.xinj (grid0.coords t) j 0) hj]
/-- On the rows window 3's write-back moves, the per-row areas do not depend on the inputs' fillers. -/
theorem cut_areas_3 (f : Row F → Row F → F .f32) (c : Dev nD) (t : Fin cfg0.N) (d0 d0' d1 d1' : S16384x7.Idx → Elt F .f32) :
    win0_3.cut (grid0.coords t) (areas f (inX0 m c t d0) (inX1 m c t d1))
      = win0_3.cut (grid0.coords t) (areas f (inX0 m c t d0') (inX1 m c t d1')) := by
  funext j
  have hj : (win0_3.xinj (grid0.coords t) j 0).val < win0_0.xsize (grid0.coords t) 0 := by
    have h := (j 0).isLt
    rw [← (xs_facts t).2.2.2.2.1]; exact h
  show f (row (inX0 m c t d0) (win0_3.xinj (grid0.coords t) j 0)) (row (inX1 m c t d1) (win0_3.xinj (grid0.coords t) j 0))
    = f (row (inX0 m c t d0') (win0_3.xinj (grid0.coords t) j 0)) (row (inX1 m c t d1') (win0_3.xinj (grid0.coords t) j 0))
  rw [row_inX0 m c t d0 d0' (win0_3.xinj (grid0.coords t) j 0) hj, row_inX1 m c t d1 d1' (win0_3.xinj (grid0.coords t) j 0) hj]
/-- On the rows window 4's write-back moves, the per-row areas do not depend on the inputs' fillers. -/
theorem cut_areas_4 (f : Row F → Row F → F .f32) (c : Dev nD) (t : Fin cfg0.N) (d0 d0' d1 d1' : S16384x7.Idx → Elt F .f32) :
    win0_4.cut (grid0.coords t) (areas f (inX0 m c t d0) (inX1 m c t d1))
      = win0_4.cut (grid0.coords t) (areas f (inX0 m c t d0') (inX1 m c t d1')) := by
  funext j
  have hj : (win0_4.xinj (grid0.coords t) j 0).val < win0_0.xsize (grid0.coords t) 0 := by
    have h := (j 0).isLt
    rw [← (xs_facts t).2.2.2.2.2.1]; exact h
  show f (row (inX0 m c t d0) (win0_4.xinj (grid0.coords t) j 0)) (row (inX1 m c t d1) (win0_4.xinj (grid0.coords t) j 0))
    = f (row (inX0 m c t d0') (win0_4.xinj (grid0.coords t) j 0)) (row (inX1 m c t d1') (win0_4.xinj (grid0.coords t) j 0))
  rw [row_inX0 m c t d0 d0' (win0_4.xinj (grid0.coords t) j 0) hj, row_inX1 m c t d1 d1' (win0_4.xinj (grid0.coords t) j 0) hj]
/-- On the rows window 5's write-back moves, the per-row areas do not depend on the inputs' fillers. -/
theorem cut_areas_5 (f : Row F → Row F → F .f32) (c : Dev nD) (t : Fin cfg0.N) (d0 d0' d1 d1' : S16384x7.Idx → Elt F .f32) :
    win0_5.cut (grid0.coords t) (areas f (inX0 m c t d0) (inX1 m c t d1))
      = win0_5.cut (grid0.coords t) (areas f (inX0 m c t d0') (inX1 m c t d1')) := by
  funext j
  have hj : (win0_5.xinj (grid0.coords t) j 0).val < win0_0.xsize (grid0.coords t) 0 := by
    have h := (j 0).isLt
    rw [← (xs_facts t).2.2.2.2.2.2.1]; exact h
  show f (row (inX0 m c t d0) (win0_5.xinj (grid0.coords t) j 0)) (row (inX1 m c t d1) (win0_5.xinj (grid0.coords t) j 0))
    = f (row (inX0 m c t d0') (win0_5.xinj (grid0.coords t) j 0)) (row (inX1 m c t d1') (win0_5.xinj (grid0.coords t) j 0))
  rw [row_inX0 m c t d0 d0' (win0_5.xinj (grid0.coords t) j 0) hj, row_inX1 m c t d1 d1' (win0_5.xinj (grid0.coords t) j 0) hj]
/-- On the rows window 6's write-back moves, the per-row areas do not depend on the inputs' fillers. -/
theorem cut_areas_6 (f : Row F → Row F → F .f32) (c : Dev nD) (t : Fin cfg0.N) (d0 d0' d1 d1' : S16384x7.Idx → Elt F .f32) :
    win0_6.cut (grid0.coords t) (areas f (inX0 m c t d0) (inX1 m c t d1))
      = win0_6.cut (grid0.coords t) (areas f (inX0 m c t d0') (inX1 m c t d1')) := by
  funext j
  have hj : (win0_6.xinj (grid0.coords t) j 0).val < win0_0.xsize (grid0.coords t) 0 := by
    have h := (j 0).isLt
    rw [← (xs_facts t).2.2.2.2.2.2.2.1]; exact h
  show f (row (inX0 m c t d0) (win0_6.xinj (grid0.coords t) j 0)) (row (inX1 m c t d1) (win0_6.xinj (grid0.coords t) j 0))
    = f (row (inX0 m c t d0') (win0_6.xinj (grid0.coords t) j 0)) (row (inX1 m c t d1') (win0_6.xinj (grid0.coords t) j 0))
  rw [row_inX0 m c t d0 d0' (win0_6.xinj (grid0.coords t) j 0) hj, row_inX1 m c t d1 d1' (win0_6.xinj (grid0.coords t) j 0) hj]
/-- On the rows window 7's write-back moves, the per-row areas do not depend on the inputs' fillers. -/
theorem cut_areas_7 (f : Row F → Row F → F .f32) (c : Dev nD) (t : Fin cfg0.N) (d0 d0' d1 d1' : S16384x7.Idx → Elt F .f32) :
    win0_7.cut (grid0.coords t) (areas f (inX0 m c t d0) (inX1 m c t d1))
      = win0_7.cut (grid0.coords t) (areas f (inX0 m c t d0') (inX1 m c t d1')) := by
  funext j
  have hj : (win0_7.xinj (grid0.coords t) j 0).val < win0_0.xsize (grid0.coords t) 0 := by
    have h := (j 0).isLt
    rw [← (xs_facts t).2.2.2.2.2.2.2.2]; exact h
  show f (row (inX0 m c t d0) (win0_7.xinj (grid0.coords t) j 0)) (row (inX1 m c t d1) (win0_7.xinj (grid0.coords t) j 0))
    = f (row (inX0 m c t d0') (win0_7.xinj (grid0.coords t) j 0)) (row (inX1 m c t d1') (win0_7.xinj (grid0.coords t) j 0))
  rw [row_inX0 m c t d0 d0' (win0_7.xinj (grid0.coords t) j 0) hj, row_inX1 m c t d1 d1' (win0_7.xinj (grid0.coords t) j 0) hj]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

def bodyPost (c : Dev nD) (t : Fin cfg0.N) : sProp 𝕄 :=
  iprop((dats m 0 c).Φ t.succ ∗ (dats m 0 c).owesAt () t.succ
    ∗ (∃ d, owns (c : Thread nD τ) (st0_0 t) fullShare (win0_0.fill (grid0.coords t) d (win0_0.cut (grid0.coords t) ((dats m 0 c).after 0 t))))
    ∗ (∃ d, owns (c : Thread nD τ) (st0_1 t) fullShare (win0_1.fill (grid0.coords t) d (win0_1.cut (grid0.coords t) ((dats m 0 c).after 1 t))))
    ∗ (∃ d, owns (c : Thread nD τ) (st0_2 t) fullShare (win0_2.fill (grid0.coords t) d (win0_2.cut (grid0.coords t) ((dats m 0 c).after 2 t))))
    ∗ (∃ d, owns (c : Thread nD τ) (st0_3 t) fullShare (win0_3.fill (grid0.coords t) d (win0_3.cut (grid0.coords t) ((dats m 0 c).after 3 t))))
    ∗ (∃ d, owns (c : Thread nD τ) (st0_4 t) fullShare (win0_4.fill (grid0.coords t) d (win0_4.cut (grid0.coords t) ((dats m 0 c).after 4 t))))
    ∗ (∃ d, owns (c : Thread nD τ) (st0_5 t) fullShare (win0_5.fill (grid0.coords t) d (win0_5.cut (grid0.coords t) ((dats m 0 c).after 5 t))))
    ∗ (∃ d, owns (c : Thread nD τ) (st0_6 t) fullShare (win0_6.fill (grid0.coords t) d (win0_6.cut (grid0.coords t) ((dats m 0 c).after 6 t))))
    ∗ (∃ d, owns (c : Thread nD τ) (st0_7 t) fullShare (win0_7.fill (grid0.coords t) d (win0_7.cut (grid0.coords t) ((dats m 0 c).after 7 t)))))

set_option maxHeartbeats 1000000 in
/-- The body at any point: the input buffers hold their blocks filled out with anything, so `sound_kernel` applies
    at those contents; what it leaves agrees with the proof data on the rows inside the array. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c (grid0.coords t) _ _ _ _ _ _ _ _ _ _ _ _ _ _ _ _ (inX0 m c t d0) (inX1 m c t d1) Set.univ _)
  isplitl [H0]; · iexact H0
  isplitl [H1]; · iexact H1
  isplitl [H2]; · iexists _; iexact H2
  isplitl [H3]; · iexists _; iexact H3
  isplitl [H4]; · iexists _; iexact H4
  isplitl [H5]; · iexists _; iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]
  · iexists d0
    rw [show win0_0.cut (grid0.coords t) (inX0 m c t zf) = iblk m c 0 t from win0_0.cut_fill _ _ _]
    iexact H0
  isplitl [H1]
  · iexists d1
    rw [show win0_1.cut (grid0.coords t) (inX1 m c t zf) = iblk m c 1 t from win0_1.cut_fill _ _ _]
    iexact H1
  isplitl [H2]
  · iexists areas interXZ (inX0 m c t d0) (inX1 m c t d1)
    rw [win0_2.fill_congr_cut (grid0.coords t) (cut_areas_2 m interXZ c t d0 zf d1 zf)]
    iexact H2
  isplitl [H3]
  · iexists areas mbrXZ (inX0 m c t d0) (inX1 m c t d1)
    rw [win0_3.fill_congr_cut (grid0.coords t) (cut_areas_3 m mbrXZ c t d0 zf d1 zf)]
    iexact H3
  isplitl [H4]
  · iexists areas interXY (inX0 m c t d0) (inX1 m c t d1)
    rw [win0_4.fill_congr_cut (grid0.coords t) (cut_areas_4 m interXY c t d0 zf d1 zf)]
    iexact H4
  isplitl [H5]
  · iexists areas mbrXY (inX0 m c t d0) (inX1 m c t d1)
    rw [win0_5.fill_congr_cut (grid0.coords t) (cut_areas_5 m mbrXY c t d0 zf d1 zf)]
    iexact H5
  isplitl [H6]
  · iexists areas interYZ (inX0 m c t d0) (inX1 m c t d1)
    rw [win0_6.fill_congr_cut (grid0.coords t) (cut_areas_6 m interYZ c t d0 zf d1 zf)]
    iexact H6
  · iexists areas mbrYZ (inX0 m c t d0) (inX1 m c t d1)
    rw [win0_7.fill_congr_cut (grid0.coords t) (cut_areas_7 m mbrYZ c t d0 zf d1 zf)]
    iexact H7

/-- The library's body obligation, in its form for windows whose blocks may overhang. -/
theorem body_obligation (c : Dev nD) : BodyObligationLoose (dats (F := F) m 0 c) (defs₀ (F := F)) Variants.none () Set.univ := fun t => by
  rw [bigSep_W0, bigSep_W0]
  exact sound_body m c t

/-! ## The run and the frame -/

set_option backward.isDefEq.respectTransparency.types false in
/-- At the compiled mesh, for any values, from any memory with zero counters: every weakly fair execution of @main
    terminates, every array of the pipeline ends at what the proof data gives after the last write-back, and every
    other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hΦ := fun _ _ => rfl)

/-- The frame: the run terminates and the two argument arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Body

end
-- ==== Proof.KernelIdealRun.lean ====
/-
  The kernel body of `KernelIdeal`, run once at symbolic operands. The body walks its (16384, 7) input blocks in eight
  chunks of 2048 rows; for each chunk it loads the two inputs' rows, transposes them so that rows lie along lanes,
  computes the per-axis overlap and bounding widths, and stores six vectors of 2048 areas into rows
  [2048 c, 2048 c + 2048) of the six output blocks. Nothing it stores depends on what an output block held before
  (each store is preceded by a load of the same rows whose value is dropped). So after the body each output block is
  the list of its eight stores written over anything: the lists are the witnesses the run finds, and the two input
  blocks are handed back as they were.
-/
import proofs.«165497_g23639499997224_pilotgen1_349_2_alg».proof.Proof.Gen.KernelIdeal.Launch
import proofs.«165497_g23639499997224_pilotgen1_349_2_alg».proof.Proof.Gen.KernelIdeal.Skeleton
import proofs.«165497_g23639499997224_pilotgen1_349_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A list of stores into a block of 16384 areas. -/
abbrev Pieces (F : FTy → Type) [FloatOps F] : Type := List (View.Piece (Elt F) S16384 .f32)

set_option maxHeartbeats 4000000 in
/-- The six lists of stores the body leaves in the six output blocks (last store first), as functions of the two input
    blocks `x0`, `x1`, WITH the proof that on whole staging buffers — the inputs' holding `x0` and `x1`, the outputs'
    holding anything — the body runs to its return, the inputs' buffers as they were and each output's buffer with its
    list written. -/
noncomputable def kernelRun (c : Dev nD) (i : grid0.Coords) (arg1 : Memref sig .tc .vmem S16384x7 .f32) (harg1 : arg1.IsWhole) (arg2 : Memref sig .tc .vmem S16384x7 .f32) (harg2 : arg2.IsWhole) (arg3 : Memref sig .tc .vmem S16384 .f32) (harg3 : arg3.IsWhole) (arg4 : Memref sig .tc .vmem S16384 .f32) (harg4 : arg4.IsWhole) (arg5 : Memref sig .tc .vmem S16384 .f32) (harg5 : arg5.IsWhole) (arg6 : Memref sig .tc .vmem S16384 .f32) (harg6 : arg6.IsWhole) (arg7 : Memref sig .tc .vmem S16384 .f32) (harg7 : arg7.IsWhole) (arg8 : Memref sig .tc .vmem S16384 .f32) (harg8 : arg8.IsWhole)
    (x0 x1 : Vec F S16384x7 .f32) :
    { L : Pieces F × Pieces F × Pieces F × Pieces F × Pieces F × Pieces F //
      ∀ (E : Set ℕ) (K : PUnit → sProp 𝕄),
        iprop(owns (c : Thread nD τ) arg1 fullShare x0 ∗ owns (c : Thread nD τ) arg2 fullShare x1
            ∗ (∃ d, owns (c : Thread nD τ) arg3 fullShare d) ∗ (∃ d, owns (c : Thread nD τ) arg4 fullShare d)
            ∗ (∃ d, owns (c : Thread nD τ) arg5 fullShare d) ∗ (∃ d, owns (c : Thread nD τ) arg6 fullShare d)
            ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L.1)
                ∗ (∃ f, arg4.view.loc (c : Thread nD τ) ↦[arg4.view.set]{fullShare} arg4.view.writes (Elt F) f L.2.1)
                ∗ (∃ f, arg5.view.loc (c : Thread nD τ) ↦[arg5.view.set]{fullShare} arg5.view.writes (Elt F) f L.2.2.1)
                ∗ (∃ f, arg6.view.loc (c : Thread nD τ) ↦[arg6.view.set]{fullShare} arg6.view.writes (Elt F) f L.2.2.2.1)
                ∗ (∃ f, arg7.view.loc (c : Thread nD τ) ↦[arg7.view.set]{fullShare} arg7.view.writes (Elt F) f L.2.2.2.2.1)
                ∗ (∃ f, arg8.view.loc (c : Thread nD τ) ↦[arg8.view.set]{fullShare} arg8.view.writes (Elt F) f L.2.2.2.2.2)) -∗ K ⟨⟩))
          ⊢ wp frame (wpE (defs₀ (F := F)) Variants.none c none) E (cc0_align_inter_aligned i arg1 harg1 arg2 harg2 arg3 harg3 arg4 harg4 arg5 harg5 arg6 harg6 arg7 harg7 arg8 harg8) K } := by
  refine ⟨⟨?_, ?_, ?_, ?_, ?_, ?_⟩, fun E K => ?run⟩
  case run =>
    simp only [cc0_align_inter_aligned_eq_skeleton]; unfold cc0_align_inter_aligned_skel
    unfold owns
    iintro ⟨⟨%f0, %hf0, H0⟩, ⟨%f1, %hf1, H1⟩, ⟨%d2, %f2, -, H2⟩, ⟨%d3, %f3, -, H3⟩, ⟨%d4, %f4, -, H4⟩, ⟨%d5, %f5, -, H5⟩, ⟨%d6, %f6, -, H6⟩, ⟨%d7, %f7, -, H7⟩, Hk⟩
    obtain rfl := harg1.eq_unread hf0
    obtain rfl := harg2.eq_unread hf1
    sl_exec_parts
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    isplitl [H4]; · iexists _; iexact H4
    isplitl [H5]; · iexists _; iexact H5
    isplitl [H6]; · iexists _; iexact H6
    iexists _; iexact H7

end Cert.KernelIdeal.Body

end
-- ==== Proof.KernelIdealPieces.lean ====
/-
  Every store of the body of `KernelIdeal` writes, at rows [o, o + 2048) of an output block, the per-row areas of the same
  rows of the two input blocks: the value stored at row o + r is the overlap (or bounding) area computed from row
  o + r of the first input block and row o + r of the second. Hence each output block, after the body, holds the
  per-row areas of the whole input blocks, whatever it held before.

  The argument per store: the chunk loaded at row offset o is read at (r, k) as the block's entry (o + r, k); the
  transposition, the slab and single-row cuts and the final flattening only rename indices; everything else acts
  entry by entry. So the stored vector at r is the scalar formula of the row, which is what `AlignCell` names.
-/
import proofs.«165497_g23639499997224_pilotgen1_349_2_alg».proof.Proof.KernelIdealRun
import proofs.«165497_g23639499997224_pilotgen1_349_2_alg».proof.Proof.Cell
import proofs.«165497_g23639499997224_pilotgen1_349_2_alg».proof.Proof.Layout

set_option maxRecDepth 16384

noncomputable section

namespace Cert.KernelIdeal.Body

open Cert.KernelIdeal Cert.KernelIdeal.Gen
open Idealize.ShloMosaic Idealize.ShloMosaic.TcCoe Idealize.ShloMosaic.Tactic Idealize.ShloMosaic.ValueIdx
open Idealize.SL Idealize.SL.Sem
open Cert.AlignCell Cert.AlignLayout

variable {F : FTy → Type} [FloatOps F]

/-- The per-row areas of a block, at a row of the chunk at offset `o`, are the per-row formula of the two loaded
    chunks' rows. -/
theorem areas_chunk (f : Row F → Row F → F .f32) (o : Nat)
    (inb1 : ∀ a, (![o] : Fin 1 → Nat) a + S2048.size a ≤ S16384.size a)
    (inb2 : ∀ a, (![o, 0] : Fin 2 → Nat) a + S2048x7.size a ≤ S16384x7.size a)
    (x0 x1 : Vec F S16384x7 .f32) (r : Fin 2048) :
    areas f x0 x1 ((Rect.unit (s := S16384) ![o] S2048.size inb1).emb (ix1 r))
      = f (fun k => View.ld x0 (Rect.unit (s := S16384x7) ![o, 0] S2048x7.size inb2) (ix2 r k))
          (fun k => View.ld x1 (Rect.unit (s := S16384x7) ![o, 0] S2048x7.size inb2) (ix2 r k)) := by
  have e : ∀ k : Fin 7, (Rect.unit (s := S16384x7) ![o, 0] S2048x7.size inb2).toLoadRect.idx (ix2 r k)
      = ix2 ((Rect.unit (s := S16384) ![o] S2048.size inb1).emb (ix1 r) 0) k := chunk_row o inb1 inb2 r
  unfold areas row View.ld
  exact (congrArg₂ f (funext fun k => congrArg x0 (e k)) (funext fun k => congrArg x1 (e k))).symm

/-- The in-bounds evidence of the chunk at row offset `o` of an output block, -/
theorem inb1_of (o : Nat) (ho : o + 2048 ≤ 16384) :
    ∀ a, (![o] : Fin 1 → Nat) a + S2048.size a ≤ S16384.size a := fun a => match a with
  | ⟨0, _⟩ => ho

/-- and of an input block. -/
theorem inb2_of (o : Nat) (ho : o + 2048 ≤ 16384) :
    ∀ a, (![o, 0] : Fin 2 → Nat) a + S2048x7.size a ≤ S16384x7.size a := fun a => match a with
  | ⟨0, _⟩ => ho
  | ⟨1, _⟩ => Nat.le_refl 7

set_option hygiene false in
/-- One store: its payload at `x` is the per-row formula `f` of the blocks at the row the store's rectangle puts `x`
    on. The loaded chunks are abstracted first, so that only the renaming of indices and the entry-by-entry arithmetic
    are left. -/
macro "piece_ok" f:term "," o:num : tactic => `(tactic| (
  intro x
  obtain ⟨r, rfl⟩ : ∃ r : Fin 2048, x = ix1 r := ⟨x 0, eq_ix1 x⟩
  refine Eq.trans ?_ (areas_chunk $f $o (inb1_of $o (by decide)) (inb2_of $o (by decide)) x0 x1 r).symm
  generalize View.ld x0 (Rect.unit (s := S16384x7) ![$o, 0] S2048x7.size _) = v0
  generalize View.ld x1 (Rect.unit (s := S16384x7) ![$o, 0] S2048x7.size _) = v2
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, mulf, addf, subf, minimumf, maximumf, cmpf, andi, select, broadcast,
    flat_ix, line0_ix, line1_ix, line2_ix, slab0_ix, slab3_ix, transpose_ix,
    interXZ, mbrXZ, interXY, mbrXY, interYZ, mbrYZ, inter, mbr, iwx, iwy, iwz, mwx, mwy, mwz, iw, mw, hi, lo, half, eps, zero]
  repeat rw [transpose_ix]
  try rfl))

set_option hygiene false in
/-- All eight stores of an output's list. -/
macro "pieces_ok" f:term : tactic => `(tactic| (
  unfold kernelRun
  dsimp only
  sl_unfold_words
  simp only [View.readAt_eq_ld, harg1.read_unread, harg2.read_unread]
  intro p hp
  simp only [List.mem_cons, List.not_mem_nil, or_false] at hp
  rcases hp with rfl | rfl | rfl | rfl | rfl | rfl | rfl | rfl
  · piece_ok $f, 14336
  · piece_ok $f, 12288
  · piece_ok $f, 10240
  · piece_ok $f, 8192
  · piece_ok $f, 6144
  · piece_ok $f, 4096
  · piece_ok $f, 2048
  · piece_ok $f, 0))

section
variable (c : Dev nD) (i : grid0.Coords) (arg1 : Memref sig .tc .vmem S16384x7 .f32) (harg1 : arg1.IsWhole) (arg2 : Memref sig .tc .vmem S16384x7 .f32) (harg2 : arg2.IsWhole) (arg3 : Memref sig .tc .vmem S16384 .f32) (harg3 : arg3.IsWhole) (arg4 : Memref sig .tc .vmem S16384 .f32) (harg4 : arg4.IsWhole) (arg5 : Memref sig .tc .vmem S16384 .f32) (harg5 : arg5.IsWhole) (arg6 : Memref sig .tc .vmem S16384 .f32) (harg6 : arg6.IsWhole) (arg7 : Memref sig .tc .vmem S16384 .f32) (harg7 : arg7.IsWhole) (arg8 : Memref sig .tc .vmem S16384 .f32) (harg8 : arg8.IsWhole) (x0 x1 : Vec F S16384x7 .f32)

set_option maxHeartbeats 4000000 in
/-- Every store of output 0's list is the block of `areas interXZ` its rectangle names. -/
theorem pieces0 : ∀ p ∈ (kernelRun c i arg1 harg1 arg2 harg2 arg3 harg3 arg4 harg4 arg5 harg5 arg6 harg6 arg7 harg7 arg8 harg8 x0 x1).1.1,
    ∀ x : p.1.shape.Idx, p.2 x = areas interXZ x0 x1 (p.1.emb x) := by pieces_ok interXZ

set_option maxHeartbeats 4000000 in
/-- Every store of output 1's list is the block of `areas mbrXZ` its rectangle names. -/
theorem pieces1 : ∀ p ∈ (kernelRun c i arg1 harg1 arg2 harg2 arg3 harg3 arg4 harg4 arg5 harg5 arg6 harg6 arg7 harg7 arg8 harg8 x0 x1).1.2.1,
    ∀ x : p.1.shape.Idx, p.2 x = areas mbrXZ x0 x1 (p.1.emb x) := by pieces_ok mbrXZ

set_option maxHeartbeats 4000000 in
/-- Every store of output 2's list is the block of `areas interXY` its rectangle names. -/
theorem pieces2 : ∀ p ∈ (kernelRun c i arg1 harg1 arg2 harg2 arg3 harg3 arg4 harg4 arg5 harg5 arg6 harg6 arg7 harg7 arg8 harg8 x0 x1).1.2.2.1,
    ∀ x : p.1.shape.Idx, p.2 x = areas interXY x0 x1 (p.1.emb x) := by pieces_ok interXY

set_option maxHeartbeats 4000000 in
/-- Every store of output 3's list is the block of `areas mbrXY` its rectangle names. -/
theorem pieces3 : ∀ p ∈ (kernelRun c i arg1 harg1 arg2 harg2 arg3 harg3 arg4 harg4 arg5 harg5 arg6 harg6 arg7 harg7 arg8 harg8 x0 x1).1.2.2.2.1,
    ∀ x : p.1.shape.Idx, p.2 x = areas mbrXY x0 x1 (p.1.emb x) := by pieces_ok mbrXY

set_option maxHeartbeats 4000000 in
/-- Every store of output 4's list is the block of `areas interYZ` its rectangle names. -/
theorem pieces4 : ∀ p ∈ (kernelRun c i arg1 harg1 arg2 harg2 arg3 harg3 arg4 harg4 arg5 harg5 arg6 harg6 arg7 harg7 arg8 harg8 x0 x1).1.2.2.2.2.1,
    ∀ x : p.1.shape.Idx, p.2 x = areas interYZ x0 x1 (p.1.emb x) := by pieces_ok interYZ

set_option maxHeartbeats 4000000 in
/-- Every store of output 5's list is the block of `areas mbrYZ` its rectangle names. -/
theorem pieces5 : ∀ p ∈ (kernelRun c i arg1 harg1 arg2 harg2 arg3 harg3 arg4 harg4 arg5 harg5 arg6 harg6 arg7 harg7 arg8 harg8 x0 x1).1.2.2.2.2.2,
    ∀ x : p.1.shape.Idx, p.2 x = areas mbrYZ x0 x1 (p.1.emb x) := by pieces_ok mbrYZ

end

end Cert.KernelIdeal.Body

end
-- ==== Proof.KernelIdealFrame.lean ====
/-
  The frame of `KernelIdeal`: every weakly fair execution of @main terminates without a fault and leaves the two argument
  arrays unchanged; and, read further, what the six result arrays hold at the end.

  The grid has 123 points; point t stages rows [16384 t, 16384 t + 16384) of the two [2000000, 7] arguments and writes
  back the same rows of the six results. The last block overhangs the arrays (2000000 = 122 * 16384 + 1152): its
  transfers are cut at the arrays' end, and the rows of a staging buffer past the cut hold words nothing names. The
  body's arithmetic is row by row, so on the rows inside the array each output buffer holds the per-row areas of the
  input blocks whatever the rows past the cut hold — which is all the pipeline asks of a window whose blocks may
  overhang. The proof data states each buffer with the unnamed rows filled by zero words.
-/
import proofs.«165497_g23639499997224_pilotgen1_349_2_alg».proof.Proof.KernelIdealPieces
import proofs.«165497_g23639499997224_pilotgen1_349_2_alg».proof.Proof.Gen.KernelIdeal.Frame

set_option maxRecDepth 16384

noncomputable section

namespace Cert.KernelIdeal.Body

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.AlignCell

variable {F : FTy → Type} [FloatOps F]

local notation "𝕄" => MT nD τ sig Unit (Elt F) ℕ (UR sig nD τ) ℕ

/-! ## The body on any staging buffers -/

section Kernel
variable (c : Dev nD) (i : grid0.Coords) (arg1 : Memref sig .tc .vmem S16384x7 .f32) (harg1 : arg1.IsWhole) (arg2 : Memref sig .tc .vmem S16384x7 .f32) (harg2 : arg2.IsWhole) (arg3 : Memref sig .tc .vmem S16384 .f32) (harg3 : arg3.IsWhole) (arg4 : Memref sig .tc .vmem S16384 .f32) (harg4 : arg4.IsWhole) (arg5 : Memref sig .tc .vmem S16384 .f32) (harg5 : arg5.IsWhole) (arg6 : Memref sig .tc .vmem S16384 .f32) (harg6 : arg6.IsWhole) (arg7 : Memref sig .tc .vmem S16384 .f32) (harg7 : arg7.IsWhole) (arg8 : Memref sig .tc .vmem S16384 .f32) (harg8 : arg8.IsWhole) (x0 x1 : Vec F S16384x7 .f32)

/-- Output 0's eight stores tile its block of 16384 (eight runs of 2048). -/
theorem cover0 (y : S16384.Idx) : ∃ pc ∈ (kernelRun c i arg1 harg1 arg2 harg2 arg3 harg3 arg4 harg4 arg5 harg5 arg6 harg6 arg7 harg7 arg8 harg8 x0 x1).1.1, y ∈ pc.1.set :=
  View.cover_of_tiledL (kernelRun c i arg1 harg1 arg2 harg2 arg3 harg3 arg4 harg4 arg5 harg5 arg6 harg6 arg7 harg7 arg8 harg8 x0 x1).1.1 S2048.size (by sl_kernel_rfl) y
/-- So the block, read back after the stores, is the per-row areas of the input blocks, whatever it held before. -/
theorem out0 (e : arg3.view.ty.Contents (Elt F)) :
    arg3.view.read (Elt F) (arg3.view.writes (Elt F) e (kernelRun c i arg1 harg1 arg2 harg2 arg3 harg3 arg4 harg4 arg5 harg5 arg6 harg6 arg7 harg7 arg8 harg8 x0 x1).1.1) = areas interXZ x0 x1 :=
  funext fun y => View.read_writes_apply_of_pieces arg3.view e (areas interXZ x0 x1) _ (pieces0 c i arg1 harg1 arg2 harg2 arg3 harg3 arg4 harg4 arg5 harg5 arg6 harg6 arg7 harg7 arg8 harg8 x0 x1) y (cover0 c i arg1 harg1 arg2 harg2 arg3 harg3 arg4 harg4 arg5 harg5 arg6 harg6 arg7 harg7 arg8 harg8 x0 x1 y)
/-- Output 1's eight stores tile its block of 16384 (eight runs of 2048). -/
theorem cover1 (y : S16384.Idx) : ∃ pc ∈ (kernelRun c i arg1 harg1 arg2 harg2 arg3 harg3 arg4 harg4 arg5 harg5 arg6 harg6 arg7 harg7 arg8 harg8 x0 x1).1.2.1, y ∈ pc.1.set :=
  View.cover_of_tiledL (kernelRun c i arg1 harg1 arg2 harg2 arg3 harg3 arg4 harg4 arg5 harg5 arg6 harg6 arg7 harg7 arg8 harg8 x0 x1).1.2.1 S2048.size (by sl_kernel_rfl) y
/-- So the block, read back after the stores, is the per-row areas of the input blocks, whatever it held before. -/
theorem out1 (e : arg4.view.ty.Contents (Elt F)) :
    arg4.view.read (Elt F) (arg4.view.writes (Elt F) e (kernelRun c i arg1 harg1 arg2 harg2 arg3 harg3 arg4 harg4 arg5 harg5 arg6 harg6 arg7 harg7 arg8 harg8 x0 x1).1.2.1) = areas mbrXZ x0 x1 :=
  funext fun y => View.read_writes_apply_of_pieces arg4.view e (areas mbrXZ x0 x1) _ (pieces1 c i arg1 harg1 arg2 harg2 arg3 harg3 arg4 harg4 arg5 harg5 arg6 harg6 arg7 harg7 arg8 harg8 x0 x1) y (cover1 c i arg1 harg1 arg2 harg2 arg3 harg3 arg4 harg4 arg5 harg5 arg6 harg6 arg7 harg7 arg8 harg8 x0 x1 y)
/-- Output 2's eight stores tile its block of 16384 (eight runs of 2048). -/
theorem cover2 (y : S16384.Idx) : ∃ pc ∈ (kernelRun c i arg1 harg1 arg2 harg2 arg3 harg3 arg4 harg4 arg5 harg5 arg6 harg6 arg7 harg7 arg8 harg8 x0 x1).1.2.2.1, y ∈ pc.1.set :=
  View.cover_of_tiledL (kernelRun c i arg1 harg1 arg2 harg2 arg3 harg3 arg4 harg4 arg5 harg5 arg6 harg6 arg7 harg7 arg8 harg8 x0 x1).1.2.2.1 S2048.size (by sl_kernel_rfl) y
/-- So the block, read back after the stores, is the per-row areas of the input blocks, whatever it held before. -/
theorem out2 (e : arg5.view.ty.Contents (Elt F)) :
    arg5.view.read (Elt F) (arg5.view.writes (Elt F) e (kernelRun c i arg1 harg1 arg2 harg2 arg3 harg3 arg4 harg4 arg5 harg5 arg6 harg6 arg7 harg7 arg8 harg8 x0 x1).1.2.2.1) = areas interXY x0 x1 :=
  funext fun y => View.read_writes_apply_of_pieces arg5.view e (areas interXY x0 x1) _ (pieces2 c i arg1 harg1 arg2 harg2 arg3 harg3 arg4 harg4 arg5 harg5 arg6 harg6 arg7 harg7 arg8 harg8 x0 x1) y (cover2 c i arg1 harg1 arg2 harg2 arg3 harg3 arg4 harg4 arg5 harg5 arg6 harg6 arg7 harg7 arg8 harg8 x0 x1 y)
/-- Output 3's eight stores tile its block of 16384 (eight runs of 2048). -/
theorem cover3 (y : S16384.Idx) : ∃ pc ∈ (kernelRun c i arg1 harg1 arg2 harg2 arg3 harg3 arg4 harg4 arg5 harg5 arg6 harg6 arg7 harg7 arg8 harg8 x0 x1).1.2.2.2.1, y ∈ pc.1.set :=
  View.cover_of_tiledL (kernelRun c i arg1 harg1 arg2 harg2 arg3 harg3 arg4 harg4 arg5 harg5 arg6 harg6 arg7 harg7 arg8 harg8 x0 x1).1.2.2.2.1 S2048.size (by sl_kernel_rfl) y
/-- So the block, read back after the stores, is the per-row areas of the input blocks, whatever it held before. -/
theorem out3 (e : arg6.view.ty.Contents (Elt F)) :
    arg6.view.read (Elt F) (arg6.view.writes (Elt F) e (kernelRun c i arg1 harg1 arg2 harg2 arg3 harg3 arg4 harg4 arg5 harg5 arg6 harg6 arg7 harg7 arg8 harg8 x0 x1).1.2.2.2.1) = areas mbrXY x0 x1 :=
  funext fun y => View.read_writes_apply_of_pieces arg6.view e (areas mbrXY x0 x1) _ (pieces3 c i arg1 harg1 arg2 harg2 arg3 harg3 arg4 harg4 arg5 harg5 arg6 harg6 arg7 harg7 arg8 harg8 x0 x1) y (cover3 c i arg1 harg1 arg2 harg2 arg3 harg3 arg4 harg4 arg5 harg5 arg6 harg6 arg7 harg7 arg8 harg8 x0 x1 y)
/-- Output 4's eight stores tile its block of 16384 (eight runs of 2048). -/
theorem cover4 (y : S16384.Idx) : ∃ pc ∈ (kernelRun c i arg1 harg1 arg2 harg2 arg3 harg3 arg4 harg4 arg5 harg5 arg6 harg6 arg7 harg7 arg8 harg8 x0 x1).1.2.2.2.2.1, y ∈ pc.1.set :=
  View.cover_of_tiledL (kernelRun c i arg1 harg1 arg2 harg2 arg3 harg3 arg4 harg4 arg5 harg5 arg6 harg6 arg7 harg7 arg8 harg8 x0 x1).1.2.2.2.2.1 S2048.size (by sl_kernel_rfl) y
/-- So the block, read back after the stores, is the per-row areas of the input blocks, whatever it held before. -/
theorem out4 (e : arg7.view.ty.Contents (Elt F)) :
    arg7.view.read (Elt F) (arg7.view.writes (Elt F) e (kernelRun c i arg1 harg1 arg2 harg2 arg3 harg3 arg4 harg4 arg5 harg5 arg6 harg6 arg7 harg7 arg8 harg8 x0 x1).1.2.2.2.2.1) = areas interYZ x0 x1 :=
  funext fun y => View.read_writes_apply_of_pieces arg7.view e (areas interYZ x0 x1) _ (pieces4 c i arg1 harg1 arg2 harg2 arg3 harg3 arg4 harg4 arg5 harg5 arg6 harg6 arg7 harg7 arg8 harg8 x0 x1) y (cover4 c i arg1 harg1 arg2 harg2 arg3 harg3 arg4 harg4 arg5 harg5 arg6 harg6 arg7 harg7 arg8 harg8 x0 x1 y)
/-- Output 5's eight stores tile its block of 16384 (eight runs of 2048). -/
theorem cover5 (y : S16384.Idx) : ∃ pc ∈ (kernelRun c i arg1 harg1 arg2 harg2 arg3 harg3 arg4 harg4 arg5 harg5 arg6 harg6 arg7 harg7 arg8 harg8 x0 x1).1.2.2.2.2.2, y ∈ pc.1.set :=
  View.cover_of_tiledL (kernelRun c i arg1 harg1 arg2 harg2 arg3 harg3 arg4 harg4 arg5 harg5 arg6 harg6 arg7 harg7 arg8 harg8 x0 x1).1.2.2.2.2.2 S2048.size (by sl_kernel_rfl) y
/-- So the block, read back after the stores, is the per-row areas of the input blocks, whatever it held before. -/
theorem out5 (e : arg8.view.ty.Contents (Elt F)) :
    arg8.view.read (Elt F) (arg8.view.writes (Elt F) e (kernelRun c i arg1 harg1 arg2 harg2 arg3 harg3 arg4 harg4 arg5 harg5 arg6 harg6 arg7 harg7 arg8 harg8 x0 x1).1.2.2.2.2.2) = areas mbrYZ x0 x1 :=
  funext fun y => View.read_writes_apply_of_pieces arg8.view e (areas mbrYZ x0 x1) _ (pieces5 c i arg1 harg1 arg2 harg2 arg3 harg3 arg4 harg4 arg5 harg5 arg6 harg6 arg7 harg7 arg8 harg8 x0 x1) y (cover5 c i arg1 harg1 arg2 harg2 arg3 harg3 arg4 harg4 arg5 harg5 arg6 harg6 arg7 harg7 arg8 harg8 x0 x1 y)

/-- The body's triple: from the two input buffers at `x0`, `x1` and the six output buffers at anything, the body
    runs to its return with the inputs as they were and output k at the per-row areas of `x0`, `x1`. -/
theorem sound_kernel (E : Set ℕ) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (∃ d, owns (c : Thread nD τ) arg5 fullShare d) ∗ (∃ d, owns (c : Thread nD τ) arg6 fullShare d)
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1
            ∗ owns (c : Thread nD τ) arg3 fullShare (areas interXZ x0 x1)
            ∗ owns (c : Thread nD τ) arg4 fullShare (areas mbrXZ x0 x1)
            ∗ owns (c : Thread nD τ) arg5 fullShare (areas interXY x0 x1)
            ∗ owns (c : Thread nD τ) arg6 fullShare (areas mbrXY x0 x1)
            ∗ owns (c : Thread nD τ) arg7 fullShare (areas interYZ x0 x1)
            ∗ owns (c : Thread nD τ) arg8 fullShare (areas mbrYZ x0 x1)) -∗ K ⟨⟩))
      ⊢ wp frame (wpE (defs₀ (F := F)) Variants.none c none) E (cc0_align_inter_aligned i arg1 harg1 arg2 harg2 arg3 harg3 arg4 harg4 arg5 harg5 arg6 harg6 arg7 harg7 arg8 harg8) K := by
  iintro ⟨H0, H1, H2, H3, H4, H5, H6, H7, Hk⟩
  iapply ((kernelRun c i arg1 harg1 arg2 harg2 arg3 harg3 arg4 harg4 arg5 harg5 arg6 harg6 arg7 harg7 arg8 harg8 x0 x1).2 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iintro ⟨H0, H1, ⟨%e2, H2⟩, ⟨%e3, H3⟩, ⟨%e4, H4⟩, ⟨%e5, H5⟩, ⟨%e6, H6⟩, ⟨%e7, H7⟩⟩
  iapply Hk
  isplitl [H0]; · iexact H0
  isplitl [H1]; · iexact H1
  isplitl [H2]
  · unfold owns; iexists _; isplitr
    swap; · iexact H2
    ipureintro; exact out0 c i arg1 harg1 arg2 harg2 arg3 harg3 arg4 harg4 arg5 harg5 arg6 harg6 arg7 harg7 arg8 harg8 x0 x1 e2
  isplitl [H3]
  · unfold owns; iexists _; isplitr
    swap; · iexact H3
    ipureintro; exact out1 c i arg1 harg1 arg2 harg2 arg3 harg3 arg4 harg4 arg5 harg5 arg6 harg6 arg7 harg7 arg8 harg8 x0 x1 e3
  isplitl [H4]
  · unfold owns; iexists _; isplitr
    swap; · iexact H4
    ipureintro; exact out2 c i arg1 harg1 arg2 harg2 arg3 harg3 arg4 harg4 arg5 harg5 arg6 harg6 arg7 harg7 arg8 harg8 x0 x1 e4
  isplitl [H5]
  · unfold owns; iexists _; isplitr
    swap; · iexact H5
    ipureintro; exact out3 c i arg1 harg1 arg2 harg2 arg3 harg3 arg4 harg4 arg5 harg5 arg6 harg6 arg7 harg7 arg8 harg8 x0 x1 e5
  isplitl [H6]
  · unfold owns; iexists _; isplitr
    swap; · iexact H6
    ipureintro; exact out4 c i arg1 harg1 arg2 harg2 arg3 harg3 arg4 harg4 arg5 harg5 arg6 harg6 arg7 harg7 arg8 harg8 x0 x1 e6
  · unfold owns; iexists _; isplitr
    swap; · iexact H7
    ipureintro; exact out5 c i arg1 harg1 arg2 harg2 arg3 harg3 arg4 harg4 arg5 harg5 arg6 harg6 arg7 harg7 arg8 harg8 x0 x1 e7

end Kernel

/-! ## The pipeline's proof data -/

variable (m : (ℓ : Loc nD τ sig) → Buf (Elt F) ℓ) (ρ : Dev nD → PrngReg)

/-- The filler for the rows of a buffer nothing names: zero words. -/
def zf : S16384x7.Idx → Elt F .f32 := fun _ => Scalar.ofBits .f32 0#32

/-- An input window's staging buffer at point `t` just after its fetch: the block's rows inside the array, the
    other rows at `d`. -/
def inX0 (c : Dev nD) (t : Fin cfg0.N) (d : S16384x7.Idx → Elt F .f32) : S16384x7.Idx → Elt F .f32 :=
  win0_0.fill (grid0.coords t) d (iblk m c 0 t)
def inX1 (c : Dev nD) (t : Fin cfg0.N) (d : S16384x7.Idx → Elt F .f32) : S16384x7.Idx → Elt F .f32 :=
  win0_1.fill (grid0.coords t) d (iblk m c 1 t)

/-- The proof data: the arrays as the region finds them; after the body at point `t` the inputs' buffers at their
    blocks and output k's at the per-row areas of them (rows past the cut: over zero words); the class's invariant;
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => inX0 m c t zf
    | ⟨1, _⟩ => inX1 m c t zf
    | ⟨2, _⟩ => areas interXZ (inX0 m c t zf) (inX1 m c t zf)
    | ⟨3, _⟩ => areas mbrXZ (inX0 m c t zf) (inX1 m c t zf)
    | ⟨4, _⟩ => areas interXY (inX0 m c t zf) (inX1 m c t zf)
    | ⟨5, _⟩ => areas mbrXY (inX0 m c t zf) (inX1 m c t zf)
    | ⟨6, _⟩ => areas interYZ (inX0 m c t zf) (inX1 m c t zf)
    | ⟨7, _⟩ => areas mbrYZ (inX0 m c t zf) (inX1 m c t zf)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = inX0 m c t zf := by dsimp only [dats]
theorem after0_1 (c : Dev nD) (t : Fin cfg0.N) : (dats m 0 c).after 1 t = inX1 m c t zf := by dsimp only [dats]
theorem after0_2 (c : Dev nD) (t : Fin cfg0.N) : (dats m 0 c).after 2 t = areas interXZ (inX0 m c t zf) (inX1 m c t zf) := by dsimp only [dats]
theorem after0_3 (c : Dev nD) (t : Fin cfg0.N) : (dats m 0 c).after 3 t = areas mbrXZ (inX0 m c t zf) (inX1 m c t zf) := by dsimp only [dats]
theorem after0_4 (c : Dev nD) (t : Fin cfg0.N) : (dats m 0 c).after 4 t = areas interXY (inX0 m c t zf) (inX1 m c t zf) := by dsimp only [dats]
theorem after0_5 (c : Dev nD) (t : Fin cfg0.N) : (dats m 0 c).after 5 t = areas mbrXY (inX0 m c t zf) (inX1 m c t zf) := by dsimp only [dats]
theorem after0_6 (c : Dev nD) (t : Fin cfg0.N) : (dats m 0 c).after 6 t = areas interYZ (inX0 m c t zf) (inX1 m c t zf) := by dsimp only [dats]
theorem after0_7 (c : Dev nD) (t : Fin cfg0.N) : (dats m 0 c).after 7 t = areas mbrYZ (inX0 m c t zf) (inX1 m c t zf) := by dsimp only [dats]

/-- An input's buffer when the body runs: just fetched (every point fetches). -/
theorem before0_0 (c : Dev nD) (t : Fin cfg0.N) (d) : (dats m 0 c).before 0 t d = inX0 m c t d := by
  unfold Dat.before; rw [if_pos (fetch0_0 t)]; rfl
theorem before0_1 (c : Dev nD) (t : Fin cfg0.N) (d) : (dats m 0 c).before 1 t d = inX1 m c t d := by
  unfold Dat.before; rw [if_pos (fetch0_1 t)]; rfl
/-- Output window 2's buffer when the body runs: anything (never fetched; written back at every point). -/
theorem before0_2 (c : Dev nD) (t : Fin cfg0.N) (d) : (dats m 0 c).before 2 t d = d := by
  unfold Dat.before
  rw [if_neg (show ¬((cfg0.win 2).fetch t = true) from Bool.false_ne_true)]
  by_cases h0 : t.val = 0
  · rw [if_pos h0]
  · rw [if_neg h0]; exact if_pos (flush0_2 _)
/-- Output window 3's buffer when the body runs: anything (never fetched; written back at every point). -/
theorem before0_3 (c : Dev nD) (t : Fin cfg0.N) (d) : (dats m 0 c).before 3 t d = d := by
  unfold Dat.before
  rw [if_neg (show ¬((cfg0.win 3).fetch t = true) from Bool.false_ne_true)]
  by_cases h0 : t.val = 0
  · rw [if_pos h0]
  · rw [if_neg h0]; exact if_pos (flush0_3 _)
/-- Output window 4's buffer when the body runs: anything (never fetched; written back at every point). -/
theorem before0_4 (c : Dev nD) (t : Fin cfg0.N) (d) : (dats m 0 c).before 4 t d = d := by
  unfold Dat.before
  rw [if_neg (show ¬((cfg0.win 4).fetch t = true) from Bool.false_ne_true)]
  by_cases h0 : t.val = 0
  · rw [if_pos h0]
  · rw [if_neg h0]; exact if_pos (flush0_4 _)
/-- Output window 5's buffer when the body runs: anything (never fetched; written back at every point). -/
theorem before0_5 (c : Dev nD) (t : Fin cfg0.N) (d) : (dats m 0 c).before 5 t d = d := by
  unfold Dat.before
  rw [if_neg (show ¬((cfg0.win 5).fetch t = true) from Bool.false_ne_true)]
  by_cases h0 : t.val = 0
  · rw [if_pos h0]
  · rw [if_neg h0]; exact if_pos (flush0_5 _)
/-- Output window 6's buffer when the body runs: anything (never fetched; written back at every point). -/
theorem before0_6 (c : Dev nD) (t : Fin cfg0.N) (d) : (dats m 0 c).before 6 t d = d := by
  unfold Dat.before
  rw [if_neg (show ¬((cfg0.win 6).fetch t = true) from Bool.false_ne_true)]
  by_cases h0 : t.val = 0
  · rw [if_pos h0]
  · rw [if_neg h0]; exact if_pos (flush0_6 _)
/-- Output window 7's buffer when the body runs: anything (never fetched; written back at every point). -/
theorem before0_7 (c : Dev nD) (t : Fin cfg0.N) (d) : (dats m 0 c).before 7 t d = d := by
  unfold Dat.before
  rw [if_neg (show ¬((cfg0.win 7).fetch t = true) from Bool.false_ne_true)]
  by_cases h0 : t.val = 0
  · rw [if_pos h0]
  · rw [if_neg h0]; exact if_pos (flush0_7 _)

/-! ## Rows inside the array -/

/-- How far the transfers at a point reach: all seven columns, and on the row axis the same cut for all eight
    windows (decided over the grid). -/
theorem xs_facts : ∀ t : Fin cfg0.N,
    win0_0.xsize (grid0.coords t) 1 = 7 ∧ win0_1.xsize (grid0.coords t) 1 = 7
    ∧ win0_1.xsize (grid0.coords t) 0 = win0_0.xsize (grid0.coords t) 0
    ∧ win0_2.xsize (grid0.coords t) 0 = win0_0.xsize (grid0.coords t) 0
    ∧ win0_3.xsize (grid0.coords t) 0 = win0_0.xsize (grid0.coords t) 0
    ∧ win0_4.xsize (grid0.coords t) 0 = win0_0.xsize (grid0.coords t) 0
    ∧ win0_5.xsize (grid0.coords t) 0 = win0_0.xsize (grid0.coords t) 0
    ∧ win0_6.xsize (grid0.coords t) 0 = win0_0.xsize (grid0.coords t) 0
    ∧ win0_7.xsize (grid0.coords t) 0 = win0_0.xsize (grid0.coords t) 0 :=
  (by decide +kernel : ∀ t : Fin grid0.N,
    win0_0.xsize (grid0.coords t) 1 = 7 ∧ win0_1.xsize (grid0.coords t) 1 = 7
    ∧ win0_1.xsize (grid0.coords t) 0 = win0_0.xsize (grid0.coords t) 0
    ∧ win0_2.xsize (grid0.coords t) 0 = win0_0.xsize (grid0.coords t) 0
    ∧ win0_3.xsize (grid0.coords t) 0 = win0_0.xsize (grid0.coords t) 0
    ∧ win0_4.xsize (grid0.coords t) 0 = win0_0.xsize (grid0.coords t) 0
    ∧ win0_5.xsize (grid0.coords t) 0 = win0_0.xsize (grid0.coords t) 0
    ∧ win0_6.xsize (grid0.coords t) 0 = win0_0.xsize (grid0.coords t) 0
    ∧ win0_7.xsize (grid0.coords t) 0 = win0_0.xsize (grid0.coords t) 0)

/-- A row inside the array of an input buffer does not depend on the filler. -/
theorem row_inX0 (c : Dev nD) (t : Fin cfg0.N) (d d' : S16384x7.Idx → Elt F .f32) (r : Fin 16384)
    (hr : r.val < win0_0.xsize (grid0.coords t) 0) : row (inX0 m c t d) r = row (inX0 m c t d') r := by
  funext k
  have hm : win0_0.moved (grid0.coords t) (ix2 r k) = true := (win0_0.moved_iff _ _).mpr fun a => match a with
    | ⟨0, _⟩ => hr
    | ⟨1, _⟩ => by show k.val < win0_0.xsize (grid0.coords t) 1; rw [(xs_facts t).1]; exact k.isLt
  show win0_0.fill (grid0.coords t) d (iblk m c 0 t) (ix2 r k) = win0_0.fill (grid0.coords t) d' (iblk m c 0 t) (ix2 r k)
  unfold Window.fill; rw [dif_pos hm, dif_pos hm]
theorem row_inX1 (c : Dev nD) (t : Fin cfg0.N) (d d' : S16384x7.Idx → Elt F .f32) (r : Fin 16384)
    (hr : r.val < win0_0.xsize (grid0.coords t) 0) : row (inX1 m c t d) r = row (inX1 m c t d') r := by
  funext k
  have hm : win0_1.moved (grid0.coords t) (ix2 r k) = true := (win0_1.moved_iff _ _).mpr fun a => match a with
    | ⟨0, _⟩ => by show r.val < win0_1.xsize (grid0.coords t) 0; rw [(xs_facts t).2.2.1]; exact hr
    | ⟨1, _⟩ => by show k.val < win0_1.xsize (grid0.coords t) 1; rw [(xs_facts t).2.1]; exact k.isLt
  show win0_1.fill (grid0.coords t) d (iblk m c 1 t) (ix2 r k) = win0_1.fill (grid0.coords t) d' (iblk m c 1 t) (ix2 r k)
  unfold Window.fill; rw [dif_pos hm, dif_pos hm]

/-- On the rows window 2's write-back moves, the per-row areas do not depend on the inputs' fillers. -/
theorem cut_areas_2 (f : Row F → Row F → F .f32) (c : Dev nD) (t : Fin cfg0.N) (d0 d0' d1 d1' : S16384x7.Idx → Elt F .f32) :
    win0_2.cut (grid0.coords t) (areas f (inX0 m c t d0) (inX1 m c t d1))
      = win0_2.cut (grid0.coords t) (areas f (inX0 m c t d0') (inX1 m c t d1')) := by
  funext j
  have hj : (win0_2.xinj (grid0.coords t) j 0).val < win0_0.xsize (grid0.coords t) 0 := by
    have h := (j 0).isLt
    rw [← (xs_facts t).2.2.2.1]; exact h
  show f (row (inX0 m c t d0) (win0_2.xinj (grid0.coords t) j 0)) (row (inX1 m c t d1) (win0_2.xinj (grid0.coords t) j 0))
    = f (row (inX0 m c t d0') (win0_2.xinj (grid0.coords t) j 0)) (row (inX1 m c t d1') (win0_2.xinj (grid0.coords t) j 0))
  rw [row_inX0 m c t d0 d0' (win0_2.xinj (grid0.coords t) j 0) hj, row_inX1 m c t d1 d1' (win0_2.xinj (grid0.coords t) j 0) hj]
/-- On the rows window 3's write-back moves, the per-row areas do not depend on the inputs' fillers. -/
theorem cut_areas_3 (f : Row F → Row F → F .f32) (c : Dev nD) (t : Fin cfg0.N) (d0 d0' d1 d1' : S16384x7.Idx → Elt F .f32) :
    win0_3.cut (grid0.coords t) (areas f (inX0 m c t d0) (inX1 m c t d1))
      = win0_3.cut (grid0.coords t) (areas f (inX0 m c t d0') (inX1 m c t d1')) := by
  funext j
  have hj : (win0_3.xinj (grid0.coords t) j 0).val < win0_0.xsize (grid0.coords t) 0 := by
    have h := (j 0).isLt
    rw [← (xs_facts t).2.2.2.2.1]; exact h
  show f (row (inX0 m c t d0) (win0_3.xinj (grid0.coords t) j 0)) (row (inX1 m c t d1) (win0_3.xinj (grid0.coords t) j 0))
    = f (row (inX0 m c t d0') (win0_3.xinj (grid0.coords t) j 0)) (row (inX1 m c t d1') (win0_3.xinj (grid0.coords t) j 0))
  rw [row_inX0 m c t d0 d0' (win0_3.xinj (grid0.coords t) j 0) hj, row_inX1 m c t d1 d1' (win0_3.xinj (grid0.coords t) j 0) hj]
/-- On the rows window 4's write-back moves, the per-row areas do not depend on the inputs' fillers. -/
theorem cut_areas_4 (f : Row F → Row F → F .f32) (c : Dev nD) (t : Fin cfg0.N) (d0 d0' d1 d1' : S16384x7.Idx → Elt F .f32) :
    win0_4.cut (grid0.coords t) (areas f (inX0 m c t d0) (inX1 m c t d1))
      = win0_4.cut (grid0.coords t) (areas f (inX0 m c t d0') (inX1 m c t d1')) := by
  funext j
  have hj : (win0_4.xinj (grid0.coords t) j 0).val < win0_0.xsize (grid0.coords t) 0 := by
    have h := (j 0).isLt
    rw [← (xs_facts t).2.2.2.2.2.1]; exact h
  show f (row (inX0 m c t d0) (win0_4.xinj (grid0.coords t) j 0)) (row (inX1 m c t d1) (win0_4.xinj (grid0.coords t) j 0))
    = f (row (inX0 m c t d0') (win0_4.xinj (grid0.coords t) j 0)) (row (inX1 m c t d1') (win0_4.xinj (grid0.coords t) j 0))
  rw [row_inX0 m c t d0 d0' (win0_4.xinj (grid0.coords t) j 0) hj, row_inX1 m c t d1 d1' (win0_4.xinj (grid0.coords t) j 0) hj]
/-- On the rows window 5's write-back moves, the per-row areas do not depend on the inputs' fillers. -/
theorem cut_areas_5 (f : Row F → Row F → F .f32) (c : Dev nD) (t : Fin cfg0.N) (d0 d0' d1 d1' : S16384x7.Idx → Elt F .f32) :
    win0_5.cut (grid0.coords t) (areas f (inX0 m c t d0) (inX1 m c t d1))
      = win0_5.cut (grid0.coords t) (areas f (inX0 m c t d0') (inX1 m c t d1')) := by
  funext j
  have hj : (win0_5.xinj (grid0.coords t) j 0).val < win0_0.xsize (grid0.coords t) 0 := by
    have h := (j 0).isLt
    rw [← (xs_facts t).2.2.2.2.2.2.1]; exact h
  show f (row (inX0 m c t d0) (win0_5.xinj (grid0.coords t) j 0)) (row (inX1 m c t d1) (win0_5.xinj (grid0.coords t) j 0))
    = f (row (inX0 m c t d0') (win0_5.xinj (grid0.coords t) j 0)) (row (inX1 m c t d1') (win0_5.xinj (grid0.coords t) j 0))
  rw [row_inX0 m c t d0 d0' (win0_5.xinj (grid0.coords t) j 0) hj, row_inX1 m c t d1 d1' (win0_5.xinj (grid0.coords t) j 0) hj]
/-- On the rows window 6's write-back moves, the per-row areas do not depend on the inputs' fillers. -/
theorem cut_areas_6 (f : Row F → Row F → F .f32) (c : Dev nD) (t : Fin cfg0.N) (d0 d0' d1 d1' : S16384x7.Idx → Elt F .f32) :
    win0_6.cut (grid0.coords t) (areas f (inX0 m c t d0) (inX1 m c t d1))
      = win0_6.cut (grid0.coords t) (areas f (inX0 m c t d0') (inX1 m c t d1')) := by
  funext j
  have hj : (win0_6.xinj (grid0.coords t) j 0).val < win0_0.xsize (grid0.coords t) 0 := by
    have h := (j 0).isLt
    rw [← (xs_facts t).2.2.2.2.2.2.2.1]; exact h
  show f (row (inX0 m c t d0) (win0_6.xinj (grid0.coords t) j 0)) (row (inX1 m c t d1) (win0_6.xinj (grid0.coords t) j 0))
    = f (row (inX0 m c t d0') (win0_6.xinj (grid0.coords t) j 0)) (row (inX1 m c t d1') (win0_6.xinj (grid0.coords t) j 0))
  rw [row_inX0 m c t d0 d0' (win0_6.xinj (grid0.coords t) j 0) hj, row_inX1 m c t d1 d1' (win0_6.xinj (grid0.coords t) j 0) hj]
/-- On the rows window 7's write-back moves, the per-row areas do not depend on the inputs' fillers. -/
theorem cut_areas_7 (f : Row F → Row F → F .f32) (c : Dev nD) (t : Fin cfg0.N) (d0 d0' d1 d1' : S16384x7.Idx → Elt F .f32) :
    win0_7.cut (grid0.coords t) (areas f (inX0 m c t d0) (inX1 m c t d1))
      = win0_7.cut (grid0.coords t) (areas f (inX0 m c t d0') (inX1 m c t d1')) := by
  funext j
  have hj : (win0_7.xinj (grid0.coords t) j 0).val < win0_0.xsize (grid0.coords t) 0 := by
    have h := (j 0).isLt
    rw [← (xs_facts t).2.2.2.2.2.2.2.2]; exact h
  show f (row (inX0 m c t d0) (win0_7.xinj (grid0.coords t) j 0)) (row (inX1 m c t d1) (win0_7.xinj (grid0.coords t) j 0))
    = f (row (inX0 m c t d0') (win0_7.xinj (grid0.coords t) j 0)) (row (inX1 m c t d1') (win0_7.xinj (grid0.coords t) j 0))
  rw [row_inX0 m c t d0 d0' (win0_7.xinj (grid0.coords t) j 0) hj, row_inX1 m c t d1 d1' (win0_7.xinj (grid0.coords t) j 0) hj]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

def bodyPost (c : Dev nD) (t : Fin cfg0.N) : sProp 𝕄 :=
  iprop((dats m 0 c).Φ t.succ ∗ (dats m 0 c).owesAt () t.succ
    ∗ (∃ d, owns (c : Thread nD τ) (st0_0 t) fullShare (win0_0.fill (grid0.coords t) d (win0_0.cut (grid0.coords t) ((dats m 0 c).after 0 t))))
    ∗ (∃ d, owns (c : Thread nD τ) (st0_1 t) fullShare (win0_1.fill (grid0.coords t) d (win0_1.cut (grid0.coords t) ((dats m 0 c).after 1 t))))
    ∗ (∃ d, owns (c : Thread nD τ) (st0_2 t) fullShare (win0_2.fill (grid0.coords t) d (win0_2.cut (grid0.coords t) ((dats m 0 c).after 2 t))))
    ∗ (∃ d, owns (c : Thread nD τ) (st0_3 t) fullShare (win0_3.fill (grid0.coords t) d (win0_3.cut (grid0.coords t) ((dats m 0 c).after 3 t))))
    ∗ (∃ d, owns (c : Thread nD τ) (st0_4 t) fullShare (win0_4.fill (grid0.coords t) d (win0_4.cut (grid0.coords t) ((dats m 0 c).after 4 t))))
    ∗ (∃ d, owns (c : Thread nD τ) (st0_5 t) fullShare (win0_5.fill (grid0.coords t) d (win0_5.cut (grid0.coords t) ((dats m 0 c).after 5 t))))
    ∗ (∃ d, owns (c : Thread nD τ) (st0_6 t) fullShare (win0_6.fill (grid0.coords t) d (win0_6.cut (grid0.coords t) ((dats m 0 c).after 6 t))))
    ∗ (∃ d, owns (c : Thread nD τ) (st0_7 t) fullShare (win0_7.fill (grid0.coords t) d (win0_7.cut (grid0.coords t) ((dats m 0 c).after 7 t)))))

set_option maxHeartbeats 1000000 in
/-- The body at any point: the input buffers hold their blocks filled out with anything, so `sound_kernel` applies
    at those contents; what it leaves agrees with the proof data on the rows inside the array. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c (grid0.coords t) _ _ _ _ _ _ _ _ _ _ _ _ _ _ _ _ (inX0 m c t d0) (inX1 m c t d1) Set.univ _)
  isplitl [H0]; · iexact H0
  isplitl [H1]; · iexact H1
  isplitl [H2]; · iexists _; iexact H2
  isplitl [H3]; · iexists _; iexact H3
  isplitl [H4]; · iexists _; iexact H4
  isplitl [H5]; · iexists _; iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]
  · iexists d0
    rw [show win0_0.cut (grid0.coords t) (inX0 m c t zf) = iblk m c 0 t from win0_0.cut_fill _ _ _]
    iexact H0
  isplitl [H1]
  · iexists d1
    rw [show win0_1.cut (grid0.coords t) (inX1 m c t zf) = iblk m c 1 t from win0_1.cut_fill _ _ _]
    iexact H1
  isplitl [H2]
  · iexists areas interXZ (inX0 m c t d0) (inX1 m c t d1)
    rw [win0_2.fill_congr_cut (grid0.coords t) (cut_areas_2 m interXZ c t d0 zf d1 zf)]
    iexact H2
  isplitl [H3]
  · iexists areas mbrXZ (inX0 m c t d0) (inX1 m c t d1)
    rw [win0_3.fill_congr_cut (grid0.coords t) (cut_areas_3 m mbrXZ c t d0 zf d1 zf)]
    iexact H3
  isplitl [H4]
  · iexists areas interXY (inX0 m c t d0) (inX1 m c t d1)
    rw [win0_4.fill_congr_cut (grid0.coords t) (cut_areas_4 m interXY c t d0 zf d1 zf)]
    iexact H4
  isplitl [H5]
  · iexists areas mbrXY (inX0 m c t d0) (inX1 m c t d1)
    rw [win0_5.fill_congr_cut (grid0.coords t) (cut_areas_5 m mbrXY c t d0 zf d1 zf)]
    iexact H5
  isplitl [H6]
  · iexists areas interYZ (inX0 m c t d0) (inX1 m c t d1)
    rw [win0_6.fill_congr_cut (grid0.coords t) (cut_areas_6 m interYZ c t d0 zf d1 zf)]
    iexact H6
  · iexists areas mbrYZ (inX0 m c t d0) (inX1 m c t d1)
    rw [win0_7.fill_congr_cut (grid0.coords t) (cut_areas_7 m mbrYZ c t d0 zf d1 zf)]
    iexact H7

/-- The library's body obligation, in its form for windows whose blocks may overhang. -/
theorem body_obligation (c : Dev nD) : BodyObligationLoose (dats (F := F) m 0 c) (defs₀ (F := F)) Variants.none () Set.univ := fun t => by
  rw [bigSep_W0, bigSep_W0]
  exact sound_body m c t

/-! ## The run and the frame -/

set_option backward.isDefEq.respectTransparency.types false in
/-- At the compiled mesh, for any values, from any memory with zero counters: every weakly fair execution of @main
    terminates, every array of the pipeline ends at what the proof data gives after the last write-back, and every
    other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hΦ := fun _ _ => rfl)

/-- The frame: the run terminates and the two argument arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Body

end
-- ==== Proof.KernelIdealValue.lean ====
/-
  What the six result arrays of `KernelIdeal` hold after the run: result k at entry i is the per-row area `k` of rows i
  of the two argument arrays.

  Point t of the grid writes back rows [16384 t, 16384 t + n_t) of each result, n_t = 16384 for t < 122 and
  n_t = 1152 at the last point (2000000 = 122 * 16384 + 1152); what it writes is the leading n_t rows of the output
  buffer, which are the per-row areas of the leading rows of the input buffers, and those are rows 16384 t + r of the
  argument arrays. So every point writes back its block of ONE function of the arguments, and the 123 blocks cover
  [0, 2000000).
-/
import proofs.«165497_g23639499997224_pilotgen1_349_2_alg».proof.Proof.KernelIdealFrame
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.AlignCell

variable {F : FTy → Type} [FloatOps F]
variable (m : (ℓ : Loc nD τ sig) → Buf (Elt F) ℓ) (ρ : Dev nD → PrngReg)

/-- The printed index maps and cuts, decided over the grid: every window's block index on the row axis is the point,
    the inputs' on the column axis is zero, and every window moves 16384 rows at each point but the last, which
    moves 1152. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ (t.val + 1 < 123 → win0_0.xsize (grid0.coords t) 0 = 16384)
    ∧ (t.val + 1 = 123 → win0_0.xsize (grid0.coords t) 0 = 1152)
    ∧ win0_2.index t (0 : Fin 1) = t.val
    ∧ win0_3.index t (0 : Fin 1) = t.val
    ∧ win0_4.index t (0 : Fin 1) = t.val
    ∧ win0_5.index t (0 : Fin 1) = t.val
    ∧ win0_6.index t (0 : Fin 1) = t.val
    ∧ win0_7.index t (0 : Fin 1) = t.val :=
  (by decide +kernel : ∀ t : Fin grid0.N,
    win0_0.index t (0 : Fin 2) = t.val ∧ win0_0.index t (1 : Fin 2) = 0
    ∧ win0_1.index t (0 : Fin 2) = t.val ∧ win0_1.index t (1 : Fin 2) = 0
    ∧ (t.val + 1 < 123 → win0_0.xsize (grid0.coords t) 0 = 16384)
    ∧ (t.val + 1 = 123 → win0_0.xsize (grid0.coords t) 0 = 1152)
    ∧ win0_2.index t (0 : Fin 1) = t.val
    ∧ win0_3.index t (0 : Fin 1) = t.val
    ∧ win0_4.index t (0 : Fin 1) = t.val
    ∧ win0_5.index t (0 : Fin 1) = t.val
    ∧ win0_6.index t (0 : Fin 1) = t.val
    ∧ win0_7.index t (0 : Fin 1) = t.val)

/-- A row inside the array of input buffer 0 at point `t` is row 16384 t + r of the first argument. -/
theorem row_arr0 (c : Dev nD) (t : Fin cfg0.N) (d : S16384x7.Idx → Elt F .f32) (r : Fin 16384)
    (hr : r.val < win0_0.xsize (grid0.coords t) 0) (R : Fin 2000000) (hR : R.val = t.val * 16384 + r.val) :
    row (inX0 m c t d) r = row (V m c main_arg0) R := by
  funext k
  have hm : win0_0.moved (grid0.coords t) (ix2 r k) = true := (win0_0.moved_iff _ _).mpr fun a => match a with
    | ⟨0, _⟩ => hr
    | ⟨1, _⟩ => by show k.val < win0_0.xsize (grid0.coords t) 1; rw [(xs_facts t).1]; exact k.isLt
  show win0_0.fill (grid0.coords t) d (iblk m c 0 t) (ix2 r k) = V m c main_arg0 (ix2 R k)
  unfold Window.fill; rw [dif_pos hm]
  obtain ⟨e0, e1, -⟩ := idx_facts t
  show V m c main_arg0 (((cfg0.win 0).blk t).view.emb _) = V m c main_arg0 (ix2 R k)
  refine congrArg _ (funext fun a => Fin.ext ?_)
  match a with
  | ⟨0, _⟩ => show win0_0.index t (0 : Fin 2) * 16384 + 1 * r.val = R.val; rw [e0, hR]; omega
  | ⟨1, _⟩ => show win0_0.index t (1 : Fin 2) * 7 + 1 * k.val = k.val; rw [e1]; omega

/-- The same for input buffer 1 and the second argument. -/
theorem row_arr1 (c : Dev nD) (t : Fin cfg0.N) (d : S16384x7.Idx → Elt F .f32) (r : Fin 16384)
    (hr : r.val < win0_0.xsize (grid0.coords t) 0) (R : Fin 2000000) (hR : R.val = t.val * 16384 + r.val) :
    row (inX1 m c t d) r = row (V m c main_arg1) R := by
  funext k
  have hm : win0_1.moved (grid0.coords t) (ix2 r k) = true := (win0_1.moved_iff _ _).mpr fun a => match a with
    | ⟨0, _⟩ => by show r.val < win0_1.xsize (grid0.coords t) 0; rw [(xs_facts t).2.2.1]; exact hr
    | ⟨1, _⟩ => by show k.val < win0_1.xsize (grid0.coords t) 1; rw [(xs_facts t).2.1]; exact k.isLt
  show win0_1.fill (grid0.coords t) d (iblk m c 1 t) (ix2 r k) = V m c main_arg1 (ix2 R k)
  unfold Window.fill; rw [dif_pos hm]
  obtain ⟨-, -, e0, e1, -⟩ := idx_facts t
  show V m c main_arg1 (((cfg0.win 1).blk t).view.emb _) = V m c main_arg1 (ix2 R k)
  refine congrArg _ (funext fun a => Fin.ext ?_)
  match a with
  | ⟨0, _⟩ => show win0_1.index t (0 : Fin 2) * 16384 + 1 * r.val = R.val; rw [e0, hR]; omega
  | ⟨1, _⟩ => show win0_1.index t (1 : Fin 2) * 7 + 1 * k.val = k.val; rw [e1]; omega

/-! ## Result 0 (window 2) -/

/-- What point `t` writes back to result 0 is its block of the per-row areas of the arguments. -/
theorem flushed_eq_2 (c : Dev nD) (t : Fin cfg0.N) :
    (dats m 0 c).flushed 2 t = ((cfg0.win 2).blk t).view.read (Elt F) (areas interXZ (V m c main_arg0) (V m c main_arg1)) := by
  show (cfg0.win 2).cut (grid0.coords t) ((dats m 0 c).after 2 t) = _
  rw [after0_2]
  funext j
  have hj : (win0_2.xinj (grid0.coords t) j 0).val < win0_0.xsize (grid0.coords t) 0 := by
    have h := (j 0).isLt
    rw [← (xs_facts t).2.2.2.1]; exact h
  have e : win0_2.index t (0 : Fin 1) = t.val := (idx_facts t).2.2.2.2.2.2.1
  have hR : ((((cfg0.win 2).blk t).view.emb j) 0).val = t.val * 16384 + (win0_2.xinj (grid0.coords t) j 0).val := by
    show win0_2.index t (0 : Fin 1) * 16384 + 1 * (j 0).val = t.val * 16384 + (j 0).val; rw [e]; omega
  show interXZ (row (inX0 m c t zf) (win0_2.xinj (grid0.coords t) j 0)) (row (inX1 m c t zf) (win0_2.xinj (grid0.coords t) j 0))
    = interXZ (row (V m c main_arg0) ((((cfg0.win 2).blk t).view.emb j) 0)) (row (V m c main_arg1) ((((cfg0.win 2).blk t).view.emb j) 0))
  rw [row_arr0 m c t zf (win0_2.xinj (grid0.coords t) j 0) hj ((((cfg0.win 2).blk t).view.emb j) 0) hR,
    row_arr1 m c t zf (win0_2.xinj (grid0.coords t) j 0) hj ((((cfg0.win 2).blk t).view.emb j) 0) hR]

/-- An entry of result 0 is in point `t`'s block iff its row is among the rows the point moves. -/
theorem mem_blk_2 (t : Fin cfg0.N) (i : S2000000.Idx) :
    i ∈ ((cfg0.win 2).blk t).view.set ↔ ∀ a : Fin 1, win0_2.index t a * S16384.size a ≤ (i a).val ∧ (i a).val < win0_2.index t a * S16384.size a + win0_2.xsize (grid0.coords t) a := by
  show i ∈ ((View.whole main_v0_0).slice (win0_2.rect t)).set ↔ _
  rw [View.set_slice_whole, Rect.mem_set_unit]
  exact Iff.rfl

/-- The 123 blocks cover the array. -/
theorem cover_2 (i : S2000000.Idx) : ∃ t : Fin cfg0.N, (cfg0.win 2).flush t = true ∧ i ∈ ((cfg0.win 2).blk t).view.set := by
  have hi : (i 0).val < 2000000 := (i 0).isLt
  refine ⟨⟨(i 0).val / 16384, by show (i 0).val / 16384 < 123; omega⟩, flush0_2 _, ?_⟩
  rw [mem_blk_2]
  intro a
  obtain ⟨-, -, -, -, x0, x1, -⟩ := idx_facts ⟨(i 0).val / 16384, by show (i 0).val / 16384 < 123; omega⟩
  have e : win0_2.index ⟨(i 0).val / 16384, by show (i 0).val / 16384 < 123; omega⟩ (0 : Fin 1) = (i 0).val / 16384 :=
    (idx_facts ⟨(i 0).val / 16384, by show (i 0).val / 16384 < 123; omega⟩).2.2.2.2.2.2.1
  have xe := (xs_facts ⟨(i 0).val / 16384, by show (i 0).val / 16384 < 123; omega⟩).2.2.2.1
  match a with
  | ⟨0, _⟩ =>
    show win0_2.index _ (0 : Fin 1) * 16384 ≤ (i 0).val ∧ (i 0).val < win0_2.index _ (0 : Fin 1) * 16384 + win0_2.xsize _ 0
    rw [e, xe]
    by_cases hl : (i 0).val / 16384 + 1 < 123
    · rw [x0 hl]; omega
    · rw [x1 (by show (i 0).val / 16384 + 1 = 123; omega)]; omega

/-- Result 0 after the run. -/
theorem final_2 (c : Dev nD) : (dats m 0 c).arrAt 2 cfg0.N = areas interXZ (V m c main_arg0) (V m c main_arg1) :=
  (dats m 0 c).arrAt_eq_of_cover 2 _ (fun t _ => flushed_eq_2 m c t) (cover_2)

/-! ## Result 1 (window 3) -/

/-- What point `t` writes back to result 1 is its block of the per-row areas of the arguments. -/
theorem flushed_eq_3 (c : Dev nD) (t : Fin cfg0.N) :
    (dats m 0 c).flushed 3 t = ((cfg0.win 3).blk t).view.read (Elt F) (areas mbrXZ (V m c main_arg0) (V m c main_arg1)) := by
  show (cfg0.win 3).cut (grid0.coords t) ((dats m 0 c).after 3 t) = _
  rw [after0_3]
  funext j
  have hj : (win0_3.xinj (grid0.coords t) j 0).val < win0_0.xsize (grid0.coords t) 0 := by
    have h := (j 0).isLt
    rw [← (xs_facts t).2.2.2.2.1]; exact h
  have e : win0_3.index t (0 : Fin 1) = t.val := (idx_facts t).2.2.2.2.2.2.2.1
  have hR : ((((cfg0.win 3).blk t).view.emb j) 0).val = t.val * 16384 + (win0_3.xinj (grid0.coords t) j 0).val := by
    show win0_3.index t (0 : Fin 1) * 16384 + 1 * (j 0).val = t.val * 16384 + (j 0).val; rw [e]; omega
  show mbrXZ (row (inX0 m c t zf) (win0_3.xinj (grid0.coords t) j 0)) (row (inX1 m c t zf) (win0_3.xinj (grid0.coords t) j 0))
    = mbrXZ (row (V m c main_arg0) ((((cfg0.win 3).blk t).view.emb j) 0)) (row (V m c main_arg1) ((((cfg0.win 3).blk t).view.emb j) 0))
  rw [row_arr0 m c t zf (win0_3.xinj (grid0.coords t) j 0) hj ((((cfg0.win 3).blk t).view.emb j) 0) hR,
    row_arr1 m c t zf (win0_3.xinj (grid0.coords t) j 0) hj ((((cfg0.win 3).blk t).view.emb j) 0) hR]

/-- An entry of result 1 is in point `t`'s block iff its row is among the rows the point moves. -/
theorem mem_blk_3 (t : Fin cfg0.N) (i : S2000000.Idx) :
    i ∈ ((cfg0.win 3).blk t).view.set ↔ ∀ a : Fin 1, win0_3.index t a * S16384.size a ≤ (i a).val ∧ (i a).val < win0_3.index t a * S16384.size a + win0_3.xsize (grid0.coords t) a := by
  show i ∈ ((View.whole main_v0_1).slice (win0_3.rect t)).set ↔ _
  rw [View.set_slice_whole, Rect.mem_set_unit]
  exact Iff.rfl

/-- The 123 blocks cover the array. -/
theorem cover_3 (i : S2000000.Idx) : ∃ t : Fin cfg0.N, (cfg0.win 3).flush t = true ∧ i ∈ ((cfg0.win 3).blk t).view.set := by
  have hi : (i 0).val < 2000000 := (i 0).isLt
  refine ⟨⟨(i 0).val / 16384, by show (i 0).val / 16384 < 123; omega⟩, flush0_3 _, ?_⟩
  rw [mem_blk_3]
  intro a
  obtain ⟨-, -, -, -, x0, x1, -⟩ := idx_facts ⟨(i 0).val / 16384, by show (i 0).val / 16384 < 123; omega⟩
  have e : win0_3.index ⟨(i 0).val / 16384, by show (i 0).val / 16384 < 123; omega⟩ (0 : Fin 1) = (i 0).val / 16384 :=
    (idx_facts ⟨(i 0).val / 16384, by show (i 0).val / 16384 < 123; omega⟩).2.2.2.2.2.2.2.1
  have xe := (xs_facts ⟨(i 0).val / 16384, by show (i 0).val / 16384 < 123; omega⟩).2.2.2.2.1
  match a with
  | ⟨0, _⟩ =>
    show win0_3.index _ (0 : Fin 1) * 16384 ≤ (i 0).val ∧ (i 0).val < win0_3.index _ (0 : Fin 1) * 16384 + win0_3.xsize _ 0
    rw [e, xe]
    by_cases hl : (i 0).val / 16384 + 1 < 123
    · rw [x0 hl]; omega
    · rw [x1 (by show (i 0).val / 16384 + 1 = 123; omega)]; omega

/-- Result 1 after the run. -/
theorem final_3 (c : Dev nD) : (dats m 0 c).arrAt 3 cfg0.N = areas mbrXZ (V m c main_arg0) (V m c main_arg1) :=
  (dats m 0 c).arrAt_eq_of_cover 3 _ (fun t _ => flushed_eq_3 m c t) (cover_3)

/-! ## Result 2 (window 4) -/

/-- What point `t` writes back to result 2 is its block of the per-row areas of the arguments. -/
theorem flushed_eq_4 (c : Dev nD) (t : Fin cfg0.N) :
    (dats m 0 c).flushed 4 t = ((cfg0.win 4).blk t).view.read (Elt F) (areas interXY (V m c main_arg0) (V m c main_arg1)) := by
  show (cfg0.win 4).cut (grid0.coords t) ((dats m 0 c).after 4 t) = _
  rw [after0_4]
  funext j
  have hj : (win0_4.xinj (grid0.coords t) j 0).val < win0_0.xsize (grid0.coords t) 0 := by
    have h := (j 0).isLt
    rw [← (xs_facts t).2.2.2.2.2.1]; exact h
  have e : win0_4.index t (0 : Fin 1) = t.val := (idx_facts t).2.2.2.2.2.2.2.2.1
  have hR : ((((cfg0.win 4).blk t).view.emb j) 0).val = t.val * 16384 + (win0_4.xinj (grid0.coords t) j 0).val := by
    show win0_4.index t (0 : Fin 1) * 16384 + 1 * (j 0).val = t.val * 16384 + (j 0).val; rw [e]; omega
  show interXY (row (inX0 m c t zf) (win0_4.xinj (grid0.coords t) j 0)) (row (inX1 m c t zf) (win0_4.xinj (grid0.coords t) j 0))
    = interXY (row (V m c main_arg0) ((((cfg0.win 4).blk t).view.emb j) 0)) (row (V m c main_arg1) ((((cfg0.win 4).blk t).view.emb j) 0))
  rw [row_arr0 m c t zf (win0_4.xinj (grid0.coords t) j 0) hj ((((cfg0.win 4).blk t).view.emb j) 0) hR,
    row_arr1 m c t zf (win0_4.xinj (grid0.coords t) j 0) hj ((((cfg0.win 4).blk t).view.emb j) 0) hR]

/-- An entry of result 2 is in point `t`'s block iff its row is among the rows the point moves. -/
theorem mem_blk_4 (t : Fin cfg0.N) (i : S2000000.Idx) :
    i ∈ ((cfg0.win 4).blk t).view.set ↔ ∀ a : Fin 1, win0_4.index t a * S16384.size a ≤ (i a).val ∧ (i a).val < win0_4.index t a * S16384.size a + win0_4.xsize (grid0.coords t) a := by
  show i ∈ ((View.whole main_v0_2).slice (win0_4.rect t)).set ↔ _
  rw [View.set_slice_whole, Rect.mem_set_unit]
  exact Iff.rfl

/-- The 123 blocks cover the array. -/
theorem cover_4 (i : S2000000.Idx) : ∃ t : Fin cfg0.N, (cfg0.win 4).flush t = true ∧ i ∈ ((cfg0.win 4).blk t).view.set := by
  have hi : (i 0).val < 2000000 := (i 0).isLt
  refine ⟨⟨(i 0).val / 16384, by show (i 0).val / 16384 < 123; omega⟩, flush0_4 _, ?_⟩
  rw [mem_blk_4]
  intro a
  obtain ⟨-, -, -, -, x0, x1, -⟩ := idx_facts ⟨(i 0).val / 16384, by show (i 0).val / 16384 < 123; omega⟩
  have e : win0_4.index ⟨(i 0).val / 16384, by show (i 0).val / 16384 < 123; omega⟩ (0 : Fin 1) = (i 0).val / 16384 :=
    (idx_facts ⟨(i 0).val / 16384, by show (i 0).val / 16384 < 123; omega⟩).2.2.2.2.2.2.2.2.1
  have xe := (xs_facts ⟨(i 0).val / 16384, by show (i 0).val / 16384 < 123; omega⟩).2.2.2.2.2.1
  match a with
  | ⟨0, _⟩ =>
    show win0_4.index _ (0 : Fin 1) * 16384 ≤ (i 0).val ∧ (i 0).val < win0_4.index _ (0 : Fin 1) * 16384 + win0_4.xsize _ 0
    rw [e, xe]
    by_cases hl : (i 0).val / 16384 + 1 < 123
    · rw [x0 hl]; omega
    · rw [x1 (by show (i 0).val / 16384 + 1 = 123; omega)]; omega

/-- Result 2 after the run. -/
theorem final_4 (c : Dev nD) : (dats m 0 c).arrAt 4 cfg0.N = areas interXY (V m c main_arg0) (V m c main_arg1) :=
  (dats m 0 c).arrAt_eq_of_cover 4 _ (fun t _ => flushed_eq_4 m c t) (cover_4)

/-! ## Result 3 (window 5) -/

/-- What point `t` writes back to result 3 is its block of the per-row areas of the arguments. -/
theorem flushed_eq_5 (c : Dev nD) (t : Fin cfg0.N) :
    (dats m 0 c).flushed 5 t = ((cfg0.win 5).blk t).view.read (Elt F) (areas mbrXY (V m c main_arg0) (V m c main_arg1)) := by
  show (cfg0.win 5).cut (grid0.coords t) ((dats m 0 c).after 5 t) = _
  rw [after0_5]
  funext j
  have hj : (win0_5.xinj (grid0.coords t) j 0).val < win0_0.xsize (grid0.coords t) 0 := by
    have h := (j 0).isLt
    rw [← (xs_facts t).2.2.2.2.2.2.1]; exact h
  have e : win0_5.index t (0 : Fin 1) = t.val := (idx_facts t).2.2.2.2.2.2.2.2.2.1
  have hR : ((((cfg0.win 5).blk t).view.emb j) 0).val = t.val * 16384 + (win0_5.xinj (grid0.coords t) j 0).val := by
    show win0_5.index t (0 : Fin 1) * 16384 + 1 * (j 0).val = t.val * 16384 + (j 0).val; rw [e]; omega
  show mbrXY (row (inX0 m c t zf) (win0_5.xinj (grid0.coords t) j 0)) (row (inX1 m c t zf) (win0_5.xinj (grid0.coords t) j 0))
    = mbrXY (row (V m c main_arg0) ((((cfg0.win 5).blk t).view.emb j) 0)) (row (V m c main_arg1) ((((cfg0.win 5).blk t).view.emb j) 0))
  rw [row_arr0 m c t zf (win0_5.xinj (grid0.coords t) j 0) hj ((((cfg0.win 5).blk t).view.emb j) 0) hR,
    row_arr1 m c t zf (win0_5.xinj (grid0.coords t) j 0) hj ((((cfg0.win 5).blk t).view.emb j) 0) hR]

/-- An entry of result 3 is in point `t`'s block iff its row is among the rows the point moves. -/
theorem mem_blk_5 (t : Fin cfg0.N) (i : S2000000.Idx) :
    i ∈ ((cfg0.win 5).blk t).view.set ↔ ∀ a : Fin 1, win0_5.index t a * S16384.size a ≤ (i a).val ∧ (i a).val < win0_5.index t a * S16384.size a + win0_5.xsize (grid0.coords t) a := by
  show i ∈ ((View.whole main_v0_3).slice (win0_5.rect t)).set ↔ _
  rw [View.set_slice_whole, Rect.mem_set_unit]
  exact Iff.rfl

/-- The 123 blocks cover the array. -/
theorem cover_5 (i : S2000000.Idx) : ∃ t : Fin cfg0.N, (cfg0.win 5).flush t = true ∧ i ∈ ((cfg0.win 5).blk t).view.set := by
  have hi : (i 0).val < 2000000 := (i 0).isLt
  refine ⟨⟨(i 0).val / 16384, by show (i 0).val / 16384 < 123; omega⟩, flush0_5 _, ?_⟩
  rw [mem_blk_5]
  intro a
  obtain ⟨-, -, -, -, x0, x1, -⟩ := idx_facts ⟨(i 0).val / 16384, by show (i 0).val / 16384 < 123; omega⟩
  have e : win0_5.index ⟨(i 0).val / 16384, by show (i 0).val / 16384 < 123; omega⟩ (0 : Fin 1) = (i 0).val / 16384 :=
    (idx_facts ⟨(i 0).val / 16384, by show (i 0).val / 16384 < 123; omega⟩).2.2.2.2.2.2.2.2.2.1
  have xe := (xs_facts ⟨(i 0).val / 16384, by show (i 0).val / 16384 < 123; omega⟩).2.2.2.2.2.2.1
  match a with
  | ⟨0, _⟩ =>
    show win0_5.index _ (0 : Fin 1) * 16384 ≤ (i 0).val ∧ (i 0).val < win0_5.index _ (0 : Fin 1) * 16384 + win0_5.xsize _ 0
    rw [e, xe]
    by_cases hl : (i 0).val / 16384 + 1 < 123
    · rw [x0 hl]; omega
    · rw [x1 (by show (i 0).val / 16384 + 1 = 123; omega)]; omega

/-- Result 3 after the run. -/
theorem final_5 (c : Dev nD) : (dats m 0 c).arrAt 5 cfg0.N = areas mbrXY (V m c main_arg0) (V m c main_arg1) :=
  (dats m 0 c).arrAt_eq_of_cover 5 _ (fun t _ => flushed_eq_5 m c t) (cover_5)

/-! ## Result 4 (window 6) -/

/-- What point `t` writes back to result 4 is its block of the per-row areas of the arguments. -/
theorem flushed_eq_6 (c : Dev nD) (t : Fin cfg0.N) :
    (dats m 0 c).flushed 6 t = ((cfg0.win 6).blk t).view.read (Elt F) (areas interYZ (V m c main_arg0) (V m c main_arg1)) := by
  show (cfg0.win 6).cut (grid0.coords t) ((dats m 0 c).after 6 t) = _
  rw [after0_6]
  funext j
  have hj : (win0_6.xinj (grid0.coords t) j 0).val < win0_0.xsize (grid0.coords t) 0 := by
    have h := (j 0).isLt
    rw [← (xs_facts t).2.2.2.2.2.2.2.1]; exact h
  have e : win0_6.index t (0 : Fin 1) = t.val := (idx_facts t).2.2.2.2.2.2.2.2.2.2.1
  have hR : ((((cfg0.win 6).blk t).view.emb j) 0).val = t.val * 16384 + (win0_6.xinj (grid0.coords t) j 0).val := by
    show win0_6.index t (0 : Fin 1) * 16384 + 1 * (j 0).val = t.val * 16384 + (j 0).val; rw [e]; omega
  show interYZ (row (inX0 m c t zf) (win0_6.xinj (grid0.coords t) j 0)) (row (inX1 m c t zf) (win0_6.xinj (grid0.coords t) j 0))
    = interYZ (row (V m c main_arg0) ((((cfg0.win 6).blk t).view.emb j) 0)) (row (V m c main_arg1) ((((cfg0.win 6).blk t).view.emb j) 0))
  rw [row_arr0 m c t zf (win0_6.xinj (grid0.coords t) j 0) hj ((((cfg0.win 6).blk t).view.emb j) 0) hR,
    row_arr1 m c t zf (win0_6.xinj (grid0.coords t) j 0) hj ((((cfg0.win 6).blk t).view.emb j) 0) hR]

/-- An entry of result 4 is in point `t`'s block iff its row is among the rows the point moves. -/
theorem mem_blk_6 (t : Fin cfg0.N) (i : S2000000.Idx) :
    i ∈ ((cfg0.win 6).blk t).view.set ↔ ∀ a : Fin 1, win0_6.index t a * S16384.size a ≤ (i a).val ∧ (i a).val < win0_6.index t a * S16384.size a + win0_6.xsize (grid0.coords t) a := by
  show i ∈ ((View.whole main_v0_4).slice (win0_6.rect t)).set ↔ _
  rw [View.set_slice_whole, Rect.mem_set_unit]
  exact Iff.rfl

/-- The 123 blocks cover the array. -/
theorem cover_6 (i : S2000000.Idx) : ∃ t : Fin cfg0.N, (cfg0.win 6).flush t = true ∧ i ∈ ((cfg0.win 6).blk t).view.set := by
  have hi : (i 0).val < 2000000 := (i 0).isLt
  refine ⟨⟨(i 0).val / 16384, by show (i 0).val / 16384 < 123; omega⟩, flush0_6 _, ?_⟩
  rw [mem_blk_6]
  intro a
  obtain ⟨-, -, -, -, x0, x1, -⟩ := idx_facts ⟨(i 0).val / 16384, by show (i 0).val / 16384 < 123; omega⟩
  have e : win0_6.index ⟨(i 0).val / 16384, by show (i 0).val / 16384 < 123; omega⟩ (0 : Fin 1) = (i 0).val / 16384 :=
    (idx_facts ⟨(i 0).val / 16384, by show (i 0).val / 16384 < 123; omega⟩).2.2.2.2.2.2.2.2.2.2.1
  have xe := (xs_facts ⟨(i 0).val / 16384, by show (i 0).val / 16384 < 123; omega⟩).2.2.2.2.2.2.2.1
  match a with
  | ⟨0, _⟩ =>
    show win0_6.index _ (0 : Fin 1) * 16384 ≤ (i 0).val ∧ (i 0).val < win0_6.index _ (0 : Fin 1) * 16384 + win0_6.xsize _ 0
    rw [e, xe]
    by_cases hl : (i 0).val / 16384 + 1 < 123
    · rw [x0 hl]; omega
    · rw [x1 (by show (i 0).val / 16384 + 1 = 123; omega)]; omega

/-- Result 4 after the run. -/
theorem final_6 (c : Dev nD) : (dats m 0 c).arrAt 6 cfg0.N = areas interYZ (V m c main_arg0) (V m c main_arg1) :=
  (dats m 0 c).arrAt_eq_of_cover 6 _ (fun t _ => flushed_eq_6 m c t) (cover_6)

/-! ## Result 5 (window 7) -/

/-- What point `t` writes back to result 5 is its block of the per-row areas of the arguments. -/
theorem flushed_eq_7 (c : Dev nD) (t : Fin cfg0.N) :
    (dats m 0 c).flushed 7 t = ((cfg0.win 7).blk t).view.read (Elt F) (areas mbrYZ (V m c main_arg0) (V m c main_arg1)) := by
  show (cfg0.win 7).cut (grid0.coords t) ((dats m 0 c).after 7 t) = _
  rw [after0_7]
  funext j
  have hj : (win0_7.xinj (grid0.coords t) j 0).val < win0_0.xsize (grid0.coords t) 0 := by
    have h := (j 0).isLt
    rw [← (xs_facts t).2.2.2.2.2.2.2.2]; exact h
  have e : win0_7.index t (0 : Fin 1) = t.val := (idx_facts t).2.2.2.2.2.2.2.2.2.2.2
  have hR : ((((cfg0.win 7).blk t).view.emb j) 0).val = t.val * 16384 + (win0_7.xinj (grid0.coords t) j 0).val := by
    show win0_7.index t (0 : Fin 1) * 16384 + 1 * (j 0).val = t.val * 16384 + (j 0).val; rw [e]; omega
  show mbrYZ (row (inX0 m c t zf) (win0_7.xinj (grid0.coords t) j 0)) (row (inX1 m c t zf) (win0_7.xinj (grid0.coords t) j 0))
    = mbrYZ (row (V m c main_arg0) ((((cfg0.win 7).blk t).view.emb j) 0)) (row (V m c main_arg1) ((((cfg0.win 7).blk t).view.emb j) 0))
  rw [row_arr0 m c t zf (win0_7.xinj (grid0.coords t) j 0) hj ((((cfg0.win 7).blk t).view.emb j) 0) hR,
    row_arr1 m c t zf (win0_7.xinj (grid0.coords t) j 0) hj ((((cfg0.win 7).blk t).view.emb j) 0) hR]

/-- An entry of result 5 is in point `t`'s block iff its row is among the rows the point moves. -/
theorem mem_blk_7 (t : Fin cfg0.N) (i : S2000000.Idx) :
    i ∈ ((cfg0.win 7).blk t).view.set ↔ ∀ a : Fin 1, win0_7.index t a * S16384.size a ≤ (i a).val ∧ (i a).val < win0_7.index t a * S16384.size a + win0_7.xsize (grid0.coords t) a := by
  show i ∈ ((View.whole main_v0_5).slice (win0_7.rect t)).set ↔ _
  rw [View.set_slice_whole, Rect.mem_set_unit]
  exact Iff.rfl

/-- The 123 blocks cover the array. -/
theorem cover_7 (i : S2000000.Idx) : ∃ t : Fin cfg0.N, (cfg0.win 7).flush t = true ∧ i ∈ ((cfg0.win 7).blk t).view.set := by
  have hi : (i 0).val < 2000000 := (i 0).isLt
  refine ⟨⟨(i 0).val / 16384, by show (i 0).val / 16384 < 123; omega⟩, flush0_7 _, ?_⟩
  rw [mem_blk_7]
  intro a
  obtain ⟨-, -, -, -, x0, x1, -⟩ := idx_facts ⟨(i 0).val / 16384, by show (i 0).val / 16384 < 123; omega⟩
  have e : win0_7.index ⟨(i 0).val / 16384, by show (i 0).val / 16384 < 123; omega⟩ (0 : Fin 1) = (i 0).val / 16384 :=
    (idx_facts ⟨(i 0).val / 16384, by show (i 0).val / 16384 < 123; omega⟩).2.2.2.2.2.2.2.2.2.2.2
  have xe := (xs_facts ⟨(i 0).val / 16384, by show (i 0).val / 16384 < 123; omega⟩).2.2.2.2.2.2.2.2
  match a with
  | ⟨0, _⟩ =>
    show win0_7.index _ (0 : Fin 1) * 16384 ≤ (i 0).val ∧ (i 0).val < win0_7.index _ (0 : Fin 1) * 16384 + win0_7.xsize _ 0
    rw [e, xe]
    by_cases hl : (i 0).val / 16384 + 1 < 123
    · rw [x0 hl]; omega
    · rw [x1 (by show (i 0).val / 16384 + 1 = 123; omega)]; omega

/-- Result 5 after the run. -/
theorem final_7 (c : Dev nD) : (dats m 0 c).arrAt 7 cfg0.N = areas mbrYZ (V m c main_arg0) (V m c main_arg1) :=
  (dats m 0 c).arrAt_eq_of_cover 7 _ (fun t _ => flushed_eq_7 m c t) (cover_7)

/-! ## The run, read -/

/-- Every weakly fair execution terminates with the six results at the per-row areas of the two arguments, the
    arguments unchanged. -/
theorem run_areas : θ_run defs (onTc (τ := τ) (main (F := F))) ⟨m, fun _ => 0, ρ⟩ fun r => ∀ c : Dev nD,
      r.2.mem ((c.tc : Thread nD τ).loc main_v0_0) = areas interXZ (m ((c.tc : Thread nD τ).loc main_arg0)) (m ((c.tc : Thread nD τ).loc main_arg1))
      ∧       r.2.mem ((c.tc : Thread nD τ).loc main_v0_1) = areas mbrXZ (m ((c.tc : Thread nD τ).loc main_arg0)) (m ((c.tc : Thread nD τ).loc main_arg1))
      ∧       r.2.mem ((c.tc : Thread nD τ).loc main_v0_2) = areas interXY (m ((c.tc : Thread nD τ).loc main_arg0)) (m ((c.tc : Thread nD τ).loc main_arg1))
      ∧       r.2.mem ((c.tc : Thread nD τ).loc main_v0_3) = areas mbrXY (m ((c.tc : Thread nD τ).loc main_arg0)) (m ((c.tc : Thread nD τ).loc main_arg1))
      ∧       r.2.mem ((c.tc : Thread nD τ).loc main_v0_4) = areas interYZ (m ((c.tc : Thread nD τ).loc main_arg0)) (m ((c.tc : Thread nD τ).loc main_arg1))
      ∧       r.2.mem ((c.tc : Thread nD τ).loc main_v0_5) = areas mbrYZ (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨((h c).1 2).trans (final_2 m c),
      ((h c).1 3).trans (final_3 m c),
      ((h c).1 4).trans (final_4 m c),
      ((h c).1 5).trans (final_5 m c),
      ((h c).1 6).trans (final_6 m c),
      ((h c).1 7).trans (final_7 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.Body

end
-- ==== Proof.RefLayout.lean ====
/-
  Reading a column of an [n, 7] array as the reference takes it: the slice [:, k:k+1] of the array, reshaped from
  [n, 1] to [n]. Entry r of the result is entry (r, k) of the array.
-/
import Idealize.ShloMosaic.PureOps.Vector
import Idealize.ShloMosaic.Lib.ValueIdx
import Idealize.ShloMosaic.Lib.Pipeline.Value

noncomputable section

namespace Cert.AlignLayout

open Idealize.ShloMosaic Idealize.ShloMosaic.ValueIdx

variable {α : Type}

/-- Entry r of column k, cut out as an [n, 1] slice and flattened, is entry (r, k). -/
theorem col_ix (K : Nat) (hK : K < 7) (x : (⟨2, ![2000000, 7]⟩ : Shape).Idx → α)
    (hs : (⟨2, ![2000000, 7]⟩ : Shape).Slices ![0, K] ⟨2, ![2000000, 1]⟩)
    (hc : (⟨2, ![2000000, 1]⟩ : Shape).ShapeCasts ⟨1, ![2000000]⟩) (r : Fin 2000000) :
    shapeCast ⟨1, ![2000000]⟩ (extractStridedSlice ⟨2, ![2000000, 1]⟩ ![0, K] x hs) hc (ix1 r) = x (ix2 r ⟨K, hK⟩) :=
  (shapeCast_apply _ hc (ix1 r) (ix2 r (0 : Fin 1))
    (by rewrite [Shape.rowMajor_val_two, Shape.rowMajor_val_one]; show r.val * 1 + 0 = r.val; omega)).trans
  (extractStridedSlice_apply ![0, K] x hs (ix2 r (0 : Fin 1)) (ix2 r ⟨K, hK⟩) (fun b => match b with
    | ⟨0, _⟩ => by show r.val = 0 + r.val; omega
    | ⟨1, _⟩ => by show K = K + 0; omega))

/-- The six columns the boxes use, with the column as a numeral. -/
theorem col0_ix (x : (⟨2, ![2000000, 7]⟩ : Shape).Idx → α)
    (hs : (⟨2, ![2000000, 7]⟩ : Shape).Slices ![0, 0] ⟨2, ![2000000, 1]⟩)
    (hc : (⟨2, ![2000000, 1]⟩ : Shape).ShapeCasts ⟨1, ![2000000]⟩) (r : Fin 2000000) :
    shapeCast ⟨1, ![2000000]⟩ (extractStridedSlice ⟨2, ![2000000, 1]⟩ ![0, 0] x hs) hc (ix1 r) = x (ix2 r (0 : Fin 7)) :=
  col_ix 0 (by omega) x hs hc r
theorem col1_ix (x : (⟨2, ![2000000, 7]⟩ : Shape).Idx → α)
    (hs : (⟨2, ![2000000, 7]⟩ : Shape).Slices ![0, 1] ⟨2, ![2000000, 1]⟩)
    (hc : (⟨2, ![2000000, 1]⟩ : Shape).ShapeCasts ⟨1, ![2000000]⟩) (r : Fin 2000000) :
    shapeCast ⟨1, ![2000000]⟩ (extractStridedSlice ⟨2, ![2000000, 1]⟩ ![0, 1] x hs) hc (ix1 r) = x (ix2 r (1 : Fin 7)) :=
  col_ix 1 (by omega) x hs hc r
theorem col2_ix (x : (⟨2, ![2000000, 7]⟩ : Shape).Idx → α)
    (hs : (⟨2, ![2000000, 7]⟩ : Shape).Slices ![0, 2] ⟨2, ![2000000, 1]⟩)
    (hc : (⟨2, ![2000000, 1]⟩ : Shape).ShapeCasts ⟨1, ![2000000]⟩) (r : Fin 2000000) :
    shapeCast ⟨1, ![2000000]⟩ (extractStridedSlice ⟨2, ![2000000, 1]⟩ ![0, 2] x hs) hc (ix1 r) = x (ix2 r (2 : Fin 7)) :=
  col_ix 2 (by omega) x hs hc r
theorem col3_ix (x : (⟨2, ![2000000, 7]⟩ : Shape).Idx → α)
    (hs : (⟨2, ![2000000, 7]⟩ : Shape).Slices ![0, 3] ⟨2, ![2000000, 1]⟩)
    (hc : (⟨2, ![2000000, 1]⟩ : Shape).ShapeCasts ⟨1, ![2000000]⟩) (r : Fin 2000000) :
    shapeCast ⟨1, ![2000000]⟩ (extractStridedSlice ⟨2, ![2000000, 1]⟩ ![0, 3] x hs) hc (ix1 r) = x (ix2 r (3 : Fin 7)) :=
  col_ix 3 (by omega) x hs hc r
theorem col4_ix (x : (⟨2, ![2000000, 7]⟩ : Shape).Idx → α)
    (hs : (⟨2, ![2000000, 7]⟩ : Shape).Slices ![0, 4] ⟨2, ![2000000, 1]⟩)
    (hc : (⟨2, ![2000000, 1]⟩ : Shape).ShapeCasts ⟨1, ![2000000]⟩) (r : Fin 2000000) :
    shapeCast ⟨1, ![2000000]⟩ (extractStridedSlice ⟨2, ![2000000, 1]⟩ ![0, 4] x hs) hc (ix1 r) = x (ix2 r (4 : Fin 7)) :=
  col_ix 4 (by omega) x hs hc r
theorem col5_ix (x : (⟨2, ![2000000, 7]⟩ : Shape).Idx → α)
    (hs : (⟨2, ![2000000, 7]⟩ : Shape).Slices ![0, 5] ⟨2, ![2000000, 1]⟩)
    (hc : (⟨2, ![2000000, 1]⟩ : Shape).ShapeCasts ⟨1, ![2000000]⟩) (r : Fin 2000000) :
    shapeCast ⟨1, ![2000000]⟩ (extractStridedSlice ⟨2, ![2000000, 1]⟩ ![0, 5] x hs) hc (ix1 r) = x (ix2 r (5 : Fin 7)) :=
  col_ix 5 (by omega) x hs hc r

/-- `select` respects equality of its three arguments. -/
theorem select_congr {β : Type} {c c' : BitVec 1} {a a' b b' : β} (hc : c = c') (ha : a = a') (hb : b = b') :
    Scalar.select c a b = Scalar.select c' a' b' := by subst hc ha hb; rfl

end Cert.AlignLayout

end
-- ==== Proof.RefAfter0.lean ====
/-
  Result 0 of the reference, read back: after the 303 operations the buffer holds, entry by entry, the per-row area
  `interXZ` of rows r of the two arguments. The fold of the operations is first read at the buffer (each operation's
  result at its own buffer, anything else as it was), which leaves the composed term of the arguments; read at an
  entry, every column [:, k:k+1] flattened is the array's entry (r, k), the broadcast literals are their words, and
  the rest is entry-by-entry arithmetic — the same operations on the same numbers as `AlignCell` spells.
-/
import proofs.«165497_g23639499997224_pilotgen1_349_2_alg».proof.Proof.RefOps
import proofs.«165497_g23639499997224_pilotgen1_349_2_alg».proof.Proof.Cell
import proofs.«165497_g23639499997224_pilotgen1_349_2_alg».proof.Proof.RefLayout

set_option maxRecDepth 16384

noncomputable section

namespace Cert.ReferenceIdeal.RefValue

open Cert.ReferenceIdeal Cert.ReferenceIdeal.Gen Cert.ReferenceIdeal.Value
open Idealize.ShloMosaic Idealize.ShloMosaic.TcCoe Idealize.SL.Sem Idealize.ShloMosaic.StableHlo Idealize.ShloMosaic.ValueIdx
open Cert.AlignCell Cert.AlignLayout

variable {F : FTy → Type} [FloatOps F]

set_option maxHeartbeats 40000000 in
theorem after0 (m : (ℓ : Loc nD τ sig) → Buf (Elt F) ℓ) (c : Dev nD) :
    after ops (launchContents m c) (Proc.devRef .tc main_v72)
      = areas interXZ (m ((c.tc : Thread nD τ).loc main_arg0)) (m ((c.tc : Thread nD τ).loc main_arg1)) := by
  simp only [ops, after_append]
  simp (disch := decide) only [ops1, ops2, ops3, ops4, ops5, ops6, ops7, after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne']
  funext i
  obtain ⟨r, rfl⟩ : ∃ r : Fin 2000000, i = ix1 r := ⟨i 0, eq_ix1 i⟩
  simp only [mulf, addf, subf, minimumf, maximumf, cmpf, andi, select, broadcastInDim, constant,
    areas, row,
    interXZ, inter, mbr, iwx, iwy, iwz, mwx, mwy, mwz, iw, mw, hi, lo, half, eps, zero]
  repeat' (first
    | refine congrArg₂ FloatOps.mulf ?_ ?_ | refine congrArg₂ FloatOps.addf ?_ ?_ | refine congrArg₂ FloatOps.subf ?_ ?_
    | refine congrArg₂ FloatOps.minimumf ?_ ?_ | refine congrArg₂ FloatOps.maximumf ?_ ?_
    | refine congrArg₂ (FloatOps.cmpf _) ?_ ?_ | refine congrArg₂ IntOp.andi ?_ ?_
    | refine select_congr ?_ ?_ ?_
    | exact col0_ix _ _ _ _ | exact col1_ix _ _ _ _ | exact col2_ix _ _ _ _
    | exact col3_ix _ _ _ _ | exact col4_ix _ _ _ _ | exact col5_ix _ _ _ _
    | rfl)

end Cert.ReferenceIdeal.RefValue

end
-- ==== Proof.RefAfter1.lean ====
/-
  Result 1 of the reference, read back: after the 303 operations the buffer holds, entry by entry, the per-row area
  `mbrXZ` of rows r of the two arguments. The fold of the operations is first read at the buffer (each operation's
  result at its own buffer, anything else as it was), which leaves the composed term of the arguments; read at an
  entry, every column [:, k:k+1] flattened is the array's entry (r, k), the broadcast literals are their words, and
  the rest is entry-by-entry arithmetic — the same operations on the same numbers as `AlignCell` spells.
-/
import proofs.«165497_g23639499997224_pilotgen1_349_2_alg».proof.Proof.RefOps
import proofs.«165497_g23639499997224_pilotgen1_349_2_alg».proof.Proof.Cell
import proofs.«165497_g23639499997224_pilotgen1_349_2_alg».proof.Proof.RefLayout

set_option maxRecDepth 16384

noncomputable section

namespace Cert.ReferenceIdeal.RefValue

open Cert.ReferenceIdeal Cert.ReferenceIdeal.Gen Cert.ReferenceIdeal.Value
open Idealize.ShloMosaic Idealize.ShloMosaic.TcCoe Idealize.SL.Sem Idealize.ShloMosaic.StableHlo Idealize.ShloMosaic.ValueIdx
open Cert.AlignCell Cert.AlignLayout

variable {F : FTy → Type} [FloatOps F]

set_option maxHeartbeats 40000000 in
theorem after1 (m : (ℓ : Loc nD τ sig) → Buf (Elt F) ℓ) (c : Dev nD) :
    after ops (launchContents m c) (Proc.devRef .tc main_v83)
      = areas mbrXZ (m ((c.tc : Thread nD τ).loc main_arg0)) (m ((c.tc : Thread nD τ).loc main_arg1)) := by
  simp only [ops, after_append]
  simp (disch := decide) only [ops1, ops2, ops3, ops4, ops5, ops6, ops7, after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne']
  funext i
  obtain ⟨r, rfl⟩ : ∃ r : Fin 2000000, i = ix1 r := ⟨i 0, eq_ix1 i⟩
  simp only [mulf, addf, subf, minimumf, maximumf, cmpf, andi, select, broadcastInDim, constant,
    areas, row,
    mbrXZ, inter, mbr, iwx, iwy, iwz, mwx, mwy, mwz, iw, mw, hi, lo, half, eps, zero]
  repeat' (first
    | refine congrArg₂ FloatOps.mulf ?_ ?_ | refine congrArg₂ FloatOps.addf ?_ ?_ | refine congrArg₂ FloatOps.subf ?_ ?_
    | refine congrArg₂ FloatOps.minimumf ?_ ?_ | refine congrArg₂ FloatOps.maximumf ?_ ?_
    | refine congrArg₂ (FloatOps.cmpf _) ?_ ?_ | refine congrArg₂ IntOp.andi ?_ ?_
    | refine select_congr ?_ ?_ ?_
    | exact col0_ix _ _ _ _ | exact col1_ix _ _ _ _ | exact col2_ix _ _ _ _
    | exact col3_ix _ _ _ _ | exact col4_ix _ _ _ _ | exact col5_ix _ _ _ _
    | rfl)

end Cert.ReferenceIdeal.RefValue

end
-- ==== Proof.RefAfter2.lean ====
/-
  Result 2 of the reference, read back: after the 303 operations the buffer holds, entry by entry, the per-row area
  `interXY` of rows r of the two arguments. The fold of the operations is first read at the buffer (each operation's
  result at its own buffer, anything else as it was), which leaves the composed term of the arguments; read at an
  entry, every column [:, k:k+1] flattened is the array's entry (r, k), the broadcast literals are their words, and
  the rest is entry-by-entry arithmetic — the same operations on the same numbers as `AlignCell` spells.
-/
import proofs.«165497_g23639499997224_pilotgen1_349_2_alg».proof.Proof.RefOps
import proofs.«165497_g23639499997224_pilotgen1_349_2_alg».proof.Proof.Cell
import proofs.«165497_g23639499997224_pilotgen1_349_2_alg».proof.Proof.RefLayout

set_option maxRecDepth 16384

noncomputable section

namespace Cert.ReferenceIdeal.RefValue

open Cert.ReferenceIdeal Cert.ReferenceIdeal.Gen Cert.ReferenceIdeal.Value
open Idealize.ShloMosaic Idealize.ShloMosaic.TcCoe Idealize.SL.Sem Idealize.ShloMosaic.StableHlo Idealize.ShloMosaic.ValueIdx
open Cert.AlignCell Cert.AlignLayout

variable {F : FTy → Type} [FloatOps F]

set_option maxHeartbeats 40000000 in
theorem after2 (m : (ℓ : Loc nD τ sig) → Buf (Elt F) ℓ) (c : Dev nD) :
    after ops (launchContents m c) (Proc.devRef .tc main_v156)
      = areas interXY (m ((c.tc : Thread nD τ).loc main_arg0)) (m ((c.tc : Thread nD τ).loc main_arg1)) := by
  simp only [ops, after_append]
  simp (disch := decide) only [ops1, ops2, ops3, ops4, ops5, ops6, ops7, after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne']
  funext i
  obtain ⟨r, rfl⟩ : ∃ r : Fin 2000000, i = ix1 r := ⟨i 0, eq_ix1 i⟩
  simp only [mulf, addf, subf, minimumf, maximumf, cmpf, andi, select, broadcastInDim, constant,
    areas, row,
    interXY, inter, mbr, iwx, iwy, iwz, mwx, mwy, mwz, iw, mw, hi, lo, half, eps, zero]
  repeat' (first
    | refine congrArg₂ FloatOps.mulf ?_ ?_ | refine congrArg₂ FloatOps.addf ?_ ?_ | refine congrArg₂ FloatOps.subf ?_ ?_
    | refine congrArg₂ FloatOps.minimumf ?_ ?_ | refine congrArg₂ FloatOps.maximumf ?_ ?_
    | refine congrArg₂ (FloatOps.cmpf _) ?_ ?_ | refine congrArg₂ IntOp.andi ?_ ?_
    | refine select_congr ?_ ?_ ?_
    | exact col_ix _ (by decide) _ _ _ _
    | rfl)

end Cert.ReferenceIdeal.RefValue

end
-- ==== Proof.RefAfter3.lean ====
/-
  Result 3 of the reference, read back: after the 303 operations the buffer holds, entry by entry, the per-row area
  `mbrXY` of rows r of the two arguments. The fold of the operations is first read at the buffer (each operation's
  result at its own buffer, anything else as it was), which leaves the composed term of the arguments; read at an
  entry, every column [:, k:k+1] flattened is the array's entry (r, k), the broadcast literals are their words, and
  the rest is entry-by-entry arithmetic — the same operations on the same numbers as `AlignCell` spells.
-/
import proofs.«165497_g23639499997224_pilotgen1_349_2_alg».proof.Proof.RefOps
import proofs.«165497_g23639499997224_pilotgen1_349_2_alg».proof.Proof.Cell
import proofs.«165497_g23639499997224_pilotgen1_349_2_alg».proof.Proof.RefLayout

set_option maxRecDepth 16384

noncomputable section

namespace Cert.ReferenceIdeal.RefValue

open Cert.ReferenceIdeal Cert.ReferenceIdeal.Gen Cert.ReferenceIdeal.Value
open Idealize.ShloMosaic Idealize.ShloMosaic.TcCoe Idealize.SL.Sem Idealize.ShloMosaic.StableHlo Idealize.ShloMosaic.ValueIdx
open Cert.AlignCell Cert.AlignLayout

variable {F : FTy → Type} [FloatOps F]

set_option maxHeartbeats 40000000 in
theorem after3 (m : (ℓ : Loc nD τ sig) → Buf (Elt F) ℓ) (c : Dev nD) :
    after ops (launchContents m c) (Proc.devRef .tc main_v167)
      = areas mbrXY (m ((c.tc : Thread nD τ).loc main_arg0)) (m ((c.tc : Thread nD τ).loc main_arg1)) := by
  simp only [ops, after_append]
  simp (disch := decide) only [ops1, ops2, ops3, ops4, ops5, ops6, ops7, after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne']
  funext i
  obtain ⟨r, rfl⟩ : ∃ r : Fin 2000000, i = ix1 r := ⟨i 0, eq_ix1 i⟩
  simp only [mulf, addf, subf, minimumf, maximumf, cmpf, andi, select, broadcastInDim, constant,
    areas, row,
    mbrXY, inter, mbr, iwx, iwy, iwz, mwx, mwy, mwz, iw, mw, hi, lo, half, eps, zero]
  repeat' (first
    | refine congrArg₂ FloatOps.mulf ?_ ?_ | refine congrArg₂ FloatOps.addf ?_ ?_ | refine congrArg₂ FloatOps.subf ?_ ?_
    | refine congrArg₂ FloatOps.minimumf ?_ ?_ | refine congrArg₂ FloatOps.maximumf ?_ ?_
    | refine congrArg₂ (FloatOps.cmpf _) ?_ ?_ | refine congrArg₂ IntOp.andi ?_ ?_
    | refine select_congr ?_ ?_ ?_
    | exact col0_ix _ _ _ _ | exact col1_ix _ _ _ _ | exact col2_ix _ _ _ _
    | exact col3_ix _ _ _ _ | exact col4_ix _ _ _ _ | exact col5_ix _ _ _ _
    | rfl)

end Cert.ReferenceIdeal.RefValue

end
-- ==== Proof.RefAfter4.lean ====
/-
  Result 4 of the reference, read back: after the 303 operations the buffer holds, entry by entry, the per-row area
  `interYZ` of rows r of the two arguments. The fold of the operations is first read at the buffer (each operation's
  result at its own buffer, anything else as it was), which leaves the composed term of the arguments; read at an
  entry, every column [:, k:k+1] flattened is the array's entry (r, k), the broadcast literals are their words, and
  the rest is entry-by-entry arithmetic — the same operations on the same numbers as `AlignCell` spells.
-/
import proofs.«165497_g23639499997224_pilotgen1_349_2_alg».proof.Proof.RefOps
import proofs.«165497_g23639499997224_pilotgen1_349_2_alg».proof.Proof.Cell
import proofs.«165497_g23639499997224_pilotgen1_349_2_alg».proof.Proof.RefLayout

set_option maxRecDepth 16384

noncomputable section

namespace Cert.ReferenceIdeal.RefValue

open Cert.ReferenceIdeal Cert.ReferenceIdeal.Gen Cert.ReferenceIdeal.Value
open Idealize.ShloMosaic Idealize.ShloMosaic.TcCoe Idealize.SL.Sem Idealize.ShloMosaic.StableHlo Idealize.ShloMosaic.ValueIdx
open Cert.AlignCell Cert.AlignLayout

variable {F : FTy → Type} [FloatOps F]

set_option maxHeartbeats 40000000 in
theorem after4 (m : (ℓ : Loc nD τ sig) → Buf (Elt F) ℓ) (c : Dev nD) :
    after ops (launchContents m c) (Proc.devRef .tc main_v240)
      = areas interYZ (m ((c.tc : Thread nD τ).loc main_arg0)) (m ((c.tc : Thread nD τ).loc main_arg1)) := by
  simp only [ops, after_append]
  simp (disch := decide) only [ops1, ops2, ops3, ops4, ops5, ops6, ops7, after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne']
  funext i
  obtain ⟨r, rfl⟩ : ∃ r : Fin 2000000, i = ix1 r := ⟨i 0, eq_ix1 i⟩
  simp only [mulf, addf, subf, minimumf, maximumf, cmpf, andi, select, broadcastInDim, constant,
    areas, row,
    interYZ, inter, mbr, iwx, iwy, iwz, mwx, mwy, mwz, iw, mw, hi, lo, half, eps, zero]
  repeat' (first
    | refine congrArg₂ FloatOps.mulf ?_ ?_ | refine congrArg₂ FloatOps.addf ?_ ?_ | refine congrArg₂ FloatOps.subf ?_ ?_
    | refine congrArg₂ FloatOps.minimumf ?_ ?_ | refine congrArg₂ FloatOps.maximumf ?_ ?_
    | refine congrArg₂ (FloatOps.cmpf _) ?_ ?_ | refine congrArg₂ IntOp.andi ?_ ?_
    | refine select_congr ?_ ?_ ?_
    | exact col0_ix _ _ _ _ | exact col1_ix _ _ _ _ | exact col2_ix _ _ _ _
    | exact col3_ix _ _ _ _ | exact col4_ix _ _ _ _ | exact col5_ix _ _ _ _
    | rfl)

end Cert.ReferenceIdeal.RefValue

end
-- ==== Proof.RefAfter5.lean ====
/-
  Result 5 of the reference, read back: after the 303 operations the buffer holds, entry by entry, the per-row area
  `mbrYZ` of rows r of the two arguments. The fold of the operations is first read at the buffer (each operation's
  result at its own buffer, anything else as it was), which leaves the composed term of the arguments; read at an
  entry, every column [:, k:k+1] flattened is the array's entry (r, k), the broadcast literals are their words, and
  the rest is entry-by-entry arithmetic — the same operations on the same numbers as `AlignCell` spells.
-/
import proofs.«165497_g23639499997224_pilotgen1_349_2_alg».proof.Proof.RefOps
import proofs.«165497_g23639499997224_pilotgen1_349_2_alg».proof.Proof.Cell
import proofs.«165497_g23639499997224_pilotgen1_349_2_alg».proof.Proof.RefLayout

set_option maxRecDepth 16384

noncomputable section

namespace Cert.ReferenceIdeal.RefValue

open Cert.ReferenceIdeal Cert.ReferenceIdeal.Gen Cert.ReferenceIdeal.Value
open Idealize.ShloMosaic Idealize.ShloMosaic.TcCoe Idealize.SL.Sem Idealize.ShloMosaic.StableHlo Idealize.ShloMosaic.ValueIdx
open Cert.AlignCell Cert.AlignLayout

variable {F : FTy → Type} [FloatOps F]

set_option maxHeartbeats 40000000 in
theorem after5 (m : (ℓ : Loc nD τ sig) → Buf (Elt F) ℓ) (c : Dev nD) :
    after ops (launchContents m c) (Proc.devRef .tc main_v251)
      = areas mbrYZ (m ((c.tc : Thread nD τ).loc main_arg0)) (m ((c.tc : Thread nD τ).loc main_arg1)) := by
  simp only [ops, after_append]
  simp (disch := decide) only [ops1, ops2, ops3, ops4, ops5, ops6, ops7, after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne']
  funext i
  obtain ⟨r, rfl⟩ : ∃ r : Fin 2000000, i = ix1 r := ⟨i 0, eq_ix1 i⟩
  simp only [mulf, addf, subf, minimumf, maximumf, cmpf, andi, select, broadcastInDim, constant,
    areas, row,
    mbrYZ, inter, mbr, iwx, iwy, iwz, mwx, mwy, mwz, iw, mw, hi, lo, half, eps, zero]
  repeat' (first
    | refine congrArg₂ FloatOps.mulf ?_ ?_ | refine congrArg₂ FloatOps.addf ?_ ?_ | refine congrArg₂ FloatOps.subf ?_ ?_
    | refine congrArg₂ FloatOps.minimumf ?_ ?_ | refine congrArg₂ FloatOps.maximumf ?_ ?_
    | refine congrArg₂ (FloatOps.cmpf _) ?_ ?_ | refine congrArg₂ IntOp.andi ?_ ?_
    | refine select_congr ?_ ?_ ?_
    | exact col_ix _ (by decide) _ _ _ _
    | rfl)

end Cert.ReferenceIdeal.RefValue

end
-- ==== Proof.RefKept.lean ====
/-
  The reference writes neither of its two arguments: after the 303 operations both buffers hold what they held.
-/
import proofs.«165497_g23639499997224_pilotgen1_349_2_alg».proof.Proof.RefOps
import Idealize.ShloMosaic.Lib.Pipeline.Frame

set_option maxRecDepth 16384

noncomputable section

namespace Cert.ReferenceIdeal.RefValue

open Cert.ReferenceIdeal Cert.ReferenceIdeal.Gen Cert.ReferenceIdeal.Value
open Idealize.ShloMosaic Idealize.ShloMosaic.TcCoe Idealize.SL.Sem Idealize.ShloMosaic.StableHlo

variable {F : FTy → Type} [FloatOps F]

set_option maxHeartbeats 40000000 in
theorem kept0 (m : (ℓ : Loc nD τ sig) → Buf (Elt F) ℓ) (c : Dev nD) :
    after ops (launchContents m c) (Proc.devRef .tc main_arg0) = m ((c.tc : Thread nD τ).loc main_arg0) := by
  simp only [ops, after_append]
  simp (disch := decide) only [ops1, ops2, ops3, ops4, ops5, ops6, ops7, after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne']
  try rfl

set_option maxHeartbeats 40000000 in
theorem kept1 (m : (ℓ : Loc nD τ sig) → Buf (Elt F) ℓ) (c : Dev nD) :
    after ops (launchContents m c) (Proc.devRef .tc main_arg1) = m ((c.tc : Thread nD τ).loc main_arg1) := by
  simp only [ops, after_append]
  simp (disch := decide) only [ops1, ops2, ops3, ops4, ops5, ops6, ops7, after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne']
  try rfl

end Cert.ReferenceIdeal.RefValue

end
-- ==== Proof.RefFresh.lean ====
/-
  None of the reference's 303 operations allocates a buffer: each determines its result from its operands. Stated
  operation by operation, list by list.
-/
import proofs.«165497_g23639499997224_pilotgen1_349_2_alg».proof.Proof.RefOps

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

theorem ops_fresh1 : (ops1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem ops_fresh2 : (ops2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem ops_fresh3 : (ops3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem ops_fresh4 : (ops4 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem ops_fresh5 : (ops5 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem ops_fresh6 : (ops6 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem ops_fresh7 : (ops7 : List (HloOp τ sig (Elt F))).Forall fun op => op.fresh = ∅ :=
  ⟨rfl, rfl, rfl⟩

theorem ops_fresh : ∀ op ∈ (ops : List (HloOp τ sig (Elt F))), op.fresh = ∅ := by
  intro op h
  simp only [ops, List.mem_append] at h
  rcases h with h | h | h | h | h | h | h
  · exact List.forall_iff_forall_mem.mp ops_fresh1 op h
  · exact List.forall_iff_forall_mem.mp ops_fresh2 op h
  · exact List.forall_iff_forall_mem.mp ops_fresh3 op h
  · exact List.forall_iff_forall_mem.mp ops_fresh4 op h
  · exact List.forall_iff_forall_mem.mp ops_fresh5 op h
  · exact List.forall_iff_forall_mem.mp ops_fresh6 op h
  · exact List.forall_iff_forall_mem.mp ops_fresh7 op h

end Cert.ReferenceIdeal.Value

end
-- ==== Proof.RefRaw.lean ====
/-
  The reference's run, the buffers not yet read back: on every device, for any float values, from any memory with zero
  counters, every weakly fair execution of @main terminates with every TensorCore buffer at the fold of the 303
  operations' results over its launch contents (the library's theorem for a straight-line host program).
-/
import proofs.«165497_g23639499997224_pilotgen1_349_2_alg».proof.Proof.RefOpsSub
import proofs.«165497_g23639499997224_pilotgen1_349_2_alg».proof.Proof.RefFresh

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

theorem run_raw (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after ops (launchContents m d) (Proc.devRef .tc b) :=
  run_seq scopedRefs_eq scopedSems_eq defs main (fun _ => ops) main_eq (fun _ => ops_sub) m ρ
    (fun _ => ops_fresh)

end Cert.ReferenceIdeal.Value

end
-- ==== Proof.RefValue.lean ====
/-
  The reference program's run, read: every weakly fair execution terminates with its six results at the per-row areas
  of its two arguments (`AlignCell`), the arguments unchanged. The run is the library's for a straight-line host
  program; each buffer is read back in a module of its own (RefAfter0 … RefAfter5, RefKept).
-/
import proofs.«165497_g23639499997224_pilotgen1_349_2_alg».proof.Proof.RefAfter0
import proofs.«165497_g23639499997224_pilotgen1_349_2_alg».proof.Proof.RefAfter1
import proofs.«165497_g23639499997224_pilotgen1_349_2_alg».proof.Proof.RefAfter2
import proofs.«165497_g23639499997224_pilotgen1_349_2_alg».proof.Proof.RefAfter3
import proofs.«165497_g23639499997224_pilotgen1_349_2_alg».proof.Proof.RefAfter4
import proofs.«165497_g23639499997224_pilotgen1_349_2_alg».proof.Proof.RefAfter5
import proofs.«165497_g23639499997224_pilotgen1_349_2_alg».proof.Proof.RefKept
import proofs.«165497_g23639499997224_pilotgen1_349_2_alg».proof.Proof.RefRaw

noncomputable section

namespace Cert.ReferenceIdeal.RefValue

open Cert.ReferenceIdeal Cert.ReferenceIdeal.Gen Cert.ReferenceIdeal.Value
open Idealize.ShloMosaic Idealize.ShloMosaic.TcCoe Idealize.SL.Sem Idealize.ShloMosaic.StableHlo
open Cert.AlignCell

variable {F : FTy → Type} [FloatOps F]

theorem run_areas (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v72) = areas interXZ (m ((c.tc : Thread nD τ).loc main_arg0)) (m ((c.tc : Thread nD τ).loc main_arg1))
      ∧       r.2.mem ((c.tc : Thread nD τ).loc main_v83) = areas mbrXZ (m ((c.tc : Thread nD τ).loc main_arg0)) (m ((c.tc : Thread nD τ).loc main_arg1))
      ∧       r.2.mem ((c.tc : Thread nD τ).loc main_v156) = areas interXY (m ((c.tc : Thread nD τ).loc main_arg0)) (m ((c.tc : Thread nD τ).loc main_arg1))
      ∧       r.2.mem ((c.tc : Thread nD τ).loc main_v167) = areas mbrXY (m ((c.tc : Thread nD τ).loc main_arg0)) (m ((c.tc : Thread nD τ).loc main_arg1))
      ∧       r.2.mem ((c.tc : Thread nD τ).loc main_v240) = areas interYZ (m ((c.tc : Thread nD τ).loc main_arg0)) (m ((c.tc : Thread nD τ).loc main_arg1))
      ∧       r.2.mem ((c.tc : Thread nD τ).loc main_v251) = areas mbrYZ (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨(h c main_v72).trans (after0 m c),
      (h c main_v83).trans (after1 m c),
      (h c main_v156).trans (after2 m c),
      (h c main_v167).trans (after3 m c),
      (h c main_v240).trans (after4 m c),
      (h c main_v251).trans (after5 m c),
      (h c main_arg0).trans (kept0 m c), (h c main_arg1).trans (kept1 m c)⟩)
    (run_raw (F := F) m ρ)

end Cert.ReferenceIdeal.RefValue

end
-- ==== Proof.lean ====
/-
  The certificate's claims, assembled.

  Both programs compute, for every row i of the two [2000000, 7] box arrays, six areas: the overlap area and the
  bounding area of the two boxes' projections on the planes (x, z), (x, y) and (y, z) (`AlignCell`). The kernel does
  it block by block on a grid of 123 points, 16384 rows a point, eight chunks of 2048 rows a block, with the rows laid
  along lanes; the reference does it column by column on the whole arrays. Entry by entry the two apply the same
  operations to the same numbers in the same order, so the results are equal at any float instance — no law of
  arithmetic is used, and the precondition (finite inputs) is never opened.

  * the three frames: the kernel's two from the pipeline's frame run with the body run once at symbolic operands
    (`Body.frame`), the reference's from its run with the results dropped;
  * `preserves`: the ideal pass rewrote nothing;
  * `algebraic`: the kernel's result arrays end at `areas f` of its arguments (`Body.run_areas`), the reference's at
    `areas f` of its own (`RefValue.run_areas`), and the arguments agree.
-/
import proofs.«165497_g23639499997224_pilotgen1_349_2_alg».proof.Defs
import proofs.«165497_g23639499997224_pilotgen1_349_2_alg».proof.Proof.Gen.Kernel
import proofs.«165497_g23639499997224_pilotgen1_349_2_alg».proof.Proof.Gen.KernelIdeal
import proofs.«165497_g23639499997224_pilotgen1_349_2_alg».proof.Proof.Gen.ReferenceIdeal
import proofs.«165497_g23639499997224_pilotgen1_349_2_alg».proof.Proof.Gen.Pre_finite_inputs
import proofs.«165497_g23639499997224_pilotgen1_349_2_alg».proof.Proof.KernelFrame
import proofs.«165497_g23639499997224_pilotgen1_349_2_alg».proof.Proof.KernelIdealValue
import proofs.«165497_g23639499997224_pilotgen1_349_2_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Body.frame (F := Bits) m ρ
theorem frame_ki : Cert.frame_KernelIdeal := fun m ρ _ => Cert.KernelIdeal.Body.frame (F := Ideal) m ρ
theorem frame_ri : Cert.frame_ReferenceIdeal := fun m ρ _ =>
  (θ_run Cert.ReferenceIdeal.defs _ _).mono (fun _ h c => ⟨(h c).2.2.2.2.2.2.1, (h c).2.2.2.2.2.2.2⟩)
    (Cert.ReferenceIdeal.RefValue.run_areas (F := Ideal) m ρ)

/-- The ideal pass rewrote no operation of the kernel. -/
theorem preserves : Cert.preserves_Kernel_KernelIdeal := trivial

/-- Both runs end with result k at `areas f_k` of arrays that agree. -/
theorem algebraic : Cert.algebraic_KernelIdeal_ReferenceIdeal := by
  intro m ρ m' ρ' _ hagree
  refine ⟨_, _, _, _, _, _, Cert.KernelIdeal.Body.run_areas (F := Ideal) m ρ, ?_⟩
  refine (θ_run Cert.ReferenceIdeal.defs _ _).mono (fun _ h c => ?_)
    (Cert.ReferenceIdeal.RefValue.run_areas (F := Ideal) m' ρ')
  obtain ⟨h0, h1, h2, h3, h4, h5, ha0, ha1⟩ := h c
  rw [(hagree c).1, (hagree c).2] at h0 h1 h2 h3 h4 h5
  exact ⟨h0, h1, h2, h3, h4, h5, ha0, ha1⟩

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
